-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v146)) (v1 : (c : Dev Cert.KernelIdeal.nD) → Buf (Elt Ideal) ((c.tc : Thread Cert.KernelIdeal.nD Cert.KernelIdeal.τ).loc Cert.KernelIdeal.main_v153)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v146) = v0 c
          ∧ r.2.mem ((c.tc : Thread Cert.KernelIdeal.nD Cert.KernelIdeal.τ).loc Cert.KernelIdeal.main_v153) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_v219) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000x64 : Shape := ⟨2, ![100000, 64]⟩
abbrev S256x128 : Shape := ⟨2, ![256, 128]⟩
abbrev S128 : Shape := ⟨1, ![128]⟩
abbrev S64x128 : Shape := ⟨2, ![64, 128]⟩
abbrev S2x3x128x128 : Shape := ⟨4, ![2, 3, 128, 128]⟩
abbrev S2x3x128 : Shape := ⟨3, ![2, 3, 128]⟩
abbrev S600000 : Shape := ⟨1, ![600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S2x3x128x128 : S_.BroadcastsInDim S2x3x128x128 (![] : Fin 0 → Fin S2x3x128x128.rank)
  reducesTo_S2x3x128x128_S_d0_1_2_3 : S2x3x128x128.ReducesTo [0, 1, 2, 3] S_
  bcast_S_S2x3x128 : S_.BroadcastsInDim S2x3x128 (![] : Fin 0 → Fin S2x3x128.rank)
  reducesTo_S2x3x128_S_d0_1_2 : S2x3x128.ReducesTo [0, 1, 2] S_

variable [Facts]

def fn_part2 {F : FTy → Type} [FloatOps F] (main_arg7 : FVec F S2x3x128x128 .f32) (main_arg8 : FVec F S2x3x128 .f32) (main_v33 : IVec S_ 1) : IVec S_ 1 :=
  let main_v34 : FVec F S2x3x128x128 .f32 := Host.absf main_arg7
  let main_cst_12 : FVec F S_ .f32 := constant S_ .f32 0x7F800000#32
  let main_v35 : FVec F S2x3x128x128 .f32 := broadcastInDim S2x3x128x128 ![] bcast_S_S2x3x128x128 main_cst_12
  let main_v36 : IVec S2x3x128x128 1 := cmpf .olt main_v34 main_v35
  let main_c_13 : IVec S_ 1 := constantI S_ 1 1#1
  let main_v37 : IVec S_ 1 := (fun x v => Host.reduce IntOp.andi x v reducesTo_S2x3x128x128_S_d0_1_2_3 h_S_) main_v36 main_c_13
  let main_v38 : IVec S_ 1 := andi main_v33 main_v37
  let main_v39 : FVec F S2x3x128 .f32 := Host.absf main_arg8
  let main_cst_14 : FVec F S_ .f32 := constant S_ .f32 0x7F800000#32
  let main_v40 : FVec F S2x3x128 .f32 := broadcastInDim S2x3x128 ![] bcast_S_S2x3x128 main_cst_14
  let main_v41 : IVec S2x3x128 1 := cmpf .olt main_v39 main_v40
  let main_c_15 : IVec S_ 1 := constantI S_ 1 1#1
  let main_v42 : IVec S_ 1 := (fun x v => Host.reduce IntOp.andi x v reducesTo_S2x3x128_S_d0_1_2 h_S_) main_v41 main_c_15
  let main_v43 : IVec S_ 1 := andi main_v38 main_v42
  main_v43

def fn_part1 {F : FTy → Type} [FloatOps F] (main_arg4 : FVec F S64x128 .f32) (main_arg5 : FVec F S128 .f32) (main_arg6 : FVec F S2x3x128x128 .f32) (main_arg7 : FVec F S2x3x128x128 .f32) (main_arg8 : FVec F S2x3x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2x3x128x128 .f32 := Host.absf main_arg6
  let main_cst_10 : FVec F S_ .f32 := constant S_ .f32 0x7F800000#32
  let main_v30 : FVec F S2x3x128x128 .f32 := broadcastInDim S2x3x128x128 ![] bcast_S_S2x3x128x128 main_cst_10
  let main_v31 : IVec S2x3x128x128 1 := cmpf .olt main_v29 main_v30
  let main_c_11 : IVec S_ 1 := constantI S_ 1 1#1
  let main_v32 : IVec S_ 1 := (fun x v => Host.reduce IntOp.andi x v reducesTo_S2x3x128x128_S_d0_1_2_3 h_S_) main_v31 main_c_11
  let main_v33 : IVec S_ 1 := andi main_v28 main_v32
  fn_part2 (F := F) main_arg7 main_arg8 main_v33

def fn {F : FTy → Type} [FloatOps F] (main_arg0 : FVec F S100000x256 .f32) (main_arg1 : FVec F S100000x64 .f32) (main_arg2 : FVec F S256x128 .f32) (main_arg3 : FVec F S128 .f32) (main_arg4 : FVec F S64x128 .f32) (main_arg5 : FVec F S128 .f32) (main_arg6 : FVec F S2x3x128x128 .f32) (main_arg7 : FVec F S2x3x128x128 .f32) (main_arg8 : FVec F S2x3x128 .f32) (main_arg9 : IVec S600000 32) (main_arg10 : IVec S600000 32) (main_arg11 : IVec S600000 32) (main_arg12 : IVec S600000 32) (main_arg13 : IVec S600000 32) (main_arg14 : IVec S600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Kernel.lean ====
abbrev S100000x256 : Shape := ⟨2, ![100000, 256]⟩
abbrev S100000x64 : Shape := ⟨2, ![100000, 64]⟩
abbrev S256x128 : Shape := ⟨2, ![256, 128]⟩
abbrev S128 : Shape := ⟨1, ![128]⟩
abbrev S64x128 : Shape := ⟨2, ![64, 128]⟩
abbrev S2x3x128x128 : Shape := ⟨4, ![2, 3, 128, 128]⟩
abbrev S2x3x128 : Shape := ⟨3, ![2, 3, 128]⟩
abbrev S600000 : Shape := ⟨1, ![600000]⟩
abbrev S100000x128 : Shape := ⟨2, ![100000, 128]⟩
abbrev S5000x256 : Shape := ⟨2, ![5000, 256]⟩
abbrev S5000x128 : Shape := ⟨2, ![5000, 128]⟩
abbrev S1x128 : Shape := ⟨2, ![1, 128]⟩
abbrev S5000x64 : Shape := ⟨2, ![5000, 64]⟩
abbrev S_ : Shape := ⟨0, ![]⟩
abbrev S600000x1 : Shape := ⟨2, ![600000, 1]⟩
abbrev S600000x128 : Shape := ⟨2, ![600000, 128]⟩
abbrev S100000x1 : Shape := ⟨2, ![100000, 1]⟩
abbrev S1x1x128x128 : Shape := ⟨4, ![1, 1, 128, 128]⟩
abbrev S128x128 : Shape := ⟨2, ![128, 128]⟩
abbrev S1x1x128 : Shape := ⟨3, ![1, 1, 128]⟩
abbrev S5000 : Shape := ⟨1, ![5000]⟩
abbrev S5000x1 : Shape := ⟨2, ![5000, 1]⟩

abbrev nBuf : Space → Nat
  | .hbm => 205
  | .vmem => 54
  | .smem => 0
  | _ => 0

abbrev hbmTy0_0 (i : Nat) : BufTy := match i % 128 with
  | 0 => ⟨S100000x256, .f32⟩
  | 1 => ⟨S100000x64, .f32⟩
  | 2 => ⟨S256x128, .f32⟩
  | 3 => ⟨S128, .f32⟩
  | 4 => ⟨S64x128, .f32⟩
  | 5 => ⟨S128, .f32⟩
  | 6 => ⟨S2x3x128x128, .f32⟩
  | 7 => ⟨S2x3x128x128, .f32⟩
  | 8 => ⟨S2x3x128, .f32⟩
  | 9 => ⟨S600000, .i32⟩
  | 10 => ⟨S600000, .i32⟩
  | 11 => ⟨S600000, .i32⟩
  | 12 => ⟨S600000, .i32⟩
  | 13 => ⟨S600000, .i32⟩
  | 14 => ⟨S600000, .i32⟩
  | 15 => ⟨S100000x128, .f32⟩
  | 16 => ⟨S100000x128, .f32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x128, .f32⟩
  | 26 => ⟨S_, .f32⟩
  | 27 => ⟨S100000x128, .f32⟩
  | 28 => ⟨S600000x1, .i32⟩
  | 29 => ⟨S100000x128, .f32⟩
  | 30 => ⟨S_, .f32⟩
  | 31 => ⟨S600000x1, .f32⟩
  | 32 => ⟨S_, .f32⟩
  | 33 => ⟨S100000x1, .f32⟩
  | 34 => ⟨S600000x1, .i32⟩
  | 35 => ⟨S100000x1, .f32⟩
  | 36 => ⟨S_, .f32⟩
  | 37 => ⟨S100000x1, .f32⟩
  | 38 => ⟨S100000x1, .f32⟩
  | 39 => ⟨S100000x128, .f32⟩
  | 40 => ⟨S100000x128, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000x128, .f32⟩
  | 50 => ⟨S_, .f32⟩
  | 51 => ⟨S100000x128, .f32⟩
  | 52 => ⟨S600000x1, .i32⟩
  | 53 => ⟨S100000x128, .f32⟩
  | 54 => ⟨S_, .f32⟩
  | 55 => ⟨S600000x1, .f32⟩
  | 56 => ⟨S_, .f32⟩
  | 57 => ⟨S100000x1, .f32⟩
  | 58 => ⟨S600000x1, .i32⟩
  | 59 => ⟨S100000x1, .f32⟩
  | 60 => ⟨S_, .f32⟩
  | 61 => ⟨S100000x1, .f32⟩
  | 62 => ⟨S100000x1, .f32⟩
  | 63 => ⟨S100000x128, .f32⟩
  | 64 => ⟨S100000x128, .f32⟩
  | 65 => ⟨S_, .i32⟩
  | 66 => ⟨S600000, .i32⟩
  | 67 => ⟨S600000, .i1⟩
  | 68 => ⟨S_, .i32⟩
  | 69 => ⟨S600000, .i32⟩
  | 70 => ⟨S600000, .i32⟩
  | 71 => ⟨S600000, .i32⟩
  | 72 => ⟨S600000x1, .i32⟩
  | 73 => ⟨S600000x128, .f32⟩
  | 74 => ⟨S_, .f32⟩
  | 75 => ⟨S100000x128, .f32⟩
  | 76 => ⟨S600000x1, .i32⟩
  | 77 => ⟨S100000x128, .f32⟩
  | 78 => ⟨S_, .f32⟩
  | 79 => ⟨S600000x1, .f32⟩
  | 80 => ⟨S_, .f32⟩
  | 81 => ⟨S100000x1, .f32⟩
  | 82 => ⟨S600000x1, .i32⟩
  | 83 => ⟨S100000x1, .f32⟩
  | 84 => ⟨S_, .f32⟩
  | 85 => ⟨S100000x1, .f32⟩
  | 86 => ⟨S100000x1, .f32⟩
  | 87 => ⟨S100000x128, .f32⟩
  | 88 => ⟨S100000x128, .f32⟩
  | 89 => ⟨S1x1x128x128, .f32⟩
  | 90 => ⟨S128x128, .f32⟩
  | 91 => ⟨S1x1x128x128, .f32⟩
  | 92 => ⟨S128x128, .f32⟩
  | 93 => ⟨S128x128, .f32⟩
  | 94 => ⟨S1x1x128, .f32⟩
  | 95 => ⟨S128, .f32⟩
  | 96 => ⟨S1x1x128, .f32⟩
  | 97 => ⟨S128, .f32⟩
  | 98 => ⟨S128, .f32⟩
  | 99 => ⟨S1x1x128x128, .f32⟩
  | 100 => ⟨S128x128, .f32⟩
  | 101 => ⟨S1x1x128x128, .f32⟩
  | 102 => ⟨S128x128, .f32⟩
  | 103 => ⟨S100000x128, .f32⟩
  | 104 => ⟨S1x1x128x128, .f32⟩
  | 105 => ⟨S128x128, .f32⟩
  | 106 => ⟨S1x1x128x128, .f32⟩
  | 107 => ⟨S128x128, .f32⟩
  | 108 => ⟨S1x1x128, .f32⟩
  | 109 => ⟨S128, .f32⟩
  | 110 => ⟨S100000x128, .f32⟩
  | 111 => ⟨S_, .i32⟩
  | 112 => ⟨S600000, .i32⟩
  | 113 => ⟨S600000, .i1⟩
  | 114 => ⟨S_, .i32⟩
  | 115 => ⟨S600000, .i32⟩
  | 116 => ⟨S600000, .i32⟩
  | 117 => ⟨S600000, .i32⟩
  | 118 => ⟨S600000x1, .i32⟩
  | 119 => ⟨S600000x128, .f32⟩
  | 120 => ⟨S_, .f32⟩
  | 121 => ⟨S100000x128, .f32⟩
  | 122 => ⟨S600000x1, .i32⟩
  | 123 => ⟨S100000x128, .f32⟩
  | 124 => ⟨S_, .f32⟩
  | 125 => ⟨S600000x1, .f32⟩
  | 126 => ⟨S_, .f32⟩
  | 127 => ⟨S100000x1, .f32⟩
  | _ => ⟨S100000x256, .f32⟩

abbrev hbmTy0_1 (i : Nat) : BufTy := match i % 128 with
  | 0 => ⟨S600000x1, .i32⟩
  | 1 => ⟨S100000x1, .f32⟩
  | 2 => ⟨S_, .f32⟩
  | 3 => ⟨S100000x1, .f32⟩
  | 4 => ⟨S100000x1, .f32⟩
  | 5 => ⟨S100000x128, .f32⟩
  | 6 => ⟨S100000x128, .f32⟩
  | 7 => ⟨S_, .i32⟩
  | 8 => ⟨S600000, .i32⟩
  | 9 => ⟨S600000, .i1⟩
  | 10 => ⟨S_, .i32⟩
  | 11 => ⟨S600000, .i32⟩
  | 12 => ⟨S600000, .i32⟩
  | 13 => ⟨S600000, .i32⟩
  | 14 => ⟨S600000x1, .i32⟩
  | 15 => ⟨S600000x128, .f32⟩
  | 16 => ⟨S_, .f32⟩
  | 17 => ⟨S100000x128, .f32⟩
  | 18 => ⟨S600000x1, .i32⟩
  | 19 => ⟨S100000x128, .f32⟩
  | 20 => ⟨S_, .f32⟩
  | 21 => ⟨S600000x1, .f32⟩
  | 22 => ⟨S_, .f32⟩
  | 23 => ⟨S100000x1, .f32⟩
  | 24 => ⟨S600000x1, .i32⟩
  | 25 => ⟨S100000x1, .f32⟩
  | 26 => ⟨S_, .f32⟩
  | 27 => ⟨S100000x1, .f32⟩
  | 28 => ⟨S100000x1, .f32⟩
  | 29 => ⟨S100000x128, .f32⟩
  | 30 => ⟨S100000x128, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000x128, .f32⟩
  | 40 => ⟨S_, .f32⟩
  | 41 => ⟨S100000x128, .f32⟩
  | 42 => ⟨S600000x1, .i32⟩
  | 43 => ⟨S100000x128, .f32⟩
  | 44 => ⟨S_, .f32⟩
  | 45 => ⟨S600000x1, .f32⟩
  | 46 => ⟨S_, .f32⟩
  | 47 => ⟨S100000x1, .f32⟩
  | 48 => ⟨S600000x1, .i32⟩
  | 49 => ⟨S100000x1, .f32⟩
  | 50 => ⟨S_, .f32⟩
  | 51 => ⟨S100000x1, .f32⟩
  | 52 => ⟨S100000x1, .f32⟩
  | 53 => ⟨S100000x128, .f32⟩
  | 54 => ⟨S100000x128, .f32⟩
  | 55 => ⟨S1x1x128x128, .f32⟩
  | 56 => ⟨S128x128, .f32⟩
  | 57 => ⟨S1x1x128x128, .f32⟩
  | 58 => ⟨S128x128, .f32⟩
  | 59 => ⟨S128x128, .f32⟩
  | 60 => ⟨S1x1x128, .f32⟩
  | 61 => ⟨S128, .f32⟩
  | 62 => ⟨S1x1x128, .f32⟩
  | 63 => ⟨S128, .f32⟩
  | 64 => ⟨S128, .f32⟩
  | 65 => ⟨S1x1x128x128, .f32⟩
  | 66 => ⟨S128x128, .f32⟩
  | 67 => ⟨S1x1x128x128, .f32⟩
  | 68 => ⟨S128x128, .f32⟩
  | 69 => ⟨S100000x128, .f32⟩
  | 70 => ⟨S1x1x128x128, .f32⟩
  | 71 => ⟨S128x128, .f32⟩
  | 72 => ⟨S1x1x128x128, .f32⟩
  | 73 => ⟨S128x128, .f32⟩
  | 74 => ⟨S1x1x128, .f32⟩
  | 75 => ⟨S128, .f32⟩
  | 76 => ⟨S100000x128, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x64, .f32⟩
  | .local _ .vmem, ⟨7, _⟩ => ⟨S5000x64, .f32⟩
  | .local _ .vmem, ⟨8, _⟩ => ⟨S64x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S5000x128, .f32⟩
  | .local _ .vmem, ⟨28, _⟩ => ⟨S5000x128, .f32⟩
  | .local _ .vmem, ⟨29, _⟩ => ⟨S128x128, .f32⟩
  | .local _ .vmem, ⟨30, _⟩ => ⟨S128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S128x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S5000x128, .f32⟩
  | .local _ .vmem, ⟨40, _⟩ => ⟨S5000x128, .f32⟩
  | .local _ .vmem, ⟨41, _⟩ => ⟨S128x128, .f32⟩
  | .local _ .vmem, ⟨42, _⟩ => ⟨S128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S128x128, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S128, .f32⟩
  | .local _ .vmem, ⟨52, _⟩ => ⟨S5000x128, .f32⟩
  | .local _ .vmem, ⟨53, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_7 : Ref sig .tc := ⟨.hbm, 54, rfl⟩
abbrev main_v30 : Ref sig .tc := ⟨.hbm, 55, rfl⟩
abbrev main_cst_8 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_9 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_10 : Ref sig .tc := ⟨.hbm, 65, rfl⟩
abbrev main_v38 : Ref sig .tc := ⟨.hbm, 66, rfl⟩
abbrev main_v39 : Ref sig .tc := ⟨.hbm, 67, rfl⟩
abbrev main_c_11 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_12 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_13 : Ref sig .tc := ⟨.hbm, 78, rfl⟩
abbrev main_v48 : Ref sig .tc := ⟨.hbm, 79, rfl⟩
abbrev main_cst_14 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_15 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_16 : Ref sig .tc := ⟨.hbm, 111, rfl⟩
abbrev main_v78 : Ref sig .tc := ⟨.hbm, 112, rfl⟩
abbrev main_v79 : Ref sig .tc := ⟨.hbm, 113, rfl⟩
abbrev main_c_17 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_18 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_19 : Ref sig .tc := ⟨.hbm, 124, rfl⟩
abbrev main_v88 : Ref sig .tc := ⟨.hbm, 125, rfl⟩
abbrev main_cst_20 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_21 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_c_22 : Ref sig .tc := ⟨.hbm, 135, rfl⟩
abbrev main_v96 : Ref sig .tc := ⟨.hbm, 136, rfl⟩
abbrev main_v97 : Ref sig .tc := ⟨.hbm, 137, rfl⟩
abbrev main_c_23 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_24 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_25 : Ref sig .tc := ⟨.hbm, 148, rfl⟩
abbrev main_v106 : Ref sig .tc := ⟨.hbm, 149, rfl⟩
abbrev main_cst_26 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_27 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_c_28 : Ref sig .tc := ⟨.hbm, 159, rfl⟩
abbrev main_v114 : Ref sig .tc := ⟨.hbm, 160, rfl⟩
abbrev main_v115 : Ref sig .tc := ⟨.hbm, 161, rfl⟩
abbrev main_c_29 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_30 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_cst_31 : Ref sig .tc := ⟨.hbm, 172, rfl⟩
abbrev main_v124 : Ref sig .tc := ⟨.hbm, 173, rfl⟩
abbrev main_cst_32 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_33 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg4_1 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg7_0 : Ref sig .tc := ⟨.vmem, 43, rfl⟩
abbrev cc4_stg7_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg2_0 : Ref sig .tc := ⟨.vmem, 48, rfl⟩
abbrev cc5_stg2_1 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19
abbrev cc2_sem5_0 : DmaSem sig := 20
abbrev cc2_sem6_0 : DmaSem sig := 21
abbrev cc2_sem7_0 : DmaSem sig := 22
abbrev cc2_sem7_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem2_1 : DmaSem sig := 37
abbrev cc4_sem3_0 : DmaSem sig := 38
abbrev cc4_sem4_0 : DmaSem sig := 39
abbrev cc4_sem4_1 : DmaSem sig := 40
abbrev cc4_sem5_0 : DmaSem sig := 41
abbrev cc4_sem6_0 : DmaSem sig := 42
abbrev cc4_sem7_0 : DmaSem sig := 43
abbrev cc4_sem7_1 : DmaSem sig := 44
abbrev cc5_sem0_0 : DmaSem sig := 45
abbrev cc5_sem0_1 : DmaSem sig := 46
abbrev cc5_sem1_0 : DmaSem sig := 47
abbrev cc5_sem2_0 : DmaSem sig := 48
abbrev cc5_sem2_1 : DmaSem sig := 49
abbrev cc5_sem3_0 : DmaSem sig := 50
abbrev cc5_sem4_0 : DmaSem sig := 51
abbrev cc5_sem5_0 : DmaSem sig := 52
abbrev cc5_sem5_1 : DmaSem sig := 53

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S5000x64_S5000x64_0_0 : ∀ a, (![0, 0] : Fin 2 → Nat) a + S5000x64.size a ≤ S5000x64.size a
  h_S5000x64 : 0 < S5000x64.numel
  inb_S64x128_S64x128_0_0 : ∀ a, (![0, 0] : Fin 2 → Nat) a + S64x128.size a ≤ S64x128.size a
  h_S64x128 : 0 < S64x128.numel
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S600000x1 : S_.BroadcastsInDim S600000x1 (![] : Fin 0 → Fin S600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S2x3x128x128_S1x1x128x128_0_0_0_0 : S2x3x128x128.Slices ![0, 0, 0, 0] S1x1x128x128
  shapeCasts_S1x1x128x128_S128x128 : S1x1x128x128.ShapeCasts S128x128
  slices_S2x3x128x128_S1x1x128x128_0_2_0_0 : S2x3x128x128.Slices ![0, 2, 0, 0] S1x1x128x128
  slices_S2x3x128_S1x1x128_0_0_0 : S2x3x128.Slices ![0, 0, 0] S1x1x128
  shapeCasts_S1x1x128_S128 : S1x1x128.ShapeCasts S128
  slices_S2x3x128_S1x1x128_0_2_0 : S2x3x128.Slices ![0, 2, 0] S1x1x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S128 : S128.ShapeCasts S128
  slices_S2x3x128x128_S1x1x128x128_0_1_0_0 : S2x3x128x128.Slices ![0, 1, 0, 0] S1x1x128x128
  slices_S2x3x128_S1x1x128_0_1_0 : S2x3x128.Slices ![0, 1, 0] S1x1x128
  slices_S2x3x128x128_S1x1x128x128_1_0_0_0 : S2x3x128x128.Slices ![1, 0, 0, 0] S1x1x128x128
  slices_S2x3x128x128_S1x1x128x128_1_2_0_0 : S2x3x128x128.Slices ![1, 2, 0, 0] S1x1x128x128
  slices_S2x3x128_S1x1x128_1_0_0 : S2x3x128.Slices ![1, 0, 0] S1x1x128
  slices_S2x3x128_S1x1x128_1_2_0 : S2x3x128.Slices ![1, 2, 0] S1x1x128
  reduces_S5000x128_S5000 : S5000x128.Reduces [1] S5000
  shapeCasts_S5000_S5000x1 : S5000.ShapeCasts S5000x1
  broadcasts_S5000x1_S5000x128 : S5000x1.Broadcasts S5000x128
  slices_S2x3x128x128_S1x1x128x128_1_1_0_0 : S2x3x128x128.Slices ![1, 1, 0, 0] S1x1x128x128
  slices_S2x3x128_S1x1x128_1_1_0 : S2x3x128.Slices ![1, 1, 0] S1x1x128
  dot_S5000x256_S256x128_S5000x128_1_0_0_1_n_n_wf : DotDims.WF S5000x256 S256x128 S5000x128 [1] [0] [0] [1] [] []
  dot_S5000x64_S64x128_S5000x128_1_0_0_1_n_n_wf : DotDims.WF S5000x64 S64x128 S5000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128.size a ≤ S128.size a
  hwx4_6 : ∀ i : grid4.Coords, EltTy.bits .f32 = 32 ∨ (Rect.block (s := S128) S128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S100000x128.size a
  hwx4_7 : ∀ i : grid4.Coords, EltTy.bits .f32 = 32 ∨ (Rect.block (s := S100000x128) S5000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v67) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S5000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v69) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v65) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v70) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v1) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v37) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v74) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v70) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v136) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v95) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v143) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v131) S5000x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v145) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v141) S128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v146) S5000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v77) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v148) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v113) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v150) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v152) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v153) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x256 : Shape := ⟨2, ![100000, 256]⟩
abbrev S100000x64 : Shape := ⟨2, ![100000, 64]⟩
abbrev S256x128 : Shape := ⟨2, ![256, 128]⟩
abbrev S128 : Shape := ⟨1, ![128]⟩
abbrev S64x128 : Shape := ⟨2, ![64, 128]⟩
abbrev S2x3x128x128 : Shape := ⟨4, ![2, 3, 128, 128]⟩
abbrev S2x3x128 : Shape := ⟨3, ![2, 3, 128]⟩
abbrev S600000 : Shape := ⟨1, ![600000]⟩
abbrev S100000x128 : Shape := ⟨2, ![100000, 128]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S100000x1 : Shape := ⟨2, ![100000, 1]⟩
abbrev S1x1x128x128 : Shape := ⟨4, ![1, 1, 128, 128]⟩
abbrev S128x128 : Shape := ⟨2, ![128, 128]⟩
abbrev S1x1x128 : Shape := ⟨3, ![1, 1, 128]⟩
abbrev S100000 : Shape := ⟨1, ![100000]⟩

abbrev nBuf : Space → Nat
  | .hbm => 291
  | .vmem => 0
  | .smem => 0
  | _ => 0

abbrev hbmTy0_0 (i : Nat) : BufTy := match i % 128 with
  | 0 => ⟨S100000x256, .f32⟩
  | 1 => ⟨S100000x64, .f32⟩
  | 2 => ⟨S256x128, .f32⟩
  | 3 => ⟨S128, .f32⟩
  | 4 => ⟨S64x128, .f32⟩
  | 5 => ⟨S128, .f32⟩
  | 6 => ⟨S2x3x128x128, .f32⟩
  | 7 => ⟨S2x3x128x128, .f32⟩
  | 8 => ⟨S2x3x128, .f32⟩
  | 9 => ⟨S600000, .i32⟩
  | 10 => ⟨S600000, .i32⟩
  | 11 => ⟨S600000, .i32⟩
  | 12 => ⟨S600000, .i32⟩
  | 13 => ⟨S600000, .i32⟩
  | 14 => ⟨S600000, .i32⟩
  | 15 => ⟨S100000x128, .f32⟩
  | 16 => ⟨S1x128, .f32⟩
  | 17 => ⟨S100000x128, .f32⟩
  | 18 => ⟨S100000x128, .f32⟩
  | 19 => ⟨S_, .f32⟩
  | 20 => ⟨S100000x128, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S_, .f32⟩
  | 30 => ⟨S100000x128, .f32⟩
  | 31 => ⟨S_, .f32⟩
  | 32 => ⟨S100000x128, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000x128, .f32⟩
  | 42 => ⟨S_, .f32⟩
  | 43 => ⟨S100000x128, .f32⟩
  | 44 => ⟨S600000x1, .i32⟩
  | 45 => ⟨S100000x128, .f32⟩
  | 46 => ⟨S_, .f32⟩
  | 47 => ⟨S600000x1, .f32⟩
  | 48 => ⟨S_, .f32⟩
  | 49 => ⟨S100000x1, .f32⟩
  | 50 => ⟨S600000x1, .i32⟩
  | 51 => ⟨S100000x1, .f32⟩
  | 52 => ⟨S_, .f32⟩
  | 53 => ⟨S100000x1, .f32⟩
  | 54 => ⟨S100000x1, .f32⟩
  | 55 => ⟨S100000x128, .f32⟩
  | 56 => ⟨S100000x128, .f32⟩
  | 57 => ⟨S1x1x128x128, .f32⟩
  | 58 => ⟨S128x128, .f32⟩
  | 59 => ⟨S100000x128, .f32⟩
  | 60 => ⟨S100000x128, .f32⟩
  | 61 => ⟨S1x1x128x128, .f32⟩
  | 62 => ⟨S128x128, .f32⟩
  | 63 => ⟨S100000x128, .f32⟩
  | 64 => ⟨S100000x128, .f32⟩
  | 65 => ⟨S1x1x128, .f32⟩
  | 66 => ⟨S128, .f32⟩
  | 67 => ⟨S1x128, .f32⟩
  | 68 => ⟨S100000x128, .f32⟩
  | 69 => ⟨S100000x128, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S600000x128, .f32⟩
  | 79 => ⟨S_, .f32⟩
  | 80 => ⟨S100000x128, .f32⟩
  | 81 => ⟨S600000x1, .i32⟩
  | 82 => ⟨S100000x128, .f32⟩
  | 83 => ⟨S_, .f32⟩
  | 84 => ⟨S600000x1, .f32⟩
  | 85 => ⟨S_, .f32⟩
  | 86 => ⟨S100000x1, .f32⟩
  | 87 => ⟨S600000x1, .i32⟩
  | 88 => ⟨S100000x1, .f32⟩
  | 89 => ⟨S_, .f32⟩
  | 90 => ⟨S100000x1, .f32⟩
  | 91 => ⟨S100000x1, .f32⟩
  | 92 => ⟨S100000x128, .f32⟩
  | 93 => ⟨S100000x128, .f32⟩
  | 94 => ⟨S1x1x128x128, .f32⟩
  | 95 => ⟨S128x128, .f32⟩
  | 96 => ⟨S100000x128, .f32⟩
  | 97 => ⟨S100000x128, .f32⟩
  | 98 => ⟨S1x1x128x128, .f32⟩
  | 99 => ⟨S128x128, .f32⟩
  | 100 => ⟨S100000x128, .f32⟩
  | 101 => ⟨S100000x128, .f32⟩
  | 102 => ⟨S1x1x128, .f32⟩
  | 103 => ⟨S128, .f32⟩
  | 104 => ⟨S1x128, .f32⟩
  | 105 => ⟨S100000x128, .f32⟩
  | 106 => ⟨S100000x128, .f32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S600000x128, .f32⟩
  | 116 => ⟨S_, .f32⟩
  | 117 => ⟨S100000x128, .f32⟩
  | 118 => ⟨S600000x1, .i32⟩
  | 119 => ⟨S100000x128, .f32⟩
  | 120 => ⟨S_, .f32⟩
  | 121 => ⟨S600000x1, .f32⟩
  | 122 => ⟨S_, .f32⟩
  | 123 => ⟨S100000x1, .f32⟩
  | 124 => ⟨S600000x1, .i32⟩
  | 125 => ⟨S100000x1, .f32⟩
  | 126 => ⟨S_, .f32⟩
  | 127 => ⟨S100000x1, .f32⟩
  | _ => ⟨S100000x256, .f32⟩

abbrev hbmTy0_1 (i : Nat) : BufTy := match i % 128 with
  | 0 => ⟨S100000x1, .f32⟩
  | 1 => ⟨S100000x128, .f32⟩
  | 2 => ⟨S100000x128, .f32⟩
  | 3 => ⟨S1x1x128x128, .f32⟩
  | 4 => ⟨S128x128, .f32⟩
  | 5 => ⟨S100000x128, .f32⟩
  | 6 => ⟨S100000x128, .f32⟩
  | 7 => ⟨S1x1x128x128, .f32⟩
  | 8 => ⟨S128x128, .f32⟩
  | 9 => ⟨S100000x128, .f32⟩
  | 10 => ⟨S100000x128, .f32⟩
  | 11 => ⟨S1x1x128, .f32⟩
  | 12 => ⟨S128, .f32⟩
  | 13 => ⟨S1x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S_, .f32⟩
  | 20 => ⟨S100000x128, .f32⟩
  | 21 => ⟨S100000x128, .f32⟩
  | 22 => ⟨S_, .f32⟩
  | 23 => ⟨S100000x128, .f32⟩
  | 24 => ⟨S_, .f32⟩
  | 25 => ⟨S100000x128, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000x128, .f32⟩
  | 35 => ⟨S_, .f32⟩
  | 36 => ⟨S100000x128, .f32⟩
  | 37 => ⟨S600000x1, .i32⟩
  | 38 => ⟨S100000x128, .f32⟩
  | 39 => ⟨S_, .f32⟩
  | 40 => ⟨S600000x1, .f32⟩
  | 41 => ⟨S_, .f32⟩
  | 42 => ⟨S100000x1, .f32⟩
  | 43 => ⟨S600000x1, .i32⟩
  | 44 => ⟨S100000x1, .f32⟩
  | 45 => ⟨S_, .f32⟩
  | 46 => ⟨S100000x1, .f32⟩
  | 47 => ⟨S100000x1, .f32⟩
  | 48 => ⟨S100000x128, .f32⟩
  | 49 => ⟨S100000x128, .f32⟩
  | 50 => ⟨S1x1x128x128, .f32⟩
  | 51 => ⟨S128x128, .f32⟩
  | 52 => ⟨S100000x128, .f32⟩
  | 53 => ⟨S100000x128, .f32⟩
  | 54 => ⟨S1x1x128x128, .f32⟩
  | 55 => ⟨S128x128, .f32⟩
  | 56 => ⟨S100000x128, .f32⟩
  | 57 => ⟨S100000x128, .f32⟩
  | 58 => ⟨S1x1x128, .f32⟩
  | 59 => ⟨S128, .f32⟩
  | 60 => ⟨S1x128, .f32⟩
  | 61 => ⟨S100000x128, .f32⟩
  | 62 => ⟨S100000x128, .f32⟩
  | 63 => ⟨S_, .i32⟩
  | 64 => ⟨S600000, .i32⟩
  | 65 => ⟨S600000, .i1⟩
  | 66 => ⟨S_, .i32⟩
  | 67 => ⟨S600000, .i32⟩
  | 68 => ⟨S600000, .i32⟩
  | 69 => ⟨S600000, .i32⟩
  | 70 => ⟨S600000x1, .i32⟩
  | 71 => ⟨S600000x128, .f32⟩
  | 72 => ⟨S_, .f32⟩
  | 73 => ⟨S100000x128, .f32⟩
  | 74 => ⟨S600000x1, .i32⟩
  | 75 => ⟨S100000x128, .f32⟩
  | 76 => ⟨S_, .f32⟩
  | 77 => ⟨S600000x1, .f32⟩
  | 78 => ⟨S_, .f32⟩
  | 79 => ⟨S100000x1, .f32⟩
  | 80 => ⟨S600000x1, .i32⟩
  | 81 => ⟨S100000x1, .f32⟩
  | 82 => ⟨S_, .f32⟩
  | 83 => ⟨S100000x1, .f32⟩
  | 84 => ⟨S100000x1, .f32⟩
  | 85 => ⟨S100000x128, .f32⟩
  | 86 => ⟨S100000x128, .f32⟩
  | 87 => ⟨S1x1x128x128, .f32⟩
  | 88 => ⟨S128x128, .f32⟩
  | 89 => ⟨S100000x128, .f32⟩
  | 90 => ⟨S100000x128, .f32⟩
  | 91 => ⟨S1x1x128x128, .f32⟩
  | 92 => ⟨S128x128, .f32⟩
  | 93 => ⟨S100000x128, .f32⟩
  | 94 => ⟨S100000x128, .f32⟩
  | 95 => ⟨S1x1x128, .f32⟩
  | 96 => ⟨S128, .f32⟩
  | 97 => ⟨S1x128, .f32⟩
  | 98 => ⟨S100000x128, .f32⟩
  | 99 => ⟨S100000x128, .f32⟩
  | 100 => ⟨S_, .i32⟩
  | 101 => ⟨S600000, .i32⟩
  | 102 => ⟨S600000, .i1⟩
  | 103 => ⟨S_, .i32⟩
  | 104 => ⟨S600000, .i32⟩
  | 105 => ⟨S600000, .i32⟩
  | 106 => ⟨S600000, .i32⟩
  | 107 => ⟨S600000x1, .i32⟩
  | 108 => ⟨S600000x128, .f32⟩
  | 109 => ⟨S_, .f32⟩
  | 110 => ⟨S100000x128, .f32⟩
  | 111 => ⟨S600000x1, .i32⟩
  | 112 => ⟨S100000x128, .f32⟩
  | 113 => ⟨S_, .f32⟩
  | 114 => ⟨S600000x1, .f32⟩
  | 115 => ⟨S_, .f32⟩
  | 116 => ⟨S100000x1, .f32⟩
  | 117 => ⟨S600000x1, .i32⟩
  | 118 => ⟨S100000x1, .f32⟩
  | 119 => ⟨S_, .f32⟩
  | 120 => ⟨S100000x1, .f32⟩
  | 121 => ⟨S100000x1, .f32⟩
  | 122 => ⟨S100000x128, .f32⟩
  | 123 => ⟨S100000x128, .f32⟩
  | 124 => ⟨S1x1x128x128, .f32⟩
  | 125 => ⟨S128x128, .f32⟩
  | 126 => ⟨S100000x128, .f32⟩
  | 127 => ⟨S100000x128, .f32⟩
  | _ => ⟨S100000x256, .f32⟩

abbrev hbmTy0_2 (i : Nat) : BufTy := match i % 128 with
  | 0 => ⟨S1x1x128x128, .f32⟩
  | 1 => ⟨S128x128, .f32⟩
  | 2 => ⟨S100000x128, .f32⟩
  | 3 => ⟨S100000x128, .f32⟩
  | 4 => ⟨S1x1x128, .f32⟩
  | 5 => ⟨S128, .f32⟩
  | 6 => ⟨S1x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S100000x128, .f32⟩
  | 16 => ⟨S_, .f32⟩
  | 17 => ⟨S100000, .f32⟩
  | 18 => ⟨S100000x1, .f32⟩
  | 19 => ⟨S100000x1, .f32⟩
  | 20 => ⟨S_, .f32⟩
  | 21 => ⟨S100000x1, .f32⟩
  | 22 => ⟨S100000x1, .f32⟩
  | 23 => ⟨S100000x128, .f32⟩
  | 24 => ⟨S100000x128, .f32⟩
  | 25 => ⟨S100000x128, .f32⟩
  | 26 => ⟨S_, .f32⟩
  | 27 => ⟨S100000, .f32⟩
  | 28 => ⟨S100000x1, .f32⟩
  | 29 => ⟨S100000x1, .f32⟩
  | 30 => ⟨S_, .f32⟩
  | 31 => ⟨S100000x1, .f32⟩
  | 32 => ⟨S100000x1, .f32⟩
  | 33 => ⟨S100000x128, .f32⟩
  | 34 => ⟨S100000x128, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_cst : Ref sig .tc := ⟨.hbm, 26, rfl⟩
abbrev main_call1_v0 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_2 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_3 : Ref sig .tc := ⟨.hbm, 46, rfl⟩
abbrev main_v22 : Ref sig .tc := ⟨.hbm, 47, rfl⟩
abbrev main_cst_4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_6 : Ref sig .tc := ⟨.hbm, 70, rfl⟩
abbrev main_v43 : Ref sig .tc := ⟨.hbm, 71, rfl⟩
abbrev main_v44 : Ref sig .tc := ⟨.hbm, 72, rfl⟩
abbrev main_c_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_8 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_9 : Ref sig .tc := ⟨.hbm, 83, rfl⟩
abbrev main_v53 : Ref sig .tc := ⟨.hbm, 84, rfl⟩
abbrev main_cst_10 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_11 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_12 : Ref sig .tc := ⟨.hbm, 107, rfl⟩
abbrev main_v74 : Ref sig .tc := ⟨.hbm, 108, rfl⟩
abbrev main_v75 : Ref sig .tc := ⟨.hbm, 109, rfl⟩
abbrev main_c_13 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_14 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_cst_16 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_17 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_call2_cst : Ref sig .tc := ⟨.hbm, 144, rfl⟩
abbrev main_call2_v0 : Ref sig .tc := ⟨.hbm, 145, rfl⟩
abbrev main_v105 : Ref sig .tc := ⟨.hbm, 146, rfl⟩
abbrev main_call3_cst : Ref sig .tc := ⟨.hbm, 147, rfl⟩
abbrev main_call3_v0 : Ref sig .tc := ⟨.hbm, 148, rfl⟩
abbrev main_v106 : Ref sig .tc := ⟨.hbm, 149, rfl⟩
abbrev main_cst_18 : Ref sig .tc := ⟨.hbm, 150, rfl⟩
abbrev main_v107 : Ref sig .tc := ⟨.hbm, 151, rfl⟩
abbrev main_cst_19 : Ref sig .tc := ⟨.hbm, 152, rfl⟩
abbrev main_v108 : Ref sig .tc := ⟨.hbm, 153, rfl⟩
abbrev main_c_20 : Ref sig .tc := ⟨.hbm, 154, rfl⟩
abbrev main_v109 : Ref sig .tc := ⟨.hbm, 155, rfl⟩
abbrev main_v110 : Ref sig .tc := ⟨.hbm, 156, rfl⟩
abbrev main_c_21 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_22 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_cst_23 : Ref sig .tc := ⟨.hbm, 167, rfl⟩
abbrev main_v119 : Ref sig .tc := ⟨.hbm, 168, rfl⟩
abbrev main_cst_24 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_25 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_c_26 : Ref sig .tc := ⟨.hbm, 191, rfl⟩
abbrev main_v140 : Ref sig .tc := ⟨.hbm, 192, rfl⟩
abbrev main_v141 : Ref sig .tc := ⟨.hbm, 193, rfl⟩
abbrev main_c_27 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_cst_28 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_cst_29 : Ref sig .tc := ⟨.hbm, 204, rfl⟩
abbrev main_v150 : Ref sig .tc := ⟨.hbm, 205, rfl⟩
abbrev main_cst_30 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_cst_31 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_c_32 : Ref sig .tc := ⟨.hbm, 228, rfl⟩
abbrev main_v171 : Ref sig .tc := ⟨.hbm, 229, rfl⟩
abbrev main_v172 : Ref sig .tc := ⟨.hbm, 230, rfl⟩
abbrev main_c_33 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_cst_34 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_cst_35 : Ref sig .tc := ⟨.hbm, 241, rfl⟩
abbrev main_v181 : Ref sig .tc := ⟨.hbm, 242, rfl⟩
abbrev main_cst_36 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_cst_37 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_call4_cst : Ref sig .tc := ⟨.hbm, 265, rfl⟩
abbrev main_call4_v0 : Ref sig .tc := ⟨.hbm, 266, rfl⟩
abbrev main_v202 : Ref sig .tc := ⟨.hbm, 267, rfl⟩
abbrev main_call5_cst : Ref sig .tc := ⟨.hbm, 268, rfl⟩
abbrev main_call5_v0 : Ref sig .tc := ⟨.hbm, 269, rfl⟩
abbrev main_v203 : Ref sig .tc := ⟨.hbm, 270, rfl⟩
abbrev main_v204 : Ref sig .tc := ⟨.hbm, 271, rfl⟩
abbrev main_cst_38 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_cst_39 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_cst_40 : Ref sig .tc := ⟨.hbm, 282, rfl⟩
abbrev main_v213 : Ref sig .tc := ⟨.hbm, 283, rfl⟩
abbrev main_v214 : Ref sig .tc := ⟨.hbm, 284, rfl⟩
abbrev main_v215 : Ref sig .tc := ⟨.hbm, 285, rfl⟩
abbrev main_cst_41 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S2x3x128x128_S1x1x128x128_0_0_0_0 : S2x3x128x128.Slices ![0, 0, 0, 0] S1x1x128x128
  shapeCasts_S1x1x128x128_S128x128 : S1x1x128x128.ShapeCasts S128x128
  slices_S2x3x128_S1x1x128_0_0_0 : S2x3x128.Slices ![0, 0, 0] S1x1x128
  shapeCasts_S1x1x128_S128 : S1x1x128.ShapeCasts S128
  slices_S2x3x128x128_S1x1x128x128_0_1_0_0 : S2x3x128x128.Slices ![0, 1, 0, 0] S1x1x128x128
  slices_S2x3x128_S1x1x128_0_1_0 : S2x3x128.Slices ![0, 1, 0] S1x1x128
  slices_S2x3x128x128_S1x1x128x128_0_2_0_0 : S2x3x128x128.Slices ![0, 2, 0, 0] S1x1x128x128
  slices_S2x3x128_S1x1x128_0_2_0 : S2x3x128.Slices ![0, 2, 0] S1x1x128
  slices_S2x3x128x128_S1x1x128x128_1_0_0_0 : S2x3x128x128.Slices ![1, 0, 0, 0] S1x1x128x128
  slices_S2x3x128_S1x1x128_1_0_0 : S2x3x128.Slices ![1, 0, 0] S1x1x128
  slices_S2x3x128x128_S1x1x128x128_1_1_0_0 : S2x3x128x128.Slices ![1, 1, 0, 0] S1x1x128x128
  slices_S2x3x128_S1x1x128_1_1_0 : S2x3x128.Slices ![1, 1, 0] S1x1x128
  slices_S2x3x128x128_S1x1x128x128_1_2_0_0 : S2x3x128x128.Slices ![1, 2, 0, 0] S1x1x128x128
  slices_S2x3x128_S1x1x128_1_2_0 : S2x3x128.Slices ![1, 2, 0] S1x1x128
  reducesTo_S100000x128_S100000_d1 : S100000x128.ReducesTo [1] S100000
  h_S_ : 0 < S_.numel
  bcast_S100000_S100000x1_0 : S100000.BroadcastsInDim S100000x1 (![0] : Fin 1 → Fin S100000x1.rank)
  dot_S100000x256_S256x128_S100000x128_1_0_0_1_n_n_wf : DotDims.WF S100000x256 S256x128 S100000x128 [1] [0] [0] [1] [] []
  dot_S100000x64_S64x128_S100000x128_1_0_0_1_n_n_wf : DotDims.WF S100000x64 S64x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S100000x128_S128x128_S100000x128_1_0_0_1_n_n_wf : DotDims.WF S100000x128 S128x128 S100000x128 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The idealized kernel's run with its two results named.

  @main is six launches with stretches of host operations between them.  The buffer contents at each boundary are a fold from
  the launch memory (`Gen.W0 … Gen.W10`): a stretch applies its operations, a launch leaves each of its arrays at what its
  write-backs make of it.  Every weakly fair execution terminates with every unscoped buffer at the last boundary's contents;
  read at the two result buffers and at the fifteen arguments (which no stretch and no launch writes) this is the run below.
-/
import proofs.«164584_j12077448036842_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the two results at the last boundary's contents
    and the arguments as launched. -/
theorem run : θ_run defs (onTc (τ := τ) (main (F := F))) ⟨m, fun _ => 0, ρ⟩ (fun r => ∀ c : Dev nD,
      r.2.mem ((c.tc : Thread nD τ).loc main_v146) = W10 m ρ c (Proc.devRef .tc main_v146)
      ∧ r.2.mem ((c.tc : Thread nD τ).loc main_v153) = W10 m ρ c (Proc.devRef .tc main_v153)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v146 (by decide)),
       h c _ (mem_uc main_v153 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c)⟩)

end Cert.KernelIdeal.Named

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«164584_j12077448036842_1_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«164584_j12077448036842_1_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibRegionRows.lean ====
/-
  ROWS OF A MATRIX PRODUCT, read off a block of rows, at the ideal values.

  A grid of blocks of rows computes a matrix product block by block: the block at offset `off` holds rows
  `off, off + 1, …` of the tall left operand, the right operand is whole at every block.  Entry `(p, c)` of the block's
  product is then entry `(off + p, c)` of the product of the whole arrays, `∑ k, A (off + p, k) · W (k, c)`.  Stated
  here once for every extent, over the plain dimension record, with the block and the arrays as variables and the
  relation between them as hypotheses on coordinates; the whole-array product is the function `prodArr A W`.  The sums are
  compared term by term: no algebra of the extended reals is used.
-/
import proofs.«164584_j12077448036842_1_alg».proof.Proof.LibBlockDot

noncomputable section

open scoped BigOperators

namespace Cert.KernelIdeal.RegionValue

open Idealize.ShloMosaic Idealize.ShloMosaic.ValueIdx

/-- The offsets `(0, 0)` of a whole-buffer access are the zero function. -/
theorem off2_zero : (![0, 0] : Fin 2 → Nat) = fun _ => 0 := funext fun a => by fin_cases a <;> rfl

/-- The contents of an array of reals, as a function from its indices to the extended reals.  The identity: it only names
    the type, for a buffer whose element type is known by unfolding only. -/
abbrev realArr (s : Shape) (f : s.Idx → EReal) : s.Idx → EReal := f

/-- The product of an `[R, K]` array and a `[K, N]` array, index by index. -/
def prodArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0) k) * W (ix2 k (i 1))

theorem prodArr_apply {R K N : ℕ} (A : (⟨2, ![R, K]⟩ : Shape).Idx → EReal) (W : (⟨2, ![K, N]⟩ : Shape).Idx → EReal)
    (p : Fin R) (c : Fin N) : prodArr A W (ix2 p c) = ∑ k : Fin K, A (ix2 p k) * W (ix2 k c) := rfl

/-- The vector unit's product of a block `a` of rows and `w`, at the block's index `y`, is the whole product at the
    array's index `i`, when `i` is `y` moved down by `off` rows, `a` is `A` read `off` rows down, and `w` is `W`. -/
theorem block_prod {R R' K N : ℕ} {φ₁ φ₂ : FTy} (prec : Option ContractPrecision)
    (a : FVec Ideal ⟨2, ![R, K]⟩ φ₁) (w : FVec Ideal ⟨2, ![K, N]⟩ φ₂)
    (A : (⟨2, ![R', K]⟩ : Shape).Idx → EReal) (W : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → (a u : EReal) = A z)
    (hw : ∀ u : (⟨2, ![K, N]⟩ : Shape).Idx, (w u : EReal) = W u) :
    (matmul (DotDims.plain R K N) prec a w (constant ⟨2, ![R, N]⟩ .f32 0x00000000#32) y : EReal) = prodArr A W i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [Cert.BlockDot.kdot_apply, prodArr_apply]
  exact Finset.sum_congr rfl fun k _ => by rw [ha (ix2 p k) (ix2 p' k) hi0 rfl, hw (ix2 k c')]

end Cert.KernelIdeal.RegionValue

end
-- ==== Proof.LibNormSum.lean ====
/-
  Extended-real algebra for a normalised neighbour sum. A graph convolution scales each neighbour's contribution by
  the factors `1 / sqrt (degree)` of both end points. One way of computing it multiplies every summand by both
  factors and then sums; another sums first and multiplies the total by the destination's factor afterwards. On the
  extended reals multiplication does not distribute over addition in general (`⊤ + ⊥ = ⊥`), but it does for a
  multiplier that is NON-NEGATIVE and FINITE, whatever the summands are (they may be `±∞`). The factor
  `1 / sqrt (1 + number of neighbours)` is such a multiplier. No program appears in this module.
-/
import Idealize.ShloMosaic.PureOps.Ideal.Laws

noncomputable section

namespace Cert.NormSum

open Idealize.ShloMosaic
open scoped BigOperators

/-- A non-negative finite extended real `cv` distributes over any finite sum of extended reals, infinite summands
    included: `cv * Σ f = Σ cv * f`. Induction on the index set; the step is distributivity of such a multiplier
    over one addition. -/
theorem mul_sum_of_nonneg_ne_top {ι : Type*} (S : Finset ι) (f : ι → EReal) (cv : EReal) (h0 : 0 ≤ cv)
    (ht : cv ≠ ⊤) : cv * ∑ e ∈ S, f e = ∑ e ∈ S, cv * f e := by
  classical
  induction S using Finset.induction_on with
  | empty => simp
  | insert a s ha ih =>
    rw [Finset.sum_insert ha, Finset.sum_insert ha, EReal.left_distrib_of_nonneg_of_ne_top h0 ht, ih]

/-- Pulling the destination's factor out of a normalised sum. With every destination factor `dd e` equal to the one
    non-negative finite `cv`: `cv * ((0 + Σ a·ds) + hp·cv) = (0 + Σ a·(ds·dd)) + hp·(cv·cv)`. The left side
    distributes `cv` over the outer sum and then over the inner one; each term then agrees by commutativity and
    associativity of the extended reals' multiplication. -/
theorem norm_pull {ι : Type*} (S : Finset ι) (a ds dd : ι → EReal) (hp cv : EReal) (h0 : 0 ≤ cv) (ht : cv ≠ ⊤)
    (hdd : ∀ e ∈ S, dd e = cv) :
    cv * ((0 + ∑ e ∈ S, a e * ds e) + hp * cv) = (0 + ∑ e ∈ S, a e * (ds e * dd e)) + hp * (cv * cv) := by
  rw [EReal.left_distrib_of_nonneg_of_ne_top h0 ht, zero_add, zero_add,
    mul_sum_of_nonneg_ne_top S (fun e => a e * ds e) cv h0 ht]
  congr 1
  · refine Finset.sum_congr rfl fun e he => ?_
    rw [hdd e he, mul_comm cv (a e * ds e), mul_assoc]
  · exact mul_left_comm cv hp cv

/-- The single-precision pattern `0x3F800000` (sign 0, biased exponent 127, fraction 0) denotes the extended real
    one: `2 ^ 23 * 2 ^ (127 - 127 - 23) = 1`. -/
theorem one_word : Ideal.ofBits .f32 0x3F800000#32 = (1 : EReal) := by
  rw [show (1 : EReal) = ((1 : ℝ) : EReal) by norm_cast]
  simp [Ideal.ofBits, Ideal.ieee, -EReal.coe_mul]; norm_num

/-- At a positive real the reciprocal square root is the real `(sqrt r)⁻¹`: neither of its corners (a negative
    argument, a zero argument) applies. -/
theorem rsqrt_coe_pos (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- A sum of ones over a finite set, plus one, is the real number `card S + 1`. -/
theorem count_add_one {ι : Type*} (S : Finset ι) :
    (0 + ∑ _e ∈ S, (1 : EReal)) + 1 = (((S.card : ℝ) + 1 : ℝ) : EReal) := by
  rw [zero_add, Finset.sum_const, EReal.nsmul_eq_mul, mul_one, EReal.coe_add, EReal.coe_natCast, EReal.coe_one]

/-- The normalising factor `1 / sqrt (1 + number of neighbours)` is a non-negative finite extended real: its
    argument is the positive real `card S + 1`, where the reciprocal square root is the real `(sqrt _)⁻¹ ≥ 0`. -/
theorem rsqrt_count_nonneg_ne_top {ι : Type*} (S : Finset ι) :
    0 ≤ Ideal.rsqrt ((0 + ∑ _e ∈ S, (1 : EReal)) + 1) ∧ Ideal.rsqrt ((0 + ∑ _e ∈ S, (1 : EReal)) + 1) ≠ ⊤ := by
  have hpos : (0 : ℝ) < (S.card : ℝ) + 1 := by positivity
  rw [count_add_one, rsqrt_coe_pos _ hpos]
  exact ⟨EReal.coe_nonneg.mpr (inv_nonneg.mpr (Real.sqrt_nonneg _)), EReal.coe_ne_top _⟩

end Cert.NormSum

end
-- ==== Proof.LibRealEntries.lean ====
/-
  EXTENDED REALS THAT ARE REAL NUMBERS, and the one place a graph Laplacian needs them.

  Over the extended reals a product does not distribute over a difference at the infinities: `(1 - a) · y` and
  `y - a · y` differ when `y` is infinite.  A program that applies `I - A` to a vector as `y - A · y` and one that builds
  the matrix `I - A` and multiplies therefore agree only where the entries are real numbers.  Proved here, free of any
  program:
  • `IsR x` — the extended real `x` is a real number — is closed under sum, difference, product, maximum, the
    exponential and finite sums (`IsR.add` … `IsR.sum`), and holds of the reciprocal square root of a positive real;
  • `coe_sum`: the coercion of a finite real sum is the sum of the coercions;
  • `sum_sub_mul`: `∑ j, (d j - a j) · y j = ∑ j, d j · y j - ∑ j, a j · y j` over real entries;
  • `sum_ind_mul`, `sum_ind_sub_mul`: with `d` the indicator of `i` (the identity matrix's row), the left side is
    `y i - ∑ j, a j · y j`: row `i` of `(I - A) y` is row `i` of `y - A y`;
  • `one_div_sqrt`: at a positive real, `1 / sqrt` is the reciprocal square root;
  • `two_word`: the single-precision pattern `0x40000000` denotes the real number two.
-/
import Idealize.ShloMosaic.PureOps.Ideal
import Idealize.ShloMosaic.PureOps.Ideal.Laws
import proofs.«164584_j12077448036842_1_alg».proof.Proof.LibNormSum

noncomputable section

open scoped BigOperators

namespace Cert.RealEntries

open Idealize.ShloMosaic

/-- The extended real is a real number. -/
def IsR (x : EReal) : Prop := ∃ r : ℝ, x = (r : EReal)

theorem IsR.coe (r : ℝ) : IsR (r : EReal) := ⟨r, rfl⟩

theorem IsR.zero : IsR 0 := ⟨0, rfl⟩

theorem IsR.one : IsR 1 := ⟨1, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.max {a b : EReal} (ha : IsR a) (hb : IsR b) : IsR (max a b) := by
  rcases le_total a b with h | h
  · rwa [max_eq_right h]
  · rwa [max_eq_left h]

theorem IsR.exp {a : EReal} (ha : IsR a) : IsR (Ideal.exp a) := by
  obtain ⟨r, rfl⟩ := ha; exact ⟨Real.exp r, rfl⟩

theorem IsR.sum {ι : Type*} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h _ (Finset.mem_insert_self _ _)).add (ih fun i hi => h i (Finset.mem_insert_of_mem hi))

/-- The coercion of a real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real numbers is the coercion of a real family. -/
theorem exists_real_family {ι : Type*} (f : ι → EReal) (h : ∀ i, IsR (f i)) : ∃ g : ι → ℝ, f = fun i => (g i : EReal) :=
  ⟨fun i => (h i).choose, funext fun i => (h i).choose_spec⟩

/-- Over real numbers, `∑ j, (d j - a j) · y j = ∑ j, d j · y j - ∑ j, a j · y j`. -/
theorem sum_sub_mul {ι : Type*} (s : Finset ι) (d a y : ι → EReal) (hd : ∀ j, IsR (d j)) (ha : ∀ j, IsR (a j))
    (hy : ∀ j, IsR (y j)) : ∑ j ∈ s, (d j - a j) * y j = ∑ j ∈ s, d j * y j - ∑ j ∈ s, a j * y j := by
  obtain ⟨d', rfl⟩ := exists_real_family d hd
  obtain ⟨a', rfl⟩ := exists_real_family a ha
  obtain ⟨y', rfl⟩ := exists_real_family y hy
  simp only [← EReal.coe_sub, ← EReal.coe_mul, ← coe_sum]
  congr 1
  rw [← Finset.sum_sub_distrib]
  exact Finset.sum_congr rfl fun j _ => sub_mul _ _ _

/-- The indicator of `i` picks the `i`-th entry. -/
theorem sum_ind_mul {n : ℕ} (i : Fin n) (y : Fin n → EReal) :
    ∑ j : Fin n, (if i = j then (1 : EReal) else 0) * y j = y i := by
  rw [Finset.sum_eq_single i]
  · rw [if_pos rfl, one_mul]
  · intro j _ hj; rw [if_neg (Ne.symm hj), zero_mul]
  · intro h; exact absurd (Finset.mem_univ i) h

/-- The matrix `I - a` applied to `y`, at row `i`, is `y i - ∑ j, a j · y j` when the entries are real numbers. -/
theorem sum_ind_sub_mul {n : ℕ} (i : Fin n) (a y : Fin n → EReal) (ha : ∀ j, IsR (a j)) (hy : ∀ j, IsR (y j)) :
    ∑ j : Fin n, ((if i = j then (1 : EReal) else 0) - a j) * y j = y i - ∑ j : Fin n, a j * y j := by
  rw [sum_sub_mul Finset.univ _ a y (fun j => by split_ifs; exact IsR.one; exact IsR.zero) ha hy, sum_ind_mul]

/-- At a positive real number `1 / sqrt` is the reciprocal square root. -/
theorem one_div_sqrt (r : ℝ) (hr : 0 < r) : Ideal.div 1 (Ideal.sqrt (r : EReal)) = Ideal.rsqrt (r : EReal) := by
  rw [Cert.NormSum.rsqrt_coe_pos r hr]
  show Ideal.div 1 (if r < 0 then (⊥ : EReal) else (Real.sqrt r : EReal)) = _
  rw [if_neg (not_lt.mpr hr.le), Ideal.div_coe (Real.sqrt_pos.mpr hr).ne', one_mul, one_div]

/-- The reciprocal square root of a positive real number is a real number. -/
theorem IsR.rsqrt_pos (r : ℝ) (hr : 0 < r) : IsR (Ideal.rsqrt (r : EReal)) :=
  ⟨_, Cert.NormSum.rsqrt_coe_pos r hr⟩

/-- The single-precision pattern `0x40000000` denotes the real number two. -/
theorem two_word : Ideal.ofBits .f32 0x40000000#32 = ((2 : ℝ) : EReal) := by
  simp [Ideal.ofBits, Ideal.ieee, -EReal.coe_mul]; norm_num

end Cert.RealEntries

end
-- ==== Proof.Spec.lean ====
/-
  The two-layer mean-aggregating graph convolution on two node types, index by index on the extended reals.

  A node's new feature row is  relu( h·Ws + Σ_r mean_r·Wn_r + b )  summed over the relations r that end at its type; the last
  layer's rows are then divided by the larger of their Euclidean norm and a small constant.  One program adds the self-weights
  of the two relations ending at the first node type BEFORE the product,  h·(Wa + Wb),  and the two biases likewise; the other
  multiplies separately and accumulates from zero,  ((((((0 + h·Wa) + m₁·W₁) + ba) + h·Wb) + m₂·W₂) + bb).
  The two agree where  h, Wa, Wb  are real (a product distributes over a sum of reals), whatever the aggregated rows  m₁, m₂
  are; everything else is a regrouping of one commutative sum.
-/
import Idealize.ShloMosaic.PureOps.Ideal
import Idealize.ShloMosaic.PureOps.Ideal.Laws
import Idealize.ShloMosaic.Lib.ValueIdx
import proofs.«164584_j12077448036842_1_alg».proof.Proof.LibRegionRows
import proofs.«164584_j12077448036842_1_alg».proof.Proof.LibRealEntries

noncomputable section

open scoped BigOperators

namespace Cert.Sage

open Idealize.ShloMosaic Idealize.ShloMosaic.ValueIdx Cert.KernelIdeal.RegionValue Cert.RealEntries

/-- An `[R, C]` array of extended reals. -/
abbrev Mat (R C : ℕ) : Type := (⟨2, ![R, C]⟩ : Shape).Idx → EReal
/-- A `[C]` array of extended reals. -/
abbrev Row (C : ℕ) : Type := (⟨1, ![C]⟩ : Shape).Idx → EReal

/-- The floor under a row's norm: the single-precision word nearest 1e-12, read exactly. -/
def eps : EReal := Ideal.ofBits .f32 0x2B8CBCCC#32

/-- The rectifier, entry by entry. -/
def relu {R N : ℕ} (y : Mat R N) : Mat R N := fun i => max (y i) 0

/-- The sum of the squares of row `p`. -/
def rowSq {R N : ℕ} (y : Mat R N) (p : Fin R) : EReal := ∑ j : Fin N, y (ix2 p j) * y (ix2 p j)

/-- Every row divided by the larger of its Euclidean norm and `eps`. -/
def l2n {R N : ℕ} (y : Mat R N) : Mat R N :=
  fun i => Ideal.div (y i) (max (Ideal.sqrt (rowSq y (i 0))) eps)

/-- The entrywise sum of two weight matrices. -/
def wsum {K N : ℕ} (a b : Mat K N) : Mat K N := fun i => a i + b i
/-- The entrywise sum of two bias rows. -/
def bsum {N : ℕ} (a b : Row N) : Row N := fun i => a i + b i

/-- One product and a bias row: `x·w + b`. -/
def lin1 {R K N : ℕ} (x : Mat R K) (w : Mat K N) (b : Row N) : Mat R N :=
  fun i => prodArr x w i + b (ix1 (i 1))

/-- Three products accumulated left to right, then the bias row. -/
def kform3 {R K0 K1 K2 N : ℕ} (h : Mat R K0) (w0 : Mat K0 N) (m1 : Mat R K1) (w1 : Mat K1 N) (m2 : Mat R K2) (w2 : Mat K2 N)
    (b : Row N) : Mat R N :=
  fun i => ((prodArr h w0 i + prodArr m1 w1 i) + prodArr m2 w2 i) + b (ix1 (i 1))

/-- Two products, then the bias row. -/
def kform2 {R K0 K1 N : ℕ} (h : Mat R K0) (w0 : Mat K0 N) (m1 : Mat R K1) (w1 : Mat K1 N) (b : Row N) : Mat R N :=
  fun i => (prodArr h w0 i + prodArr m1 w1 i) + b (ix1 (i 1))

/-- Two relations accumulated from zero, each as self-product, neighbour-product, bias. -/
def rform3 {R K0 K1 K2 N : ℕ} (h : Mat R K0) (wa : Mat K0 N) (m1 : Mat R K1) (w1 : Mat K1 N) (ba : Row N)
    (wb : Mat K0 N) (m2 : Mat R K2) (w2 : Mat K2 N) (bb : Row N) : Mat R N :=
  fun i => (((((0 + prodArr h wa i) + prodArr m1 w1 i) + ba (ix1 (i 1))) + prodArr h wb i) + prodArr m2 w2 i) + bb (ix1 (i 1))

/-- One relation accumulated from zero. -/
def rform2 {R K0 K1 N : ℕ} (h : Mat R K0) (w0 : Mat K0 N) (m1 : Mat R K1) (w1 : Mat K1 N) (b : Row N) : Mat R N :=
  fun i => ((0 + prodArr h w0 i) + prodArr m1 w1 i) + b (ix1 (i 1))

/-! ## The law joining the two forms -/

theorem kform2_eq_rform2 {R K0 K1 N : ℕ} (h : Mat R K0) (w0 : Mat K0 N) (m1 : Mat R K1) (w1 : Mat K1 N) (b : Row N) :
    kform2 h w0 m1 w1 b = rform2 h w0 m1 w1 b := by
  funext i; unfold kform2 rform2; rw [zero_add]

/-- A real factor distributes over a sum of two reals. -/
theorem mul_add_real {x a b : EReal} (hx : IsR x) (ha : IsR a) (hb : IsR b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- The product with a sum of two real matrices is the sum of the two products, where the left factor is real. -/
theorem prodArr_wsum {R K N : ℕ} (h : Mat R K) (wa wb : Mat K N) (hh : ∀ i, IsR (h i)) (ha : ∀ i, IsR (wa i))
    (hb : ∀ i, IsR (wb i)) (i : (⟨2, ![R, N]⟩ : Shape).Idx) :
    prodArr h (wsum wa wb) i = prodArr h wa i + prodArr h wb i := by
  unfold prodArr wsum
  rw [← Finset.sum_add_distrib]
  exact Finset.sum_congr rfl fun k _ => mul_add_real (hh _) (ha _) (hb _)

theorem kform3_eq_rform3 {R K0 K1 K2 N : ℕ} (h : Mat R K0) (wa wb : Mat K0 N) (m1 : Mat R K1) (w1 : Mat K1 N)
    (m2 : Mat R K2) (w2 : Mat K2 N) (ba bb : Row N) (hh : ∀ i, IsR (h i)) (ha : ∀ i, IsR (wa i)) (hb : ∀ i, IsR (wb i)) :
    kform3 h (wsum wa wb) m1 w1 m2 w2 (bsum ba bb) = rform3 h wa m1 w1 ba wb m2 w2 bb := by
  funext i
  unfold kform3 rform3 bsum
  rw [prodArr_wsum h wa wb hh ha hb i, zero_add]
  abel

/-! ## Real entries are kept -/

theorem prodArr_real {R K N : ℕ} (a : Mat R K) (w : Mat K N) (ha : ∀ i, IsR (a i)) (hw : ∀ i, IsR (w i))
    (i : (⟨2, ![R, N]⟩ : Shape).Idx) : IsR (prodArr a w i) :=
  IsR.sum _ _ fun k _ => (ha _).mul (hw _)

theorem relu_real {R N : ℕ} (y : Mat R N) (hy : ∀ i, IsR (y i)) (i : (⟨2, ![R, N]⟩ : Shape).Idx) : IsR (relu y i) :=
  (hy i).max IsR.zero

theorem lin1_real {R K N : ℕ} (x : Mat R K) (w : Mat K N) (b : Row N) (hx : ∀ i, IsR (x i)) (hw : ∀ i, IsR (w i))
    (hb : ∀ i, IsR (b i)) (i : (⟨2, ![R, N]⟩ : Shape).Idx) : IsR (lin1 x w b i) :=
  (prodArr_real x w hx hw i).add (hb _)

theorem kform3_real {R K0 K1 K2 N : ℕ} (h : Mat R K0) (w0 : Mat K0 N) (m1 : Mat R K1) (w1 : Mat K1 N) (m2 : Mat R K2)
    (w2 : Mat K2 N) (b : Row N) (hh : ∀ i, IsR (h i)) (h0 : ∀ i, IsR (w0 i)) (hm1 : ∀ i, IsR (m1 i)) (h1 : ∀ i, IsR (w1 i))
    (hm2 : ∀ i, IsR (m2 i)) (h2 : ∀ i, IsR (w2 i)) (hb : ∀ i, IsR (b i)) (i : (⟨2, ![R, N]⟩ : Shape).Idx) :
    IsR (kform3 h w0 m1 w1 m2 w2 b i) :=
  (((prodArr_real h w0 hh h0 i).add (prodArr_real m1 w1 hm1 h1 i)).add (prodArr_real m2 w2 hm2 h2 i)).add (hb _)

theorem kform2_real {R K0 K1 N : ℕ} (h : Mat R K0) (w0 : Mat K0 N) (m1 : Mat R K1) (w1 : Mat K1 N) (b : Row N)
    (hh : ∀ i, IsR (h i)) (h0 : ∀ i, IsR (w0 i)) (hm1 : ∀ i, IsR (m1 i)) (h1 : ∀ i, IsR (w1 i)) (hb : ∀ i, IsR (b i))
    (i : (⟨2, ![R, N]⟩ : Shape).Idx) : IsR (kform2 h w0 m1 w1 b i) :=
  ((prodArr_real h w0 hh h0 i).add (prodArr_real m1 w1 hm1 h1 i)).add (hb _)

theorem wsum_real {K N : ℕ} (a b : Mat K N) (ha : ∀ i, IsR (a i)) (hb : ∀ i, IsR (b i)) (i) : IsR (wsum a b i) :=
  (ha i).add (hb i)

theorem bsum_real {N : ℕ} (a b : Row N) (ha : ∀ i, IsR (a i)) (hb : ∀ i, IsR (b i)) (i) : IsR (bsum a b i) :=
  (ha i).add (hb i)

end Cert.Sage

end
-- ==== Proof.LibLayout3.lean ====
/-
  Layout operations and one-axis reductions read at an index written by coordinates (a general lemma file: it imports
  only the library and is generic in the extents).

  A tile of the kernel works with three index sets: (row, column) pairs, (row, column, coordinate) triples for the
  distances, and (row, positive, negative) triples for the mining step. The programs move between them by inserting a
  unit axis and broadcasting along it, and come back by reducing over the last axis. Each lemma here says which entry of
  the operand one entry of the result reads, with every index spelt by its coordinates.
-/
import Idealize.ShloMosaic.Lib.ValueLayout
import Idealize.ShloMosaic.PureOps.Ideal.Laws

open scoped BigOperators

namespace Cert.LibLayout3

open Idealize.ShloMosaic Idealize.ShloMosaic.ValueIdx

section Casts
variable {α : Type}

/-- An [a, c] array viewed as [a, 1, c] reads, at (r, u, d), the operand at (r, d). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (d : Fin c) :
    shapeCast ⟨3, ![a, 1, c]⟩ x h (ix3 r u d) = x (ix2 r d) :=
  shapeCast_apply x h _ _ (by
    have hu : u.val = 0 := by omega
    rw [Shape.rowMajor_val_three, Shape.rowMajor_val_two]
    show r.val * c + d.val = (r.val * 1 + u.val) * c + d.val
    rw [hu, Nat.mul_one, Nat.add_zero])

/-- An [a, b] array viewed as [a, b, 1] reads, at (r, j, u), the operand at (r, j). -/
theorem shapeCast_ab_ab1_apply {a b : ℕ} (x : (⟨2, ![a, b]⟩ : Shape).Idx → α)
    (h : (⟨2, ![a, b]⟩ : Shape).ShapeCasts ⟨3, ![a, b, 1]⟩) (r : Fin a) (j : Fin b) (u : Fin 1) :
    shapeCast ⟨3, ![a, b, 1]⟩ x h (ix3 r j u) = x (ix2 r j) :=
  shapeCast_apply x h _ _ (by
    have hu : u.val = 0 := by omega
    rw [Shape.rowMajor_val_three, Shape.rowMajor_val_two]
    show r.val * b + j.val = (r.val * b + j.val) * 1 + u.val
    rw [hu, Nat.mul_one, Nat.add_zero])

/-- A vector [a] viewed as the column [a, 1] reads, at (r, u), the operand at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Casts

section Broadcasts
variable {α : Type}

/-- A column [a, 1] broadcast to [a, b] reads, at (r, j), the column at r. -/
theorem broadcastTo_a1_ab_apply {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- An [a, 1, c] array broadcast along its middle axis to [a, b, c] reads, at (r, j, d), the operand at (r, 0, d). -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (j : Fin b) (d : Fin c) :
    broadcastTo ⟨3, ![a, b, c]⟩ v h (ix3 r j d) = v (ix3 r (0 : Fin 1) d) := by
  refine broadcastTo_apply v h (ix3 r j d) (ix3 r (0 : Fin 1) d) fun ax => ?_
  match ax with
  | ⟨0, _⟩ =>
    show r.val = if a = 1 then 0 else r.val
    split
    · have := r.isLt; omega
    · rfl
  | ⟨1, _⟩ => rfl
  | ⟨2, _⟩ =>
    show d.val = if c = 1 then 0 else d.val
    split
    · have := d.isLt; omega
    · rfl

/-- A [1, b, c] array broadcast along its first axis to [a, b, c] reads, at (r, j, d), the operand at (0, j, d). -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (j : Fin b) (d : Fin c) :
    broadcastTo ⟨3, ![a, b, c]⟩ v h (ix3 r j d) = v (ix3 (0 : Fin 1) j d) := by
  refine broadcastTo_apply v h (ix3 r j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-- An [a, b, 1] array broadcast along its last axis to [a, b, c] reads, at (r, j, k), the operand at (r, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (j : Fin b) (k : Fin c) :
    broadcastTo ⟨3, ![a, b, c]⟩ v h (ix3 r j k) = v (ix3 r j (0 : Fin 1)) := by
  refine broadcastTo_apply v h (ix3 r j k) (ix3 r j (0 : Fin 1)) fun ax => ?_
  match ax with
  | ⟨0, _⟩ =>
    show r.val = if a = 1 then 0 else r.val
    split
    · have := r.isLt; omega
    · rfl
  | ⟨1, _⟩ =>
    show j.val = if b = 1 then 0 else j.val
    split
    · have := j.isLt; omega
    · rfl
  | ⟨2, _⟩ => rfl

end Broadcasts

/-! ## The index a one-axis reduction inserts, by coordinates -/

section Lift

/-- Over [a, b, c] reduced along its last axis, the index above (r, j) with coordinate d is (r, j, d). -/
theorem lift_abc_last {a b c : ℕ} (h : Shape.Reduces ⟨3, ![a, b, c]⟩ [2] ⟨2, ![a, b]⟩) (r : Fin a) (j : Fin b) (d : Fin c) :
    h.lift (ix2 r j) d = ix3 r j d := by
  funext x
  match x with
  | ⟨0, _⟩ => exact Fin.ext rfl
  | ⟨1, _⟩ => exact Fin.ext rfl
  | ⟨2, _⟩ => exact Fin.ext rfl

/-- Over [a, b] reduced along its columns, the index above r with coordinate j is (r, j). -/
theorem lift_ab_last {a b : ℕ} (h : Shape.Reduces ⟨2, ![a, b]⟩ [1] ⟨1, ![a]⟩) (r : Fin a) (j : Fin b) :
    h.lift (ix1 r) j = ix2 r j := by
  funext x
  match x with
  | ⟨0, _⟩ => exact Fin.ext rfl
  | ⟨1, _⟩ => exact Fin.ext rfl

/-- Over the column [a, 1] reduced along its rows, the index above u with coordinate r is (r, u). -/
theorem lift_a1_first {a : ℕ} (h : Shape.Reduces ⟨2, ![a, 1]⟩ [0] ⟨1, ![1]⟩) (u : Fin 1) (r : Fin a) :
    h.lift (ix1 u) r = ix2 r u := by
  funext x
  match x with
  | ⟨0, _⟩ => exact Fin.ext rfl
  | ⟨1, _⟩ => exact Fin.ext rfl

end Lift

/-! ## One-axis reductions over the extended reals

The sum of a lane is a plain finite sum; a maximum or a minimum is the fold of max or min over the lane's
coordinates, started from the value of the accumulator's word. The reduced axis is written as an element of a literal
Fin type (Fin 2 or Fin 3), the rank of the array being reduced. -/

section Reductions

/-- A minimum over one axis is the fold of min over that axis's coordinates, from the accumulator's value. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum over the last axis of an [a, b, c] array, at (r, j). -/
theorem sum_abc_last {a b c : ℕ} (src : FVec Ideal ⟨3, ![a, b, c]⟩ .f32)
    (h : Shape.Reduces ⟨3, ![a, b, c]⟩ [2] ⟨2, ![a, b]⟩) (hacc : (0x00000000#32 : BitVec 32) = 0x00000000#32)
    (r : Fin a) (j : Fin b) :
    multiReduction (s := ⟨3, ![a, b, c]⟩) .add ([2] : List (Fin 3)) ⟨2, ![a, b]⟩ src 0x00000000#32 h (.inl rfl) hacc (ix2 r j)
      = ∑ d : Fin c, src (ix3 r j d) :=
  (Ideal.multiReduction_add_single src 0x00000000#32 h (.inl rfl) hacc (ix2 r j)).trans
    (Finset.sum_congr rfl fun d _ => congrArg src (lift_abc_last h r j d))

/-- The sum over the columns of an [a, b] array, at r. -/
theorem sum_ab_last {a b : ℕ} (src : FVec Ideal ⟨2, ![a, b]⟩ .f32)
    (h : Shape.Reduces ⟨2, ![a, b]⟩ [1] ⟨1, ![a]⟩) (hacc : (0x00000000#32 : BitVec 32) = 0x00000000#32) (r : Fin a) :
    multiReduction (s := ⟨2, ![a, b]⟩) .add ([1] : List (Fin 2)) ⟨1, ![a]⟩ src 0x00000000#32 h (.inl rfl) hacc (ix1 r)
      = ∑ j : Fin b, src (ix2 r j) :=
  (Ideal.multiReduction_add_single src 0x00000000#32 h (.inl rfl) hacc (ix1 r)).trans
    (Finset.sum_congr rfl fun j _ => congrArg src (lift_ab_last h r j))

/-- The sum over the rows of a column [a, 1], at its one index. -/
theorem sum_a1_first {a : ℕ} (src : FVec Ideal ⟨2, ![a, 1]⟩ .f32)
    (h : Shape.Reduces ⟨2, ![a, 1]⟩ [0] ⟨1, ![1]⟩) (hacc : (0x00000000#32 : BitVec 32) = 0x00000000#32) (u : Fin 1) :
    multiReduction (s := ⟨2, ![a, 1]⟩) .add ([0] : List (Fin 2)) ⟨1, ![1]⟩ src 0x00000000#32 h (.inl rfl) hacc (ix1 u)
      = ∑ r : Fin a, src (ix2 r u) :=
  (Ideal.multiReduction_add_single src 0x00000000#32 h (.inl rfl) hacc (ix1 u)).trans
    (Finset.sum_congr rfl fun r _ => congrArg src (lift_a1_first h u r))

/-- The maximum over the columns of an [a, b] array, at r. -/
theorem max_ab_last {a b : ℕ} (src : FVec Ideal ⟨2, ![a, b]⟩ .f32)
    (h : Shape.Reduces ⟨2, ![a, b]⟩ [1] ⟨1, ![a]⟩) (hacc : (0xFF800000#32 : BitVec 32) = 0xFF800000#32) (r : Fin a) :
    multiReduction (s := ⟨2, ![a, b]⟩) .maximumf ([1] : List (Fin 2)) ⟨1, ![a]⟩ src 0xFF800000#32 h (.inl rfl) hacc (ix1 r)
      = (Finset.univ : Finset (Fin b)).fold max (Ideal.ofBits .f32 0xFF800000#32) (fun j => src (ix2 r j)) :=
  (Ideal.multiReduction_maximumf_single src 0xFF800000#32 h (.inl rfl) hacc (ix1 r)).trans
    (Finset.fold_congr fun j _ => congrArg src (lift_ab_last h r j))

/-- The minimum over the columns of an [a, b] array, at r. -/
theorem min_ab_last {a b : ℕ} (src : FVec Ideal ⟨2, ![a, b]⟩ .f32)
    (h : Shape.Reduces ⟨2, ![a, b]⟩ [1] ⟨1, ![a]⟩) (hacc : (0x7F800000#32 : BitVec 32) = 0x7F800000#32) (r : Fin a) :
    multiReduction (s := ⟨2, ![a, b]⟩) .minimumf ([1] : List (Fin 2)) ⟨1, ![a]⟩ src 0x7F800000#32 h (.inl rfl) hacc (ix1 r)
      = (Finset.univ : Finset (Fin b)).fold min (Ideal.ofBits .f32 0x7F800000#32) (fun j => src (ix2 r j)) :=
  (multiReduction_minimumf_single src 0x7F800000#32 h (.inl rfl) hacc (ix1 r)).trans
    (Finset.fold_congr fun j _ => congrArg src (lift_ab_last h r j))

/-- The minimum over the last axis of an [a, b, c] array, at (r, j). -/
theorem min_abc_last {a b c : ℕ} (src : FVec Ideal ⟨3, ![a, b, c]⟩ .f32)
    (h : Shape.Reduces ⟨3, ![a, b, c]⟩ [2] ⟨2, ![a, b]⟩) (hacc : (0x7F800000#32 : BitVec 32) = 0x7F800000#32)
    (r : Fin a) (j : Fin b) :
    multiReduction (s := ⟨3, ![a, b, c]⟩) .minimumf ([2] : List (Fin 3)) ⟨2, ![a, b]⟩ src 0x7F800000#32 h (.inl rfl) hacc (ix2 r j)
      = (Finset.univ : Finset (Fin c)).fold min (Ideal.ofBits .f32 0x7F800000#32) (fun k => src (ix3 r j k)) :=
  (multiReduction_minimumf_single src 0x7F800000#32 h (.inl rfl) hacc (ix2 r j)).trans
    (Finset.fold_congr fun k _ => congrArg src (lift_abc_last h r j k))

end Reductions

end Cert.LibLayout3
-- ==== Proof.KPay.lean ====
/-
  What a grid point's body stores, read at one index.

  Each body multiplies a block of 5000 feature rows by whole weight matrices on the matrix unit (into a zero accumulator;
  the narrowing of the operands is the identity on extended reals), adds the products and the bias row, and rectifies; the
  last layer's bodies then divide every row by the larger of its norm and a small constant.  Row `p` of what is stored
  depends on the blocks only through their rows `p`: so where row `p` of each block is row `p'` of its array, the stored
  entry `(p, c)` is the layer's formula at `(p', c)` of the arrays.
-/
import proofs.«164584_j12077448036842_1_alg».proof.Proof.Gen.KernelIdeal.Skeleton
import Idealize.ShloMosaic.Lib.ValueLayout
import Idealize.ShloMosaic.Lib.Pipeline.Value
import Idealize.ShloMosaic.Lib.ValueIdx
import proofs.«164584_j12077448036842_1_alg».proof.Proof.Spec
import proofs.«164584_j12077448036842_1_alg».proof.Proof.LibLayout3

noncomputable section

open scoped BigOperators

namespace Cert.KernelIdeal.Pay

open Cert.KernelIdeal Cert.KernelIdeal.Gen Cert.Sage Cert.KernelIdeal.RegionValue Cert.LibLayout3
open Idealize.ShloMosaic Idealize.ShloMosaic.ValueIdx

/-- The zero word is zero. -/
theorem zero_word : Ideal.ofBits .f32 0x00000000#32 = (0 : EReal) := Ideal.ofBits_zero_f32

/-- A bias row cast to `[1, N]` and broadcast over `R` rows, at `(p, c)`: the row's entry `c`. -/
theorem bias_at {R N : ℕ} (b : FVec Ideal ⟨1, ![N]⟩ .f32) (hc : (⟨1, ![N]⟩ : Shape).ShapeCasts ⟨2, ![1, N]⟩)
    (hb : (⟨2, ![1, N]⟩ : Shape).Broadcasts ⟨2, ![R, N]⟩) (p : Fin R) (c : Fin N) :
    broadcastTo ⟨2, ![R, N]⟩ (shapeCast ⟨2, ![1, N]⟩ b hc) hb (ix2 p c) = b (ix1 c) := by
  rw [broadcastTo_1b_ab_apply, shapeCast_a_1a_apply]

/-- The matrix unit's product of a block into a zero accumulator, at `(p, c)`: the whole product at `(p', c)`, where the
    block's row `p` is the array's row `p'`. -/
theorem dot_at {R R' K N : ℕ} {φ₁ φ₂ : FTy} (a : FVec Ideal ⟨2, ![R, K]⟩ φ₁) (w : FVec Ideal ⟨2, ![K, N]⟩ φ₂)
    (A : Mat R' K) (W : Mat K N) (p : Fin R) (p' : Fin R') (c : Fin N)
    (ha : ∀ k : Fin K, (a (ix2 p k) : EReal) = A (ix2 p' k)) (hw : ∀ u, (w u : EReal) = W u) :
    (matmul (DotDims.plain R K N) none a w (constant ⟨2, ![R, N]⟩ .f32 0x00000000#32) (ix2 p c) : EReal)
      = prodArr A W (ix2 p' c) := by
  rw [Cert.BlockDot.kdot_apply, prodArr_apply]
  exact Finset.sum_congr rfl fun k _ => by rw [ha k, hw]

/-- The projection body's stored value at `(p, c)`: the rectified `x·w + b` at row `p'` of the arrays, where row `p` of
    the block is row `p'` of the array. -/
theorem pay0_at (x0 : FVec Ideal S5000x256 .f32) (x1 : FVec Ideal S256x128 .f32) (x2 : FVec Ideal S128 .f32)
    (A : Mat 100000 256) (W : Mat 256 128) (B : Row 128) (p : Fin 5000) (p' : Fin 100000) (c : Fin 128)
    (ha : ∀ k : Fin 256, (x0 (ix2 p k) : EReal) = A (ix2 p' k)) (hw : ∀ u, (x1 u : EReal) = W u)
    (hb : ∀ u, (x2 u : EReal) = B u) :
    (k0_pay1 (F := Ideal) x0 x1 x2 (ix2 p c) : EReal) = relu (lin1 A W B) (ix2 p' c) := by
  have e0 : (matmul dot_S5000x256_S256x128_S5000x128_1_0_0_1_n_n none (truncf .bf16 x0 bitsLt_bf16_f32) (truncf .bf16 x1 bitsLt_bf16_f32) (constant S5000x128 .f32 0x00000000#32) (ix2 p c) : EReal)
      = prodArr A W (ix2 p' c) :=
    dot_at (R := 5000) (R' := 100000) (K := 256) (N := 128) (truncf .bf16 x0 bitsLt_bf16_f32) (truncf .bf16 x1 bitsLt_bf16_f32) A W p p' c
      (fun k => by rw [truncf_apply]; exact ha k) (fun u => by rw [truncf_apply]; exact hw u)
  have eb : (broadcastTo S5000x128 (shapeCast S1x128 x2 shapeCasts_S128_S1x128) broadcasts_S1x128_S5000x128 (ix2 p c) : EReal) = B (ix1 c) :=
    (bias_at (R := 5000) (N := 128) x2 shapeCasts_S128_S1x128 broadcasts_S1x128_S5000x128 p c).trans (hb _)
  exact congrArg₂ max (congrArg₂ (· + ·) e0 eb) zero_word

/-- The projection body's stored value at `(p, c)`: the rectified `x·w + b` at row `p'` of the arrays, where row `p` of
    the block is row `p'` of the array. -/
theorem pay1_at (x0 : FVec Ideal S5000x64 .f32) (x1 : FVec Ideal S64x128 .f32) (x2 : FVec Ideal S128 .f32)
    (A : Mat 100000 64) (W : Mat 64 128) (B : Row 128) (p : Fin 5000) (p' : Fin 100000) (c : Fin 128)
    (ha : ∀ k : Fin 64, (x0 (ix2 p k) : EReal) = A (ix2 p' k)) (hw : ∀ u, (x1 u : EReal) = W u)
    (hb : ∀ u, (x2 u : EReal) = B u) :
    (k1_pay1 (F := Ideal) x0 x1 x2 (ix2 p c) : EReal) = relu (lin1 A W B) (ix2 p' c) := by
  have e0 : (matmul dot_S5000x64_S64x128_S5000x128_1_0_0_1_n_n none (truncf .bf16 x0 bitsLt_bf16_f32) (truncf .bf16 x1 bitsLt_bf16_f32) (constant S5000x128 .f32 0x00000000#32) (ix2 p c) : EReal)
      = prodArr A W (ix2 p' c) :=
    dot_at (R := 5000) (R' := 100000) (K := 64) (N := 128) (truncf .bf16 x0 bitsLt_bf16_f32) (truncf .bf16 x1 bitsLt_bf16_f32) A W p p' c
      (fun k => by rw [truncf_apply]; exact ha k) (fun u => by rw [truncf_apply]; exact hw u)
  have eb : (broadcastTo S5000x128 (shapeCast S1x128 x2 shapeCasts_S128_S1x128) broadcasts_S1x128_S5000x128 (ix2 p c) : EReal) = B (ix1 c) :=
    (bias_at (R := 5000) (N := 128) x2 shapeCasts_S128_S1x128 broadcasts_S1x128_S5000x128 p c).trans (hb _)
  exact congrArg₂ max (congrArg₂ (· + ·) e0 eb) zero_word

/-- The first node type's combine body at `(p, c)`: three products accumulated, the bias row, rectified. -/
theorem pay2_at (x0 : FVec Ideal S5000x128 .f32) (x1 : FVec Ideal S128x128 .f32) (x2 : FVec Ideal S5000x128 .f32)
    (x3 : FVec Ideal S128x128 .f32) (x4 : FVec Ideal S5000x128 .f32) (x5 : FVec Ideal S128x128 .f32) (x6 : FVec Ideal S128 .f32)
    (A0 : Mat 100000 128) (W0 : Mat 128 128) (A1 : Mat 100000 128) (W1 : Mat 128 128) (A2 : Mat 100000 128) (W2 : Mat 128 128)
    (B : Row 128) (p : Fin 5000) (p' : Fin 100000) (c : Fin 128)
    (h0 : ∀ k : Fin 128, (x0 (ix2 p k) : EReal) = A0 (ix2 p' k)) (hw0 : ∀ u, (x1 u : EReal) = W0 u)
    (h1 : ∀ k : Fin 128, (x2 (ix2 p k) : EReal) = A1 (ix2 p' k)) (hw1 : ∀ u, (x3 u : EReal) = W1 u)
    (h2 : ∀ k : Fin 128, (x4 (ix2 p k) : EReal) = A2 (ix2 p' k)) (hw2 : ∀ u, (x5 u : EReal) = W2 u)
    (hb : ∀ u, (x6 u : EReal) = B u) :
    (k2_pay1 (F := Ideal) x0 x1 x2 x3 x4 x5 x6 (ix2 p c) : EReal) = relu (kform3 A0 W0 A1 W1 A2 W2 B) (ix2 p' c) := by
  have e0 : (matmul dot_S5000x128_S128x128_S5000x128_1_0_0_1_n_n none (truncf .bf16 (shapeCast S5000x128 x0 shapeCasts_S5000x128_S5000x128) bitsLt_bf16_f32) (truncf .bf16 (shapeCast S128x128 x1 shapeCasts_S128x128_S128x128) bitsLt_bf16_f32) (constant S5000x128 .f32 0x00000000#32) (ix2 p c) : EReal) = prodArr A0 W0 (ix2 p' c) :=
    dot_at (R := 5000) (R' := 100000) (K := 128) (N := 128) (truncf .bf16 (shapeCast S5000x128 x0 shapeCasts_S5000x128_S5000x128) bitsLt_bf16_f32) (truncf .bf16 (shapeCast S128x128 x1 shapeCasts_S128x128_S128x128) bitsLt_bf16_f32) A0 W0 p p' c
      (fun k => by rw [truncf_apply, shapeCast_self]; exact h0 k) (fun u => by rw [truncf_apply, shapeCast_self]; exact hw0 u)
  have e1 : (matmul dot_S5000x128_S128x128_S5000x128_1_0_0_1_n_n none (truncf .bf16 (shapeCast S5000x128 x2 shapeCasts_S5000x128_S5000x128) bitsLt_bf16_f32) (truncf .bf16 (shapeCast S128x128 x3 shapeCasts_S128x128_S128x128) bitsLt_bf16_f32) (constant S5000x128 .f32 0x00000000#32) (ix2 p c) : EReal) = prodArr A1 W1 (ix2 p' c) :=
    dot_at (R := 5000) (R' := 100000) (K := 128) (N := 128) (truncf .bf16 (shapeCast S5000x128 x2 shapeCasts_S5000x128_S5000x128) bitsLt_bf16_f32) (truncf .bf16 (shapeCast S128x128 x3 shapeCasts_S128x128_S128x128) bitsLt_bf16_f32) A1 W1 p p' c
      (fun k => by rw [truncf_apply, shapeCast_self]; exact h1 k) (fun u => by rw [truncf_apply, shapeCast_self]; exact hw1 u)
  have e2 : (matmul dot_S5000x128_S128x128_S5000x128_1_0_0_1_n_n none (truncf .bf16 (shapeCast S5000x128 x4 shapeCasts_S5000x128_S5000x128) bitsLt_bf16_f32) (truncf .bf16 (shapeCast S128x128 x5 shapeCasts_S128x128_S128x128) bitsLt_bf16_f32) (constant S5000x128 .f32 0x00000000#32) (ix2 p c) : EReal) = prodArr A2 W2 (ix2 p' c) :=
    dot_at (R := 5000) (R' := 100000) (K := 128) (N := 128) (truncf .bf16 (shapeCast S5000x128 x4 shapeCasts_S5000x128_S5000x128) bitsLt_bf16_f32) (truncf .bf16 (shapeCast S128x128 x5 shapeCasts_S128x128_S128x128) bitsLt_bf16_f32) A2 W2 p p' c
      (fun k => by rw [truncf_apply, shapeCast_self]; exact h2 k) (fun u => by rw [truncf_apply, shapeCast_self]; exact hw2 u)
  have eb : (broadcastTo S5000x128 (shapeCast S1x128 (shapeCast S128 x6 shapeCasts_S128_S128) shapeCasts_S128_S1x128) broadcasts_S1x128_S5000x128 (ix2 p c) : EReal) = B (ix1 c) :=
    (bias_at (R := 5000) (N := 128) (shapeCast S128 x6 shapeCasts_S128_S128) shapeCasts_S128_S1x128 broadcasts_S1x128_S5000x128 p c).trans
      (by rw [shapeCast_self]; exact hb _)
  exact congrArg₂ max (congrArg₂ (· + ·) (congrArg₂ (· + ·) (congrArg₂ (· + ·) e0 e1) e2) eb) zero_word

/-- The second node type's combine body at `(p, c)`: two products accumulated, the bias row, rectified. -/
theorem pay3_at (x0 : FVec Ideal S5000x128 .f32) (x1 : FVec Ideal S128x128 .f32) (x2 : FVec Ideal S5000x128 .f32)
    (x3 : FVec Ideal S128x128 .f32) (x4 : FVec Ideal S128 .f32)
    (A0 : Mat 100000 128) (W0 : Mat 128 128) (A1 : Mat 100000 128) (W1 : Mat 128 128)
    (B : Row 128) (p : Fin 5000) (p' : Fin 100000) (c : Fin 128)
    (h0 : ∀ k : Fin 128, (x0 (ix2 p k) : EReal) = A0 (ix2 p' k)) (hw0 : ∀ u, (x1 u : EReal) = W0 u)
    (h1 : ∀ k : Fin 128, (x2 (ix2 p k) : EReal) = A1 (ix2 p' k)) (hw1 : ∀ u, (x3 u : EReal) = W1 u)
    (hb : ∀ u, (x4 u : EReal) = B u) :
    (k3_pay1 (F := Ideal) x0 x1 x2 x3 x4 (ix2 p c) : EReal) = relu (kform2 A0 W0 A1 W1 B) (ix2 p' c) := by
  have e0 : (matmul dot_S5000x128_S128x128_S5000x128_1_0_0_1_n_n none (truncf .bf16 (shapeCast S5000x128 x0 shapeCasts_S5000x128_S5000x128) bitsLt_bf16_f32) (truncf .bf16 (shapeCast S128x128 x1 shapeCasts_S128x128_S128x128) bitsLt_bf16_f32) (constant S5000x128 .f32 0x00000000#32) (ix2 p c) : EReal) = prodArr A0 W0 (ix2 p' c) :=
    dot_at (R := 5000) (R' := 100000) (K := 128) (N := 128) (truncf .bf16 (shapeCast S5000x128 x0 shapeCasts_S5000x128_S5000x128) bitsLt_bf16_f32) (truncf .bf16 (shapeCast S128x128 x1 shapeCasts_S128x128_S128x128) bitsLt_bf16_f32) A0 W0 p p' c
      (fun k => by rw [truncf_apply, shapeCast_self]; exact h0 k) (fun u => by rw [truncf_apply, shapeCast_self]; exact hw0 u)
  have e1 : (matmul dot_S5000x128_S128x128_S5000x128_1_0_0_1_n_n none (truncf .bf16 (shapeCast S5000x128 x2 shapeCasts_S5000x128_S5000x128) bitsLt_bf16_f32) (truncf .bf16 (shapeCast S128x128 x3 shapeCasts_S128x128_S128x128) bitsLt_bf16_f32) (constant S5000x128 .f32 0x00000000#32) (ix2 p c) : EReal) = prodArr A1 W1 (ix2 p' c) :=
    dot_at (R := 5000) (R' := 100000) (K := 128) (N := 128) (truncf .bf16 (shapeCast S5000x128 x2 shapeCasts_S5000x128_S5000x128) bitsLt_bf16_f32) (truncf .bf16 (shapeCast S128x128 x3 shapeCasts_S128x128_S128x128) bitsLt_bf16_f32) A1 W1 p p' c
      (fun k => by rw [truncf_apply, shapeCast_self]; exact h1 k) (fun u => by rw [truncf_apply, shapeCast_self]; exact hw1 u)
  have eb : (broadcastTo S5000x128 (shapeCast S1x128 (shapeCast S128 x4 shapeCasts_S128_S128) shapeCasts_S128_S1x128) broadcasts_S1x128_S5000x128 (ix2 p c) : EReal) = B (ix1 c) :=
    (bias_at (R := 5000) (N := 128) (shapeCast S128 x4 shapeCasts_S128_S128) shapeCasts_S128_S1x128 broadcasts_S1x128_S5000x128 p c).trans
      (by rw [shapeCast_self]; exact hb _)
  exact congrArg₂ max (congrArg₂ (· + ·) (congrArg₂ (· + ·) e0 e1) eb) zero_word

/-! ## The last layer's division by the row norm -/

/-- Every row of a block divided by the larger of its Euclidean norm and the small constant: the tail of the last layer's
    bodies, as the vector operations they apply. -/
def nrm {F : FTy → Type} [FloatOps F] (v : FVec F S5000x128 .f32) : FVec F S5000x128 .f32 :=
  divf v (broadcastTo S5000x128 (maximumf (sqrt (shapeCast S5000x1
    (multiReduction .add [1] S5000 (mulf v v) 0x00000000#32 reduces_S5000x128_S5000 (.inl rfl) rfl) shapeCasts_S5000_S5000x1))
    (broadcast S5000x1 (Scalar.ofBits .f32 0x2B8CBCCC#32))) broadcasts_S5000x1_S5000x128)

/-- The last layer's bodies are their first-layer twins followed by the division. -/
theorem pay4_eq {F : FTy → Type} [FloatOps F] (x0 : Vec F S5000x128 .f32) (x1 : Vec F S128x128 .f32) (x2 : Vec F S5000x128 .f32)
    (x3 : Vec F S128x128 .f32) (x4 : Vec F S5000x128 .f32) (x5 : Vec F S128x128 .f32) (x6 : Vec F S128 .f32) :
    k4_pay1 x0 x1 x2 x3 x4 x5 x6 = nrm (k2_pay1 x0 x1 x2 x3 x4 x5 x6) := rfl

theorem pay5_eq {F : FTy → Type} [FloatOps F] (x0 : Vec F S5000x128 .f32) (x1 : Vec F S128x128 .f32) (x2 : Vec F S5000x128 .f32)
    (x3 : Vec F S128x128 .f32) (x4 : Vec F S128 .f32) :
    k5_pay1 x0 x1 x2 x3 x4 = nrm (k3_pay1 x0 x1 x2 x3 x4) := rfl

/-- The division at `(p, c)`: where row `p` of the block is row `p'` of an array, the array's normalised entry `(p', c)`. -/
theorem nrm_at (v : FVec Ideal S5000x128 .f32) (Y : Mat 100000 128) (p : Fin 5000) (p' : Fin 100000) (c : Fin 128)
    (hrow : ∀ j : Fin 128, (v (ix2 p j) : EReal) = Y (ix2 p' j)) :
    (nrm v (ix2 p c) : EReal) = l2n Y (ix2 p' c) := by
  have e1 : (broadcastTo S5000x128 (maximumf (sqrt (shapeCast S5000x1
        (multiReduction .add [1] S5000 (mulf v v) 0x00000000#32 reduces_S5000x128_S5000 (.inl rfl) rfl) shapeCasts_S5000_S5000x1))
        (broadcast S5000x1 (Scalar.ofBits .f32 0x2B8CBCCC#32))) broadcasts_S5000x1_S5000x128 (ix2 p c) : EReal)
      = max (Ideal.sqrt (rowSq Y p')) eps := by
    rw [broadcastTo_a1_ab_apply]
    show max (Ideal.sqrt (shapeCast S5000x1
        (multiReduction .add [1] S5000 (mulf v v) 0x00000000#32 reduces_S5000x128_S5000 (.inl rfl) rfl) shapeCasts_S5000_S5000x1
        (ix2 p (0 : Fin 1)))) (Ideal.ofBits .f32 0x2B8CBCCC#32) = _
    rw [shapeCast_a_a1_apply, sum_ab_last]
    unfold rowSq eps
    refine congrArg (fun s => max (Ideal.sqrt s) _) (Finset.sum_congr rfl fun j _ => ?_)
    show (v (ix2 p j) : EReal) * v (ix2 p j) = _
    rw [hrow j]
  show Ideal.div (v (ix2 p c) : EReal) _ = Ideal.div (Y (ix2 p' c)) (max (Ideal.sqrt (rowSq Y p')) eps)
  rw [e1, hrow c]

/-! ## The same, at an index of the block and the index of the array `off` rows further down -/

theorem pay0_blk (x0 : FVec Ideal S5000x256 .f32) (x1 : FVec Ideal S256x128 .f32) (x2 : FVec Ideal S128 .f32)
    (A : Mat 100000 256) (W : Mat 256 128) (B : Row 128) (off : ℕ) (y : S5000x128.Idx) (i : (⟨2, ![100000, 128]⟩ : Shape).Idx)
    (hi0 : (i 0).val = off + (y 0).val) (hi1 : (i 1).val = (y 1).val)
    (ha : ∀ (u : S5000x256.Idx) (z : (⟨2, ![100000, 256]⟩ : Shape).Idx), (z 0).val = off + (u 0).val → (z 1).val = (u 1).val → (x0 u : EReal) = A z)
    (hw : ∀ u, (x1 u : EReal) = W u) (hb : ∀ u, (x2 u : EReal) = B u) :
    (k0_pay1 (F := Ideal) x0 x1 x2 y : EReal) = relu (lin1 A W B) i := by
  obtain ⟨p, c, rfl⟩ : ∃ (p : Fin 5000) (c : Fin 128), y = ix2 p c := ⟨y 0, y 1, eq_ix2 y⟩
  obtain ⟨p', c', rfl⟩ : ∃ (p' : Fin 100000) (c' : Fin 128), i = ix2 p' c' := ⟨i 0, i 1, eq_ix2 i⟩
  obtain rfl : c' = c := Fin.ext hi1
  exact pay0_at x0 x1 x2 A W B p p' c' (fun k => ha (ix2 p k) (ix2 p' k) hi0 rfl) hw hb

theorem pay1_blk (x0 : FVec Ideal S5000x64 .f32) (x1 : FVec Ideal S64x128 .f32) (x2 : FVec Ideal S128 .f32)
    (A : Mat 100000 64) (W : Mat 64 128) (B : Row 128) (off : ℕ) (y : S5000x128.Idx) (i : (⟨2, ![100000, 128]⟩ : Shape).Idx)
    (hi0 : (i 0).val = off + (y 0).val) (hi1 : (i 1).val = (y 1).val)
    (ha : ∀ (u : S5000x64.Idx) (z : (⟨2, ![100000, 64]⟩ : Shape).Idx), (z 0).val = off + (u 0).val → (z 1).val = (u 1).val → (x0 u : EReal) = A z)
    (hw : ∀ u, (x1 u : EReal) = W u) (hb : ∀ u, (x2 u : EReal) = B u) :
    (k1_pay1 (F := Ideal) x0 x1 x2 y : EReal) = relu (lin1 A W B) i := by
  obtain ⟨p, c, rfl⟩ : ∃ (p : Fin 5000) (c : Fin 128), y = ix2 p c := ⟨y 0, y 1, eq_ix2 y⟩
  obtain ⟨p', c', rfl⟩ : ∃ (p' : Fin 100000) (c' : Fin 128), i = ix2 p' c' := ⟨i 0, i 1, eq_ix2 i⟩
  obtain rfl : c' = c := Fin.ext hi1
  exact pay1_at x0 x1 x2 A W B p p' c' (fun k => ha (ix2 p k) (ix2 p' k) hi0 rfl) hw hb

theorem pay2_blk (x0 : FVec Ideal S5000x128 .f32) (x1 : FVec Ideal S128x128 .f32) (x2 : FVec Ideal S5000x128 .f32)
    (x3 : FVec Ideal S128x128 .f32) (x4 : FVec Ideal S5000x128 .f32) (x5 : FVec Ideal S128x128 .f32) (x6 : FVec Ideal S128 .f32)
    (A0 : Mat 100000 128) (W0 : Mat 128 128) (A1 : Mat 100000 128) (W1 : Mat 128 128) (A2 : Mat 100000 128) (W2 : Mat 128 128)
    (B : Row 128) (off : ℕ) (y : S5000x128.Idx) (i : (⟨2, ![100000, 128]⟩ : Shape).Idx)
    (hi0 : (i 0).val = off + (y 0).val) (hi1 : (i 1).val = (y 1).val)
    (h0 : ∀ (u : S5000x128.Idx) (z : (⟨2, ![100000, 128]⟩ : Shape).Idx), (z 0).val = off + (u 0).val → (z 1).val = (u 1).val → (x0 u : EReal) = A0 z) (hw0 : ∀ u, (x1 u : EReal) = W0 u)
    (h1 : ∀ (u : S5000x128.Idx) (z : (⟨2, ![100000, 128]⟩ : Shape).Idx), (z 0).val = off + (u 0).val → (z 1).val = (u 1).val → (x2 u : EReal) = A1 z) (hw1 : ∀ u, (x3 u : EReal) = W1 u)
    (h2 : ∀ (u : S5000x128.Idx) (z : (⟨2, ![100000, 128]⟩ : Shape).Idx), (z 0).val = off + (u 0).val → (z 1).val = (u 1).val → (x4 u : EReal) = A2 z) (hw2 : ∀ u, (x5 u : EReal) = W2 u)
    (hb : ∀ u, (x6 u : EReal) = B u) :
    (k2_pay1 (F := Ideal) x0 x1 x2 x3 x4 x5 x6 y : EReal) = relu (kform3 A0 W0 A1 W1 A2 W2 B) i := by
  obtain ⟨p, c, rfl⟩ : ∃ (p : Fin 5000) (c : Fin 128), y = ix2 p c := ⟨y 0, y 1, eq_ix2 y⟩
  obtain ⟨p', c', rfl⟩ : ∃ (p' : Fin 100000) (c' : Fin 128), i = ix2 p' c' := ⟨i 0, i 1, eq_ix2 i⟩
  obtain rfl : c' = c := Fin.ext hi1
  exact pay2_at x0 x1 x2 x3 x4 x5 x6 A0 W0 A1 W1 A2 W2 B p p' c' (fun k => h0 (ix2 p k) (ix2 p' k) hi0 rfl) hw0
    (fun k => h1 (ix2 p k) (ix2 p' k) hi0 rfl) hw1 (fun k => h2 (ix2 p k) (ix2 p' k) hi0 rfl) hw2 hb

theorem pay4_blk (x0 : FVec Ideal S5000x128 .f32) (x1 : FVec Ideal S128x128 .f32) (x2 : FVec Ideal S5000x128 .f32)
    (x3 : FVec Ideal S128x128 .f32) (x4 : FVec Ideal S5000x128 .f32) (x5 : FVec Ideal S128x128 .f32) (x6 : FVec Ideal S128 .f32)
    (A0 : Mat 100000 128) (W0 : Mat 128 128) (A1 : Mat 100000 128) (W1 : Mat 128 128) (A2 : Mat 100000 128) (W2 : Mat 128 128)
    (B : Row 128) (off : ℕ) (y : S5000x128.Idx) (i : (⟨2, ![100000, 128]⟩ : Shape).Idx)
    (hi0 : (i 0).val = off + (y 0).val) (hi1 : (i 1).val = (y 1).val)
    (h0 : ∀ (u : S5000x128.Idx) (z : (⟨2, ![100000, 128]⟩ : Shape).Idx), (z 0).val = off + (u 0).val → (z 1).val = (u 1).val → (x0 u : EReal) = A0 z) (hw0 : ∀ u, (x1 u : EReal) = W0 u)
    (h1 : ∀ (u : S5000x128.Idx) (z : (⟨2, ![100000, 128]⟩ : Shape).Idx), (z 0).val = off + (u 0).val → (z 1).val = (u 1).val → (x2 u : EReal) = A1 z) (hw1 : ∀ u, (x3 u : EReal) = W1 u)
    (h2 : ∀ (u : S5000x128.Idx) (z : (⟨2, ![100000, 128]⟩ : Shape).Idx), (z 0).val = off + (u 0).val → (z 1).val = (u 1).val → (x4 u : EReal) = A2 z) (hw2 : ∀ u, (x5 u : EReal) = W2 u)
    (hb : ∀ u, (x6 u : EReal) = B u) :
    (k4_pay1 (F := Ideal) x0 x1 x2 x3 x4 x5 x6 y : EReal) = l2n (relu (kform3 A0 W0 A1 W1 A2 W2 B)) i := by
  obtain ⟨p, c, rfl⟩ : ∃ (p : Fin 5000) (c : Fin 128), y = ix2 p c := ⟨y 0, y 1, eq_ix2 y⟩
  obtain ⟨p', c', rfl⟩ : ∃ (p' : Fin 100000) (c' : Fin 128), i = ix2 p' c' := ⟨i 0, i 1, eq_ix2 i⟩
  obtain rfl : c' = c := Fin.ext hi1
  rw [pay4_eq]
  exact nrm_at (k2_pay1 (F := Ideal) x0 x1 x2 x3 x4 x5 x6) (relu (kform3 A0 W0 A1 W1 A2 W2 B)) p p' c' fun j =>
    pay2_at x0 x1 x2 x3 x4 x5 x6 A0 W0 A1 W1 A2 W2 B p p' j (fun k => h0 (ix2 p k) (ix2 p' k) hi0 rfl) hw0
      (fun k => h1 (ix2 p k) (ix2 p' k) hi0 rfl) hw1 (fun k => h2 (ix2 p k) (ix2 p' k) hi0 rfl) hw2 hb

theorem pay3_blk (x0 : FVec Ideal S5000x128 .f32) (x1 : FVec Ideal S128x128 .f32) (x2 : FVec Ideal S5000x128 .f32)
    (x3 : FVec Ideal S128x128 .f32) (x4 : FVec Ideal S128 .f32)
    (A0 : Mat 100000 128) (W0 : Mat 128 128) (A1 : Mat 100000 128) (W1 : Mat 128 128)
    (B : Row 128) (off : ℕ) (y : S5000x128.Idx) (i : (⟨2, ![100000, 128]⟩ : Shape).Idx)
    (hi0 : (i 0).val = off + (y 0).val) (hi1 : (i 1).val = (y 1).val)
    (h0 : ∀ (u : S5000x128.Idx) (z : (⟨2, ![100000, 128]⟩ : Shape).Idx), (z 0).val = off + (u 0).val → (z 1).val = (u 1).val → (x0 u : EReal) = A0 z) (hw0 : ∀ u, (x1 u : EReal) = W0 u)
    (h1 : ∀ (u : S5000x128.Idx) (z : (⟨2, ![100000, 128]⟩ : Shape).Idx), (z 0).val = off + (u 0).val → (z 1).val = (u 1).val → (x2 u : EReal) = A1 z) (hw1 : ∀ u, (x3 u : EReal) = W1 u)
    (hb : ∀ u, (x4 u : EReal) = B u) :
    (k3_pay1 (F := Ideal) x0 x1 x2 x3 x4 y : EReal) = relu (kform2 A0 W0 A1 W1 B) i := by
  obtain ⟨p, c, rfl⟩ : ∃ (p : Fin 5000) (c : Fin 128), y = ix2 p c := ⟨y 0, y 1, eq_ix2 y⟩
  obtain ⟨p', c', rfl⟩ : ∃ (p' : Fin 100000) (c' : Fin 128), i = ix2 p' c' := ⟨i 0, i 1, eq_ix2 i⟩
  obtain rfl : c' = c := Fin.ext hi1
  exact pay3_at x0 x1 x2 x3 x4 A0 W0 A1 W1 B p p' c' (fun k => h0 (ix2 p k) (ix2 p' k) hi0 rfl) hw0
    (fun k => h1 (ix2 p k) (ix2 p' k) hi0 rfl) hw1 hb

theorem pay5_blk (x0 : FVec Ideal S5000x128 .f32) (x1 : FVec Ideal S128x128 .f32) (x2 : FVec Ideal S5000x128 .f32)
    (x3 : FVec Ideal S128x128 .f32) (x4 : FVec Ideal S128 .f32)
    (A0 : Mat 100000 128) (W0 : Mat 128 128) (A1 : Mat 100000 128) (W1 : Mat 128 128)
    (B : Row 128) (off : ℕ) (y : S5000x128.Idx) (i : (⟨2, ![100000, 128]⟩ : Shape).Idx)
    (hi0 : (i 0).val = off + (y 0).val) (hi1 : (i 1).val = (y 1).val)
    (h0 : ∀ (u : S5000x128.Idx) (z : (⟨2, ![100000, 128]⟩ : Shape).Idx), (z 0).val = off + (u 0).val → (z 1).val = (u 1).val → (x0 u : EReal) = A0 z) (hw0 : ∀ u, (x1 u : EReal) = W0 u)
    (h1 : ∀ (u : S5000x128.Idx) (z : (⟨2, ![100000, 128]⟩ : Shape).Idx), (z 0).val = off + (u 0).val → (z 1).val = (u 1).val → (x2 u : EReal) = A1 z) (hw1 : ∀ u, (x3 u : EReal) = W1 u)
    (hb : ∀ u, (x4 u : EReal) = B u) :
    (k5_pay1 (F := Ideal) x0 x1 x2 x3 x4 y : EReal) = l2n (relu (kform2 A0 W0 A1 W1 B)) i := by
  obtain ⟨p, c, rfl⟩ : ∃ (p : Fin 5000) (c : Fin 128), y = ix2 p c := ⟨y 0, y 1, eq_ix2 y⟩
  obtain ⟨p', c', rfl⟩ : ∃ (p' : Fin 100000) (c' : Fin 128), i = ix2 p' c' := ⟨i 0, i 1, eq_ix2 i⟩
  obtain rfl : c' = c := Fin.ext hi1
  rw [pay5_eq]
  exact nrm_at (k3_pay1 (F := Ideal) x0 x1 x2 x3 x4) (relu (kform2 A0 W0 A1 W1 B)) p p' c' fun j =>
    pay3_at x0 x1 x2 x3 x4 A0 W0 A1 W1 B p p' j (fun k => h0 (ix2 p k) (ix2 p' k) hi0 rfl) hw0
      (fun k => h1 (ix2 p k) (ix2 p' k) hi0 rfl) hw1 hb

end Cert.KernelIdeal.Pay

end
-- ==== Proof.KReg0.lean ====
/-
  Launch 0 of the idealized kernel: what its result array holds when the launch ends, as one function of the arrays the
  launch finds.

  The grid has twenty points; point `t` reads rows `5000·t … 5000·t + 4999` of each feature array and the whole of each
  weight matrix and of the bias row, and writes back rows `5000·t …` of the result.  What it writes is the layer's formula
  of those rows (the payload read at an index), and the twenty row blocks tile the result array: so the array ends as the
  layer's formula of the whole arrays.
-/
import proofs.«164584_j12077448036842_1_alg».proof.Proof.Gen.KernelIdeal.Frame
import proofs.«164584_j12077448036842_1_alg».proof.Proof.KPay

set_option maxRecDepth 16384

noncomputable section

namespace Cert.KernelIdeal.Reg0

open Cert.KernelIdeal Cert.KernelIdeal.Gen Cert.Sage Cert.KernelIdeal.RegionValue Cert.KernelIdeal.Pay
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The offset `(0)` of a whole-buffer access of a vector is the zero function. -/
theorem hz1 : (![0] : Fin 1 → Nat) = fun _ => 0 := funext fun a => by fin_cases a; rfl

/-- The layer's formula of the arrays as the launch finds them. -/
def G (c : Dev nD) : Mat 100000 128 := relu (lin1 (V c main_arg0 : Mat 100000 256) (V c main_arg2 : Mat 256 128) (V c main_arg3 : Row 128))

/-- The printed index maps, decided over the twenty points: a feature window and the result window move one block of rows
    per point; a weight or bias window stays. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

/-- Window 0's block at point `t` is rows `5000·t …` of its array. -/
theorem blk0_0 (c : Dev nD) (t : Fin cfg0.N) (u : S5000x256.Idx) (z : (⟨2, ![100000, 256]⟩ : Shape).Idx)
    (h0 : (z 0).val = 5000 * t.val + (u 0).val) (h1 : (z 1).val = (u 1).val) :
    (iblk0 V c 0 t u : EReal) = (V c main_arg0 : Mat 100000 256) z := by
  show V c main_arg0 (((cfg0.win 0).blk t).view.emb u) = V c main_arg0 z
  refine congrArg (V c main_arg0) (funext fun a => Fin.ext ?_)
  have e0 := (idx0 t).1
  have e1 := (idx0 t).2.1
  match a with
  | ⟨0, _⟩ => show win0_0.index t (0 : Fin 2) * 5000 + 1 * (u 0).val = (z 0).val; omega
  | ⟨1, _⟩ => show win0_0.index t (1 : Fin 2) * 256 + 1 * (u 1).val = (z 1).val; omega

/-- Window 1's block at every point is its whole array. -/
theorem blk0_1 (c : Dev nD) (t : Fin cfg0.N) (u : S256x128.Idx) :
    (iblk0 V c 1 t u : EReal) = (V c main_arg2 : Mat 256 128) u := by
  show V c main_arg2 (((cfg0.win 1).blk t).view.emb u) = V c main_arg2 u
  refine congrArg (V c main_arg2) (funext fun a => Fin.ext ?_)
  have e0 := (idx0 t).2.2.1
  have e1 := (idx0 t).2.2.2.1
  match a with
  | ⟨0, _⟩ => show win0_1.index t (0 : Fin 2) * 256 + 1 * (u 0).val = (u 0).val; omega
  | ⟨1, _⟩ => show win0_1.index t (1 : Fin 2) * 128 + 1 * (u 1).val = (u 1).val; omega

/-- Window 2's block at every point is its whole array. -/
theorem blk0_2 (c : Dev nD) (t : Fin cfg0.N) (u : S128.Idx) :
    (iblk0 V c 2 t u : EReal) = (V c main_arg3 : Row 128) u := by
  show V c main_arg3 (((cfg0.win 2).blk t).view.emb u) = V c main_arg3 u
  refine congrArg (V c main_arg3) (funext fun a => Fin.ext ?_)
  have e0 := (idx0 t).2.2.2.2.1
  match a with
  | ⟨0, _⟩ => show win0_2.index t (0 : Fin 1) * 128 + 1 * (u 0).val = (u 0).val; omega

/-- What point `t` writes back is block `t` of the layer's formula. -/
theorem flushed (c : Dev nD) (t : Fin cfg0.N) :
    (dat0 (F := Ideal) V c).flushed 3 t = ((cfg0.win 3).blk t).view.read (Elt Ideal) (G V c) := by
  show (cfg0.win 3).cut (grid0.coords t) ((dat0 (F := Ideal) V c).after 3 t) = _
  rw [after0_3]
  unfold out0_3
  rw [View.canon_unit_zero off2_zero]
  simp only [View.ld_unit_zero (S := S5000x256) off2_zero, View.ld_unit_zero (S := S256x128) off2_zero, View.ld_unit_zero (S := S128) hz1]
  funext y
  have eo0 := (idx0 t).2.2.2.2.2.1
  have eo1 := (idx0 t).2.2.2.2.2.2
  exact pay0_blk (iblk0 V c 0 t) (iblk0 V c 1 t) (iblk0 V c 2 t)
    (V c main_arg0 : Mat 100000 256) (V c main_arg2 : Mat 256 128) (V c main_arg3 : Row 128)
    (5000 * t.val) y (((cfg0.win 3).blk t).view.emb y)
    (by show win0_3.index t (0 : Fin 2) * 5000 + 1 * (y 0).val = 5000 * t.val + (y 0).val; omega)
    (by show win0_3.index t (1 : Fin 2) * 128 + 1 * (y 1).val = (y 1).val; omega)
    (fun u z h0 h1 => blk0_0 V c t u z h0 h1)
    (fun u => blk0_1 V c t u)
    (fun u => blk0_2 V c t u)

/-- Every row of the result array lies in some point's block. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 20 := N_0
  let t : Fin cfg0.N := ⟨(i 0).val / 5000, by show (i 0).val / 5000 < grid0.N; omega⟩
  have ht : t.val = (i 0).val / 5000 := rfl
  have eo0 := (idx0 t).2.2.2.2.2.1
  have eo1 := (idx0 t).2.2.2.2.2.2
  refine ⟨t, flush0_3 t, ?_⟩
  show i ∈ ((View.whole main_v0).slice (win0_3.rect t)).set
  rw [View.set_slice_whole, Rect.mem_set_unit]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The result array when the launch ends. -/
theorem final (c : Dev nD) : (dat0 (F := Ideal) V c).arrAt 3 cfg0.N = G V c :=
  (dat0 (F := Ideal) V c).arrAt_eq_of_cover 3 (G V c) (fun t _ => flushed V c t) (cover)

end Cert.KernelIdeal.Reg0

end
-- ==== Proof.KReg1.lean ====
/-
  Launch 1 of the idealized kernel: what its result array holds when the launch ends, as one function of the arrays the
  launch finds.

  The grid has twenty points; point `t` reads rows `5000·t … 5000·t + 4999` of each feature array and the whole of each
  weight matrix and of the bias row, and writes back rows `5000·t …` of the result.  What it writes is the layer's formula
  of those rows (the payload read at an index), and the twenty row blocks tile the result array: so the array ends as the
  layer's formula of the whole arrays.
-/
import proofs.«164584_j12077448036842_1_alg».proof.Proof.Gen.KernelIdeal.Frame
import proofs.«164584_j12077448036842_1_alg».proof.Proof.KPay

set_option maxRecDepth 16384

noncomputable section

namespace Cert.KernelIdeal.Reg1

open Cert.KernelIdeal Cert.KernelIdeal.Gen Cert.Sage Cert.KernelIdeal.RegionValue Cert.KernelIdeal.Pay
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The offset `(0)` of a whole-buffer access of a vector is the zero function. -/
theorem hz1 : (![0] : Fin 1 → Nat) = fun _ => 0 := funext fun a => by fin_cases a; rfl

/-- The layer's formula of the arrays as the launch finds them. -/
def G (c : Dev nD) : Mat 100000 128 := relu (lin1 (V c main_arg1 : Mat 100000 64) (V c main_arg4 : Mat 64 128) (V c main_arg5 : Row 128))

/-- The printed index maps, decided over the twenty points: a feature window and the result window move one block of rows
    per point; a weight or bias window stays. -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 2) = t.val
    ∧ win1_3.index t (1 : Fin 2) = 0 :=
  (by decide +kernel : ∀ t : Fin grid1.N, _)

/-- Window 0's block at point `t` is rows `5000·t …` of its array. -/
theorem blk1_0 (c : Dev nD) (t : Fin cfg1.N) (u : S5000x64.Idx) (z : (⟨2, ![100000, 64]⟩ : Shape).Idx)
    (h0 : (z 0).val = 5000 * t.val + (u 0).val) (h1 : (z 1).val = (u 1).val) :
    (iblk1 V c 0 t u : EReal) = (V c main_arg1 : Mat 100000 64) z := by
  show V c main_arg1 (((cfg1.win 0).blk t).view.emb u) = V c main_arg1 z
  refine congrArg (V c main_arg1) (funext fun a => Fin.ext ?_)
  have e0 := (idx1 t).1
  have e1 := (idx1 t).2.1
  match a with
  | ⟨0, _⟩ => show win1_0.index t (0 : Fin 2) * 5000 + 1 * (u 0).val = (z 0).val; omega
  | ⟨1, _⟩ => show win1_0.index t (1 : Fin 2) * 64 + 1 * (u 1).val = (z 1).val; omega

/-- Window 1's block at every point is its whole array. -/
theorem blk1_1 (c : Dev nD) (t : Fin cfg1.N) (u : S64x128.Idx) :
    (iblk1 V c 1 t u : EReal) = (V c main_arg4 : Mat 64 128) u := by
  show V c main_arg4 (((cfg1.win 1).blk t).view.emb u) = V c main_arg4 u
  refine congrArg (V c main_arg4) (funext fun a => Fin.ext ?_)
  have e0 := (idx1 t).2.2.1
  have e1 := (idx1 t).2.2.2.1
  match a with
  | ⟨0, _⟩ => show win1_1.index t (0 : Fin 2) * 64 + 1 * (u 0).val = (u 0).val; omega
  | ⟨1, _⟩ => show win1_1.index t (1 : Fin 2) * 128 + 1 * (u 1).val = (u 1).val; omega

/-- Window 2's block at every point is its whole array. -/
theorem blk1_2 (c : Dev nD) (t : Fin cfg1.N) (u : S128.Idx) :
    (iblk1 V c 2 t u : EReal) = (V c main_arg5 : Row 128) u := by
  show V c main_arg5 (((cfg1.win 2).blk t).view.emb u) = V c main_arg5 u
  refine congrArg (V c main_arg5) (funext fun a => Fin.ext ?_)
  have e0 := (idx1 t).2.2.2.2.1
  match a with
  | ⟨0, _⟩ => show win1_2.index t (0 : Fin 1) * 128 + 1 * (u 0).val = (u 0).val; omega

/-- What point `t` writes back is block `t` of the layer's formula. -/
theorem flushed (c : Dev nD) (t : Fin cfg1.N) :
    (dat1 (F := Ideal) V c).flushed 3 t = ((cfg1.win 3).blk t).view.read (Elt Ideal) (G V c) := by
  show (cfg1.win 3).cut (grid1.coords t) ((dat1 (F := Ideal) V c).after 3 t) = _
  rw [after1_3]
  unfold out1_3
  rw [View.canon_unit_zero off2_zero]
  simp only [View.ld_unit_zero (S := S5000x64) off2_zero, View.ld_unit_zero (S := S64x128) off2_zero, View.ld_unit_zero (S := S128) hz1]
  funext y
  have eo0 := (idx1 t).2.2.2.2.2.1
  have eo1 := (idx1 t).2.2.2.2.2.2
  exact pay1_blk (iblk1 V c 0 t) (iblk1 V c 1 t) (iblk1 V c 2 t)
    (V c main_arg1 : Mat 100000 64) (V c main_arg4 : Mat 64 128) (V c main_arg5 : Row 128)
    (5000 * t.val) y (((cfg1.win 3).blk t).view.emb y)
    (by show win1_3.index t (0 : Fin 2) * 5000 + 1 * (y 0).val = 5000 * t.val + (y 0).val; omega)
    (by show win1_3.index t (1 : Fin 2) * 128 + 1 * (y 1).val = (y 1).val; omega)
    (fun u z h0 h1 => blk1_0 V c t u z h0 h1)
    (fun u => blk1_1 V c t u)
    (fun u => blk1_2 V c t u)

/-- Every row of the result array lies in some point's block. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : grid1.N = 20 := N_1
  let t : Fin cfg1.N := ⟨(i 0).val / 5000, by show (i 0).val / 5000 < grid1.N; omega⟩
  have ht : t.val = (i 0).val / 5000 := rfl
  have eo0 := (idx1 t).2.2.2.2.2.1
  have eo1 := (idx1 t).2.2.2.2.2.2
  refine ⟨t, flush1_3 t, ?_⟩
  show i ∈ ((View.whole main_v1).slice (win1_3.rect t)).set
  rw [View.set_slice_whole, Rect.mem_set_unit]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The result array when the launch ends. -/
theorem final (c : Dev nD) : (dat1 (F := Ideal) V c).arrAt 3 cfg1.N = G V c :=
  (dat1 (F := Ideal) V c).arrAt_eq_of_cover 3 (G V c) (fun t _ => flushed V c t) (cover)

end Cert.KernelIdeal.Reg1

end
-- ==== Proof.KReg2.lean ====
/-
  Launch 2 of the idealized kernel: what its result array holds when the launch ends, as one function of the arrays the
  launch finds.

  The grid has twenty points; point `t` reads rows `5000·t … 5000·t + 4999` of each feature array and the whole of each
  weight matrix and of the bias row, and writes back rows `5000·t …` of the result.  What it writes is the layer's formula
  of those rows (the payload read at an index), and the twenty row blocks tile the result array: so the array ends as the
  layer's formula of the whole arrays.
-/
import proofs.«164584_j12077448036842_1_alg».proof.Proof.Gen.KernelIdeal.Frame
import proofs.«164584_j12077448036842_1_alg».proof.Proof.KPay

set_option maxRecDepth 16384

noncomputable section

namespace Cert.KernelIdeal.Reg2

open Cert.KernelIdeal Cert.KernelIdeal.Gen Cert.Sage Cert.KernelIdeal.RegionValue Cert.KernelIdeal.Pay
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The offset `(0)` of a whole-buffer access of a vector is the zero function. -/
theorem hz1 : (![0] : Fin 1 → Nat) = fun _ => 0 := funext fun a => by fin_cases a; rfl

/-- The layer's formula of the arrays as the launch finds them. -/
def G (c : Dev nD) : Mat 100000 128 := relu (kform3 (V c main_v0 : Mat 100000 128) (V c main_v60 : Mat 128 128) (V c main_v19 : Mat 100000 128) (V c main_v67 : Mat 128 128) (V c main_v55 : Mat 100000 128) (V c main_v69 : Mat 128 128) (V c main_v65 : Row 128))

/-- The printed index maps, decided over the twenty points: a feature window and the result window move one block of rows
    per point; a weight or bias window stays. -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0
    ∧ win2_5.index t (0 : Fin 2) = 0
    ∧ win2_5.index t (1 : Fin 2) = 0
    ∧ win2_6.index t (0 : Fin 1) = 0
    ∧ win2_7.index t (0 : Fin 2) = t.val
    ∧ win2_7.index t (1 : Fin 2) = 0 :=
  (by decide +kernel : ∀ t : Fin grid2.N, _)

/-- Window 0's block at point `t` is rows `5000·t …` of its array. -/
theorem blk2_0 (c : Dev nD) (t : Fin cfg2.N) (u : S5000x128.Idx) (z : (⟨2, ![100000, 128]⟩ : Shape).Idx)
    (h0 : (z 0).val = 5000 * t.val + (u 0).val) (h1 : (z 1).val = (u 1).val) :
    (iblk2 V c 0 t u : EReal) = (V c main_v0 : Mat 100000 128) z := by
  show V c main_v0 (((cfg2.win 0).blk t).view.emb u) = V c main_v0 z
  refine congrArg (V c main_v0) (funext fun a => Fin.ext ?_)
  have e0 := (idx2 t).1
  have e1 := (idx2 t).2.1
  match a with
  | ⟨0, _⟩ => show win2_0.index t (0 : Fin 2) * 5000 + 1 * (u 0).val = (z 0).val; omega
  | ⟨1, _⟩ => show win2_0.index t (1 : Fin 2) * 128 + 1 * (u 1).val = (z 1).val; omega

/-- Window 1's block at every point is its whole array. -/
theorem blk2_1 (c : Dev nD) (t : Fin cfg2.N) (u : S128x128.Idx) :
    (iblk2 V c 1 t u : EReal) = (V c main_v60 : Mat 128 128) u := by
  show V c main_v60 (((cfg2.win 1).blk t).view.emb u) = V c main_v60 u
  refine congrArg (V c main_v60) (funext fun a => Fin.ext ?_)
  have e0 := (idx2 t).2.2.1
  have e1 := (idx2 t).2.2.2.1
  match a with
  | ⟨0, _⟩ => show win2_1.index t (0 : Fin 2) * 128 + 1 * (u 0).val = (u 0).val; omega
  | ⟨1, _⟩ => show win2_1.index t (1 : Fin 2) * 128 + 1 * (u 1).val = (u 1).val; omega

/-- Window 2's block at point `t` is rows `5000·t …` of its array. -/
theorem blk2_2 (c : Dev nD) (t : Fin cfg2.N) (u : S5000x128.Idx) (z : (⟨2, ![100000, 128]⟩ : Shape).Idx)
    (h0 : (z 0).val = 5000 * t.val + (u 0).val) (h1 : (z 1).val = (u 1).val) :
    (iblk2 V c 2 t u : EReal) = (V c main_v19 : Mat 100000 128) z := by
  show V c main_v19 (((cfg2.win 2).blk t).view.emb u) = V c main_v19 z
  refine congrArg (V c main_v19) (funext fun a => Fin.ext ?_)
  have e0 := (idx2 t).2.2.2.2.1
  have e1 := (idx2 t).2.2.2.2.2.1
  match a with
  | ⟨0, _⟩ => show win2_2.index t (0 : Fin 2) * 5000 + 1 * (u 0).val = (z 0).val; omega
  | ⟨1, _⟩ => show win2_2.index t (1 : Fin 2) * 128 + 1 * (u 1).val = (z 1).val; omega

/-- Window 3's block at every point is its whole array. -/
theorem blk2_3 (c : Dev nD) (t : Fin cfg2.N) (u : S128x128.Idx) :
    (iblk2 V c 3 t u : EReal) = (V c main_v67 : Mat 128 128) u := by
  show V c main_v67 (((cfg2.win 3).blk t).view.emb u) = V c main_v67 u
  refine congrArg (V c main_v67) (funext fun a => Fin.ext ?_)
  have e0 := (idx2 t).2.2.2.2.2.2.1
  have e1 := (idx2 t).2.2.2.2.2.2.2.1
  match a with
  | ⟨0, _⟩ => show win2_3.index t (0 : Fin 2) * 128 + 1 * (u 0).val = (u 0).val; omega
  | ⟨1, _⟩ => show win2_3.index t (1 : Fin 2) * 128 + 1 * (u 1).val = (u 1).val; omega

/-- Window 4's block at point `t` is rows `5000·t …` of its array. -/
theorem blk2_4 (c : Dev nD) (t : Fin cfg2.N) (u : S5000x128.Idx) (z : (⟨2, ![100000, 128]⟩ : Shape).Idx)
    (h0 : (z 0).val = 5000 * t.val + (u 0).val) (h1 : (z 1).val = (u 1).val) :
    (iblk2 V c 4 t u : EReal) = (V c main_v55 : Mat 100000 128) z := by
  show V c main_v55 (((cfg2.win 4).blk t).view.emb u) = V c main_v55 z
  refine congrArg (V c main_v55) (funext fun a => Fin.ext ?_)
  have e0 := (idx2 t).2.2.2.2.2.2.2.2.1
  have e1 := (idx2 t).2.2.2.2.2.2.2.2.2.1
  match a with
  | ⟨0, _⟩ => show win2_4.index t (0 : Fin 2) * 5000 + 1 * (u 0).val = (z 0).val; omega
  | ⟨1, _⟩ => show win2_4.index t (1 : Fin 2) * 128 + 1 * (u 1).val = (z 1).val; omega

/-- Window 5's block at every point is its whole array. -/
theorem blk2_5 (c : Dev nD) (t : Fin cfg2.N) (u : S128x128.Idx) :
    (iblk2 V c 5 t u : EReal) = (V c main_v69 : Mat 128 128) u := by
  show V c main_v69 (((cfg2.win 5).blk t).view.emb u) = V c main_v69 u
  refine congrArg (V c main_v69) (funext fun a => Fin.ext ?_)
  have e0 := (idx2 t).2.2.2.2.2.2.2.2.2.2.1
  have e1 := (idx2 t).2.2.2.2.2.2.2.2.2.2.2.1
  match a with
  | ⟨0, _⟩ => show win2_5.index t (0 : Fin 2) * 128 + 1 * (u 0).val = (u 0).val; omega
  | ⟨1, _⟩ => show win2_5.index t (1 : Fin 2) * 128 + 1 * (u 1).val = (u 1).val; omega

/-- Window 6's block at every point is its whole array. -/
theorem blk2_6 (c : Dev nD) (t : Fin cfg2.N) (u : S128.Idx) :
    (iblk2 V c 6 t u : EReal) = (V c main_v65 : Row 128) u := by
  show V c main_v65 (((cfg2.win 6).blk t).view.emb u) = V c main_v65 u
  refine congrArg (V c main_v65) (funext fun a => Fin.ext ?_)
  have e0 := (idx2 t).2.2.2.2.2.2.2.2.2.2.2.2.1
  match a with
  | ⟨0, _⟩ => show win2_6.index t (0 : Fin 1) * 128 + 1 * (u 0).val = (u 0).val; omega

/-- What point `t` writes back is block `t` of the layer's formula. -/
theorem flushed (c : Dev nD) (t : Fin cfg2.N) :
    (dat2 (F := Ideal) V c).flushed 7 t = ((cfg2.win 7).blk t).view.read (Elt Ideal) (G V c) := by
  show (cfg2.win 7).cut (grid2.coords t) ((dat2 (F := Ideal) V c).after 7 t) = _
  rw [after2_7]
  unfold out2_7
  rw [View.canon_unit_zero off2_zero]
  simp only [View.ld_unit_zero (S := S5000x128) off2_zero, View.ld_unit_zero (S := S128x128) off2_zero, View.ld_unit_zero (S := S128) hz1]
  funext y
  have eo0 := (idx2 t).2.2.2.2.2.2.2.2.2.2.2.2.2.1
  have eo1 := (idx2 t).2.2.2.2.2.2.2.2.2.2.2.2.2.2
  exact pay2_blk (iblk2 V c 0 t) (iblk2 V c 1 t) (iblk2 V c 2 t) (iblk2 V c 3 t) (iblk2 V c 4 t) (iblk2 V c 5 t) (iblk2 V c 6 t)
    (V c main_v0 : Mat 100000 128) (V c main_v60 : Mat 128 128) (V c main_v19 : Mat 100000 128) (V c main_v67 : Mat 128 128) (V c main_v55 : Mat 100000 128) (V c main_v69 : Mat 128 128) (V c main_v65 : Row 128)
    (5000 * t.val) y (((cfg2.win 7).blk t).view.emb y)
    (by show win2_7.index t (0 : Fin 2) * 5000 + 1 * (y 0).val = 5000 * t.val + (y 0).val; omega)
    (by show win2_7.index t (1 : Fin 2) * 128 + 1 * (y 1).val = (y 1).val; omega)
    (fun u z h0 h1 => blk2_0 V c t u z h0 h1)
    (fun u => blk2_1 V c t u)
    (fun u z h0 h1 => blk2_2 V c t u z h0 h1)
    (fun u => blk2_3 V c t u)
    (fun u z h0 h1 => blk2_4 V c t u z h0 h1)
    (fun u => blk2_5 V c t u)
    (fun u => blk2_6 V c t u)

/-- Every row of the result array lies in some point's block. -/
theorem cover (i : S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  have hN : grid2.N = 20 := N_2
  let t : Fin cfg2.N := ⟨(i 0).val / 5000, by show (i 0).val / 5000 < grid2.N; omega⟩
  have ht : t.val = (i 0).val / 5000 := rfl
  have eo0 := (idx2 t).2.2.2.2.2.2.2.2.2.2.2.2.2.1
  have eo1 := (idx2 t).2.2.2.2.2.2.2.2.2.2.2.2.2.2
  refine ⟨t, flush2_7 t, ?_⟩
  show i ∈ ((View.whole main_v70).slice (win2_7.rect t)).set
  rw [View.set_slice_whole, Rect.mem_set_unit]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 128 ≤ (i 1).val ∧ (i 1).val < win2_7.index t (1 : Fin 2) * 128 + 128; omega

/-- The result array when the launch ends. -/
theorem final (c : Dev nD) : (dat2 (F := Ideal) V c).arrAt 7 cfg2.N = G V c :=
  (dat2 (F := Ideal) V c).arrAt_eq_of_cover 7 (G V c) (fun t _ => flushed V c t) (cover)

end Cert.KernelIdeal.Reg2

end
-- ==== Proof.KReg3.lean ====
/-
  Launch 3 of the idealized kernel: what its result array holds when the launch ends, as one function of the arrays the
  launch finds.

  The grid has twenty points; point `t` reads rows `5000·t … 5000·t + 4999` of each feature array and the whole of each
  weight matrix and of the bias row, and writes back rows `5000·t …` of the result.  What it writes is the layer's formula
  of those rows (the payload read at an index), and the twenty row blocks tile the result array: so the array ends as the
  layer's formula of the whole arrays.
-/
import proofs.«164584_j12077448036842_1_alg».proof.Proof.Gen.KernelIdeal.Frame
import proofs.«164584_j12077448036842_1_alg».proof.Proof.KPay

set_option maxRecDepth 16384

noncomputable section

namespace Cert.KernelIdeal.Reg3

open Cert.KernelIdeal Cert.KernelIdeal.Gen Cert.Sage Cert.KernelIdeal.RegionValue Cert.KernelIdeal.Pay
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The offset `(0)` of a whole-buffer access of a vector is the zero function. -/
theorem hz1 : (![0] : Fin 1 → Nat) = fun _ => 0 := funext fun a => by fin_cases a; rfl

/-- The layer's formula of the arrays as the launch finds them. -/
def G (c : Dev nD) : Mat 100000 128 := relu (kform2 (V c main_v1 : Mat 100000 128) (V c main_v72 : Mat 128 128) (V c main_v37 : Mat 100000 128) (V c main_v74 : Mat 128 128) (V c main_v76 : Row 128))

/-- The printed index maps, decided over the twenty points: a feature window and the result window move one block of rows
    per point; a weight or bias window stays. -/
theorem idx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 1) = 0
    ∧ win3_5.index t (0 : Fin 2) = t.val
    ∧ win3_5.index t (1 : Fin 2) = 0 :=
  (by decide +kernel : ∀ t : Fin grid3.N, _)

/-- Window 0's block at point `t` is rows `5000·t …` of its array. -/
theorem blk3_0 (c : Dev nD) (t : Fin cfg3.N) (u : S5000x128.Idx) (z : (⟨2, ![100000, 128]⟩ : Shape).Idx)
    (h0 : (z 0).val = 5000 * t.val + (u 0).val) (h1 : (z 1).val = (u 1).val) :
    (iblk3 V c 0 t u : EReal) = (V c main_v1 : Mat 100000 128) z := by
  show V c main_v1 (((cfg3.win 0).blk t).view.emb u) = V c main_v1 z
  refine congrArg (V c main_v1) (funext fun a => Fin.ext ?_)
  have e0 := (idx3 t).1
  have e1 := (idx3 t).2.1
  match a with
  | ⟨0, _⟩ => show win3_0.index t (0 : Fin 2) * 5000 + 1 * (u 0).val = (z 0).val; omega
  | ⟨1, _⟩ => show win3_0.index t (1 : Fin 2) * 128 + 1 * (u 1).val = (z 1).val; omega

/-- Window 1's block at every point is its whole array. -/
theorem blk3_1 (c : Dev nD) (t : Fin cfg3.N) (u : S128x128.Idx) :
    (iblk3 V c 1 t u : EReal) = (V c main_v72 : Mat 128 128) u := by
  show V c main_v72 (((cfg3.win 1).blk t).view.emb u) = V c main_v72 u
  refine congrArg (V c main_v72) (funext fun a => Fin.ext ?_)
  have e0 := (idx3 t).2.2.1
  have e1 := (idx3 t).2.2.2.1
  match a with
  | ⟨0, _⟩ => show win3_1.index t (0 : Fin 2) * 128 + 1 * (u 0).val = (u 0).val; omega
  | ⟨1, _⟩ => show win3_1.index t (1 : Fin 2) * 128 + 1 * (u 1).val = (u 1).val; omega

/-- Window 2's block at point `t` is rows `5000·t …` of its array. -/
theorem blk3_2 (c : Dev nD) (t : Fin cfg3.N) (u : S5000x128.Idx) (z : (⟨2, ![100000, 128]⟩ : Shape).Idx)
    (h0 : (z 0).val = 5000 * t.val + (u 0).val) (h1 : (z 1).val = (u 1).val) :
    (iblk3 V c 2 t u : EReal) = (V c main_v37 : Mat 100000 128) z := by
  show V c main_v37 (((cfg3.win 2).blk t).view.emb u) = V c main_v37 z
  refine congrArg (V c main_v37) (funext fun a => Fin.ext ?_)
  have e0 := (idx3 t).2.2.2.2.1
  have e1 := (idx3 t).2.2.2.2.2.1
  match a with
  | ⟨0, _⟩ => show win3_2.index t (0 : Fin 2) * 5000 + 1 * (u 0).val = (z 0).val; omega
  | ⟨1, _⟩ => show win3_2.index t (1 : Fin 2) * 128 + 1 * (u 1).val = (z 1).val; omega

/-- Window 3's block at every point is its whole array. -/
theorem blk3_3 (c : Dev nD) (t : Fin cfg3.N) (u : S128x128.Idx) :
    (iblk3 V c 3 t u : EReal) = (V c main_v74 : Mat 128 128) u := by
  show V c main_v74 (((cfg3.win 3).blk t).view.emb u) = V c main_v74 u
  refine congrArg (V c main_v74) (funext fun a => Fin.ext ?_)
  have e0 := (idx3 t).2.2.2.2.2.2.1
  have e1 := (idx3 t).2.2.2.2.2.2.2.1
  match a with
  | ⟨0, _⟩ => show win3_3.index t (0 : Fin 2) * 128 + 1 * (u 0).val = (u 0).val; omega
  | ⟨1, _⟩ => show win3_3.index t (1 : Fin 2) * 128 + 1 * (u 1).val = (u 1).val; omega

/-- Window 4's block at every point is its whole array. -/
theorem blk3_4 (c : Dev nD) (t : Fin cfg3.N) (u : S128.Idx) :
    (iblk3 V c 4 t u : EReal) = (V c main_v76 : Row 128) u := by
  show V c main_v76 (((cfg3.win 4).blk t).view.emb u) = V c main_v76 u
  refine congrArg (V c main_v76) (funext fun a => Fin.ext ?_)
  have e0 := (idx3 t).2.2.2.2.2.2.2.2.1
  match a with
  | ⟨0, _⟩ => show win3_4.index t (0 : Fin 1) * 128 + 1 * (u 0).val = (u 0).val; omega

/-- What point `t` writes back is block `t` of the layer's formula. -/
theorem flushed (c : Dev nD) (t : Fin cfg3.N) :
    (dat3 (F := Ideal) V c).flushed 5 t = ((cfg3.win 5).blk t).view.read (Elt Ideal) (G V c) := by
  show (cfg3.win 5).cut (grid3.coords t) ((dat3 (F := Ideal) V c).after 5 t) = _
  rw [after3_5]
  unfold out3_5
  rw [View.canon_unit_zero off2_zero]
  simp only [View.ld_unit_zero (S := S5000x128) off2_zero, View.ld_unit_zero (S := S128x128) off2_zero, View.ld_unit_zero (S := S128) hz1]
  funext y
  have eo0 := (idx3 t).2.2.2.2.2.2.2.2.2.1
  have eo1 := (idx3 t).2.2.2.2.2.2.2.2.2.2
  exact pay3_blk (iblk3 V c 0 t) (iblk3 V c 1 t) (iblk3 V c 2 t) (iblk3 V c 3 t) (iblk3 V c 4 t)
    (V c main_v1 : Mat 100000 128) (V c main_v72 : Mat 128 128) (V c main_v37 : Mat 100000 128) (V c main_v74 : Mat 128 128) (V c main_v76 : Row 128)
    (5000 * t.val) y (((cfg3.win 5).blk t).view.emb y)
    (by show win3_5.index t (0 : Fin 2) * 5000 + 1 * (y 0).val = 5000 * t.val + (y 0).val; omega)
    (by show win3_5.index t (1 : Fin 2) * 128 + 1 * (y 1).val = (y 1).val; omega)
    (fun u z h0 h1 => blk3_0 V c t u z h0 h1)
    (fun u => blk3_1 V c t u)
    (fun u z h0 h1 => blk3_2 V c t u z h0 h1)
    (fun u => blk3_3 V c t u)
    (fun u => blk3_4 V c t u)

/-- Every row of the result array lies in some point's block. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : grid3.N = 20 := N_3
  let t : Fin cfg3.N := ⟨(i 0).val / 5000, by show (i 0).val / 5000 < grid3.N; omega⟩
  have ht : t.val = (i 0).val / 5000 := rfl
  have eo0 := (idx3 t).2.2.2.2.2.2.2.2.2.1
  have eo1 := (idx3 t).2.2.2.2.2.2.2.2.2.2
  refine ⟨t, flush3_5 t, ?_⟩
  show i ∈ ((View.whole main_v77).slice (win3_5.rect t)).set
  rw [View.set_slice_whole, Rect.mem_set_unit]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- The result array when the launch ends. -/
theorem final (c : Dev nD) : (dat3 (F := Ideal) V c).arrAt 5 cfg3.N = G V c :=
  (dat3 (F := Ideal) V c).arrAt_eq_of_cover 5 (G V c) (fun t _ => flushed V c t) (cover)

end Cert.KernelIdeal.Reg3

end
-- ==== Proof.KReg4.lean ====
/-
  Launch 4 of the idealized kernel: what its result array holds when the launch ends, as one function of the arrays the
  launch finds.

  The grid has twenty points; point `t` reads rows `5000·t … 5000·t + 4999` of each feature array and the whole of each
  weight matrix and of the bias row, and writes back rows `5000·t …` of the result.  What it writes is the layer's formula
  of those rows (the payload read at an index), and the twenty row blocks tile the result array: so the array ends as the
  layer's formula of the whole arrays.
-/
import proofs.«164584_j12077448036842_1_alg».proof.Proof.Gen.KernelIdeal.Frame
import proofs.«164584_j12077448036842_1_alg».proof.Proof.KPay

set_option maxRecDepth 16384

noncomputable section

namespace Cert.KernelIdeal.Reg4

open Cert.KernelIdeal Cert.KernelIdeal.Gen Cert.Sage Cert.KernelIdeal.RegionValue Cert.KernelIdeal.Pay
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The offset `(0)` of a whole-buffer access of a vector is the zero function. -/
theorem hz1 : (![0] : Fin 1 → Nat) = fun _ => 0 := funext fun a => by fin_cases a; rfl

/-- The layer's formula of the arrays as the launch finds them. -/
def G (c : Dev nD) : Mat 100000 128 := l2n (relu (kform3 (V c main_v70 : Mat 100000 128) (V c main_v136 : Mat 128 128) (V c main_v95 : Mat 100000 128) (V c main_v143 : Mat 128 128) (V c main_v131 : Mat 100000 128) (V c main_v145 : Mat 128 128) (V c main_v141 : Row 128)))

/-- The printed index maps, decided over the twenty points: a feature window and the result window move one block of rows
    per point; a weight or bias window stays. -/
theorem idx4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0
    ∧ win4_3.index t (0 : Fin 2) = 0
    ∧ win4_3.index t (1 : Fin 2) = 0
    ∧ win4_4.index t (0 : Fin 2) = t.val
    ∧ win4_4.index t (1 : Fin 2) = 0
    ∧ win4_5.index t (0 : Fin 2) = 0
    ∧ win4_5.index t (1 : Fin 2) = 0
    ∧ win4_6.index t (0 : Fin 1) = 0
    ∧ win4_7.index t (0 : Fin 2) = t.val
    ∧ win4_7.index t (1 : Fin 2) = 0 :=
  (by decide +kernel : ∀ t : Fin grid4.N, _)

/-- Window 0's block at point `t` is rows `5000·t …` of its array. -/
theorem blk4_0 (c : Dev nD) (t : Fin cfg4.N) (u : S5000x128.Idx) (z : (⟨2, ![100000, 128]⟩ : Shape).Idx)
    (h0 : (z 0).val = 5000 * t.val + (u 0).val) (h1 : (z 1).val = (u 1).val) :
    (iblk4 V c 0 t u : EReal) = (V c main_v70 : Mat 100000 128) z := by
  show V c main_v70 (((cfg4.win 0).blk t).view.emb u) = V c main_v70 z
  refine congrArg (V c main_v70) (funext fun a => Fin.ext ?_)
  have e0 := (idx4 t).1
  have e1 := (idx4 t).2.1
  match a with
  | ⟨0, _⟩ => show win4_0.index t (0 : Fin 2) * 5000 + 1 * (u 0).val = (z 0).val; omega
  | ⟨1, _⟩ => show win4_0.index t (1 : Fin 2) * 128 + 1 * (u 1).val = (z 1).val; omega

/-- Window 1's block at every point is its whole array. -/
theorem blk4_1 (c : Dev nD) (t : Fin cfg4.N) (u : S128x128.Idx) :
    (iblk4 V c 1 t u : EReal) = (V c main_v136 : Mat 128 128) u := by
  show V c main_v136 (((cfg4.win 1).blk t).view.emb u) = V c main_v136 u
  refine congrArg (V c main_v136) (funext fun a => Fin.ext ?_)
  have e0 := (idx4 t).2.2.1
  have e1 := (idx4 t).2.2.2.1
  match a with
  | ⟨0, _⟩ => show win4_1.index t (0 : Fin 2) * 128 + 1 * (u 0).val = (u 0).val; omega
  | ⟨1, _⟩ => show win4_1.index t (1 : Fin 2) * 128 + 1 * (u 1).val = (u 1).val; omega

/-- Window 2's block at point `t` is rows `5000·t …` of its array. -/
theorem blk4_2 (c : Dev nD) (t : Fin cfg4.N) (u : S5000x128.Idx) (z : (⟨2, ![100000, 128]⟩ : Shape).Idx)
    (h0 : (z 0).val = 5000 * t.val + (u 0).val) (h1 : (z 1).val = (u 1).val) :
    (iblk4 V c 2 t u : EReal) = (V c main_v95 : Mat 100000 128) z := by
  show V c main_v95 (((cfg4.win 2).blk t).view.emb u) = V c main_v95 z
  refine congrArg (V c main_v95) (funext fun a => Fin.ext ?_)
  have e0 := (idx4 t).2.2.2.2.1
  have e1 := (idx4 t).2.2.2.2.2.1
  match a with
  | ⟨0, _⟩ => show win4_2.index t (0 : Fin 2) * 5000 + 1 * (u 0).val = (z 0).val; omega
  | ⟨1, _⟩ => show win4_2.index t (1 : Fin 2) * 128 + 1 * (u 1).val = (z 1).val; omega

/-- Window 3's block at every point is its whole array. -/
theorem blk4_3 (c : Dev nD) (t : Fin cfg4.N) (u : S128x128.Idx) :
    (iblk4 V c 3 t u : EReal) = (V c main_v143 : Mat 128 128) u := by
  show V c main_v143 (((cfg4.win 3).blk t).view.emb u) = V c main_v143 u
  refine congrArg (V c main_v143) (funext fun a => Fin.ext ?_)
  have e0 := (idx4 t).2.2.2.2.2.2.1
  have e1 := (idx4 t).2.2.2.2.2.2.2.1
  match a with
  | ⟨0, _⟩ => show win4_3.index t (0 : Fin 2) * 128 + 1 * (u 0).val = (u 0).val; omega
  | ⟨1, _⟩ => show win4_3.index t (1 : Fin 2) * 128 + 1 * (u 1).val = (u 1).val; omega

/-- Window 4's block at point `t` is rows `5000·t …` of its array. -/
theorem blk4_4 (c : Dev nD) (t : Fin cfg4.N) (u : S5000x128.Idx) (z : (⟨2, ![100000, 128]⟩ : Shape).Idx)
    (h0 : (z 0).val = 5000 * t.val + (u 0).val) (h1 : (z 1).val = (u 1).val) :
    (iblk4 V c 4 t u : EReal) = (V c main_v131 : Mat 100000 128) z := by
  show V c main_v131 (((cfg4.win 4).blk t).view.emb u) = V c main_v131 z
  refine congrArg (V c main_v131) (funext fun a => Fin.ext ?_)
  have e0 := (idx4 t).2.2.2.2.2.2.2.2.1
  have e1 := (idx4 t).2.2.2.2.2.2.2.2.2.1
  match a with
  | ⟨0, _⟩ => show win4_4.index t (0 : Fin 2) * 5000 + 1 * (u 0).val = (z 0).val; omega
  | ⟨1, _⟩ => show win4_4.index t (1 : Fin 2) * 128 + 1 * (u 1).val = (z 1).val; omega

/-- Window 5's block at every point is its whole array. -/
theorem blk4_5 (c : Dev nD) (t : Fin cfg4.N) (u : S128x128.Idx) :
    (iblk4 V c 5 t u : EReal) = (V c main_v145 : Mat 128 128) u := by
  show V c main_v145 (((cfg4.win 5).blk t).view.emb u) = V c main_v145 u
  refine congrArg (V c main_v145) (funext fun a => Fin.ext ?_)
  have e0 := (idx4 t).2.2.2.2.2.2.2.2.2.2.1
  have e1 := (idx4 t).2.2.2.2.2.2.2.2.2.2.2.1
  match a with
  | ⟨0, _⟩ => show win4_5.index t (0 : Fin 2) * 128 + 1 * (u 0).val = (u 0).val; omega
  | ⟨1, _⟩ => show win4_5.index t (1 : Fin 2) * 128 + 1 * (u 1).val = (u 1).val; omega

/-- Window 6's block at every point is its whole array. -/
theorem blk4_6 (c : Dev nD) (t : Fin cfg4.N) (u : S128.Idx) :
    (iblk4 V c 6 t u : EReal) = (V c main_v141 : Row 128) u := by
  show V c main_v141 (((cfg4.win 6).blk t).view.emb u) = V c main_v141 u
  refine congrArg (V c main_v141) (funext fun a => Fin.ext ?_)
  have e0 := (idx4 t).2.2.2.2.2.2.2.2.2.2.2.2.1
  match a with
  | ⟨0, _⟩ => show win4_6.index t (0 : Fin 1) * 128 + 1 * (u 0).val = (u 0).val; omega

/-- What point `t` writes back is block `t` of the layer's formula. -/
theorem flushed (c : Dev nD) (t : Fin cfg4.N) :
    (dat4 (F := Ideal) V c).flushed 7 t = ((cfg4.win 7).blk t).view.read (Elt Ideal) (G V c) := by
  show (cfg4.win 7).cut (grid4.coords t) ((dat4 (F := Ideal) V c).after 7 t) = _
  rw [after4_7]
  unfold out4_7
  rw [View.canon_unit_zero off2_zero]
  simp only [View.ld_unit_zero (S := S5000x128) off2_zero, View.ld_unit_zero (S := S128x128) off2_zero, View.ld_unit_zero (S := S128) hz1]
  funext y
  have eo0 := (idx4 t).2.2.2.2.2.2.2.2.2.2.2.2.2.1
  have eo1 := (idx4 t).2.2.2.2.2.2.2.2.2.2.2.2.2.2
  exact pay4_blk (iblk4 V c 0 t) (iblk4 V c 1 t) (iblk4 V c 2 t) (iblk4 V c 3 t) (iblk4 V c 4 t) (iblk4 V c 5 t) (iblk4 V c 6 t)
    (V c main_v70 : Mat 100000 128) (V c main_v136 : Mat 128 128) (V c main_v95 : Mat 100000 128) (V c main_v143 : Mat 128 128) (V c main_v131 : Mat 100000 128) (V c main_v145 : Mat 128 128) (V c main_v141 : Row 128)
    (5000 * t.val) y (((cfg4.win 7).blk t).view.emb y)
    (by show win4_7.index t (0 : Fin 2) * 5000 + 1 * (y 0).val = 5000 * t.val + (y 0).val; omega)
    (by show win4_7.index t (1 : Fin 2) * 128 + 1 * (y 1).val = (y 1).val; omega)
    (fun u z h0 h1 => blk4_0 V c t u z h0 h1)
    (fun u => blk4_1 V c t u)
    (fun u z h0 h1 => blk4_2 V c t u z h0 h1)
    (fun u => blk4_3 V c t u)
    (fun u z h0 h1 => blk4_4 V c t u z h0 h1)
    (fun u => blk4_5 V c t u)
    (fun u => blk4_6 V c t u)

/-- Every row of the result array lies in some point's block. -/
theorem cover (i : S100000x128.Idx) :
    ∃ t : Fin cfg4.N, (cfg4.win 7).flush t = true ∧ i ∈ ((cfg4.win 7).blk t).view.set := by
  have hi0 : (i 0).val < 100000 := (i 0).isLt
  have hi1 : (i 1).val < 128 := (i 1).isLt
  have hN : grid4.N = 20 := N_4
  let t : Fin cfg4.N := ⟨(i 0).val / 5000, by show (i 0).val / 5000 < grid4.N; omega⟩
  have ht : t.val = (i 0).val / 5000 := rfl
  have eo0 := (idx4 t).2.2.2.2.2.2.2.2.2.2.2.2.2.1
  have eo1 := (idx4 t).2.2.2.2.2.2.2.2.2.2.2.2.2.2
  refine ⟨t, flush4_7 t, ?_⟩
  show i ∈ ((View.whole main_v146).slice (win4_7.rect t)).set
  rw [View.set_slice_whole, Rect.mem_set_unit]
  intro a
  match a with
  | ⟨0, _⟩ => show win4_7.index t (0 : Fin 2) * 5000 ≤ (i 0).val ∧ (i 0).val < win4_7.index t (0 : Fin 2) * 5000 + 5000; omega
  | ⟨1, _⟩ => show win4_7.index t (1 : Fin 2) * 128 ≤ (i 1).val ∧ (i 1).val < win4_7.index t (1 : Fin 2) * 128 + 128; omega

/-- The result array when the launch ends. -/
theorem final (c : Dev nD) : (dat4 (F := Ideal) V c).arrAt 7 cfg4.N = G V c :=
  (dat4 (F := Ideal) V c).arrAt_eq_of_cover 7 (G V c) (fun t _ => flushed V c t) (cover)

end Cert.KernelIdeal.Reg4

end
-- ==== Proof.KReg5.lean ====
/-
  Launch 5 of the idealized kernel: what its result array holds when the launch ends, as one function of the arrays the
  launch finds.

  The grid has twenty points; point `t` reads rows `5000·t … 5000·t + 4999` of each feature array and the whole of each
  weight matrix and of the bias row, and writes back rows `5000·t …` of the result.  What it writes is the layer's formula
  of those rows (the payload read at an index), and the twenty row blocks tile the result array: so the array ends as the
  layer's formula of the whole arrays.
-/
import proofs.«164584_j12077448036842_1_alg».proof.Proof.Gen.KernelIdeal.Frame
import proofs.«164584_j12077448036842_1_alg».proof.Proof.KPay

set_option maxRecDepth 16384

noncomputable section

namespace Cert.KernelIdeal.Reg5

open Cert.KernelIdeal Cert.KernelIdeal.Gen Cert.Sage Cert.KernelIdeal.RegionValue Cert.KernelIdeal.Pay
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The offset `(0)` of a whole-buffer access of a vector is the zero function. -/
theorem hz1 : (![0] : Fin 1 → Nat) = fun _ => 0 := funext fun a => by fin_cases a; rfl

/-- The layer's formula of the arrays as the launch finds them. -/
def G (c : Dev nD) : Mat 100000 128 := l2n (relu (kform2 (V c main_v77 : Mat 100000 128) (V c main_v148 : Mat 128 128) (V c main_v113 : Mat 100000 128) (V c main_v150 : Mat 128 128) (V c main_v152 : Row 128)))

/-- The printed index maps, decided over the twenty points: a feature window and the result window move one block of rows
    per point; a weight or bias window stays. -/
theorem idx5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0
    ∧ win5_3.index t (0 : Fin 2) = 0
    ∧ win5_3.index t (1 : Fin 2) = 0
    ∧ win5_4.index t (0 : Fin 1) = 0
    ∧ win5_5.index t (0 : Fin 2) = t.val
    ∧ win5_5.index t (1 : Fin 2) = 0 :=
  (by decide +kernel : ∀ t : Fin grid5.N, _)

/-- Window 0's block at point `t` is rows `5000·t …` of its array. -/
theorem blk5_0 (c : Dev nD) (t : Fin cfg5.N) (u : S5000x128.Idx) (z : (⟨2, ![100000, 128]⟩ : Shape).Idx)
    (h0 : (z 0).val = 5000 * t.val + (u 0).val) (h1 : (z 1).val = (u 1).val) :
    (iblk5 V c 0 t u : EReal) = (V c main_v77 : Mat 100000 128) z := by
  show V c main_v77 (((cfg5.win 0).blk t).view.emb u) = V c main_v77 z
  refine congrArg (V c main_v77) (funext fun a => Fin.ext ?_)
  have e0 := (idx5 t).1
  have e1 := (idx5 t).2.1
  match a with
  | ⟨0, _⟩ => show win5_0.index t (0 : Fin 2) * 5000 + 1 * (u 0).val = (z 0).val; omega
  | ⟨1, _⟩ => show win5_0.index t (1 : Fin 2) * 128 + 1 * (u 1).val = (z 1).val; omega

/-- Window 1's block at every point is its whole array. -/
theorem blk5_1 (c : Dev nD) (t : Fin cfg5.N) (u : S128x128.Idx) :
    (iblk5 V c 1 t u : EReal) = (V c main_v148 : Mat 128 128) u := by
  show V c main_v148 (((cfg5.win 1).blk t).view.emb u) = V c main_v148 u
  refine congrArg (V c main_v148) (funext fun a => Fin.ext ?_)
  have e0 := (idx5 t).2.2.1
  have e1 := (idx5 t).2.2.2.1
  match a with
  | ⟨0, _⟩ => show win5_1.index t (0 : Fin 2) * 128 + 1 * (u 0).val = (u 0).val; omega
  | ⟨1, _⟩ => show win5_1.index t (1 : Fin 2) * 128 + 1 * (u 1).val = (u 1).val; omega

/-- Window 2's block at point `t` is rows `5000·t …` of its array. -/
theorem blk5_2 (c : Dev nD) (t : Fin cfg5.N) (u : S5000x128.Idx) (z : (⟨2, ![100000, 128]⟩ : Shape).Idx)
    (h0 : (z 0).val = 5000 * t.val + (u 0).val) (h1 : (z 1).val = (u 1).val) :
    (iblk5 V c 2 t u : EReal) = (V c main_v113 : Mat 100000 128) z := by
  show V c main_v113 (((cfg5.win 2).blk t).view.emb u) = V c main_v113 z
  refine congrArg (V c main_v113) (funext fun a => Fin.ext ?_)
  have e0 := (idx5 t).2.2.2.2.1
  have e1 := (idx5 t).2.2.2.2.2.1
  match a with
  | ⟨0, _⟩ => show win5_2.index t (0 : Fin 2) * 5000 + 1 * (u 0).val = (z 0).val; omega
  | ⟨1, _⟩ => show win5_2.index t (1 : Fin 2) * 128 + 1 * (u 1).val = (z 1).val; omega

/-- Window 3's block at every point is its whole array. -/
theorem blk5_3 (c : Dev nD) (t : Fin cfg5.N) (u : S128x128.Idx) :
    (iblk5 V c 3 t u : EReal) = (V c main_v150 : Mat 128 128) u := by
  show V c main_v150 (((cfg5.win 3).blk t).view.emb u) = V c main_v150 u
  refine congrArg (V c main_v150) (funext fun a => Fin.ext ?_)
  have e0 := (idx5 t).2.2.2.2.2.2.1
  have e1 := (idx5 t).2.2.2.2.2.2.2.1
  match a with
  | ⟨0, _⟩ => show win5_3.index t (0 : Fin 2) * 128 + 1 * (u 0).val = (u 0).val; omega
  | ⟨1, _⟩ => show win5_3.index t (1 : Fin 2) * 128 + 1 * (u 1).val = (u 1).val; omega

/-- Window 4's block at every point is its whole array. -/
theorem blk5_4 (c : Dev nD) (t : Fin cfg5.N) (u : S128.Idx) :
    (iblk5 V c 4 t u : EReal) = (V c main_v152 : Row 128) u := by
  show V c main_v152 (((cfg5.win 4).blk t).view.emb u) = V c main_v152 u
  refine congrArg (V c main_v152) (funext fun a => Fin.ext ?_)
  have e0 := (idx5 t).2.2.2.2.2.2.2.2.1
  match a with
  | ⟨0, _⟩ => show win5_4.index t (0 : Fin 1) * 128 + 1 * (u 0).val = (u 0).val; omega

/-- What point `t` writes back is block `t` of the layer's formula. -/
theorem flushed (c : Dev nD) (t : Fin cfg5.N) :
    (dat5 (F := Ideal) V c).flushed 5 t = ((cfg5.win 5).blk t).view.read (Elt Ideal) (G V c) := by
  show (cfg5.win 5).cut (grid5.coords t) ((dat5 (F := Ideal) V c).after 5 t) = _
  rw [after5_5]
  unfold out5_5
  rw [View.canon_unit_zero off2_zero]
  simp only [View.ld_unit_zero (S := S5000x128) off2_zero, View.ld_unit_zero (S := S128x128) off2_zero, View.ld_unit_zero (S := S128) hz1]
  funext y
  have eo0 := (idx5 t).2.2.2.2.2.2.2.2.2.1
  have eo1 := (idx5 t).2.2.2.2.2.2.2.2.2.2
  exact pay5_blk (iblk5 V c 0 t) (iblk5 V c 1 t) (iblk5 V c 2 t) (iblk5 V c 3 t) (iblk5 V c 4 t)
    (V c main_v77 : Mat 100000 128) (V c main_v148 : Mat 128 128) (V c main_v113 : Mat 100000 128) (V c main_v150 : Mat 128 128) (V c main_v152 : Row 128)
    (5000 * t.val) y (((cfg5.win 5).blk t).view.emb y)
    (by show win5_5.index t (0 : Fin 2) * 5000 + 1 * (y 0).val = 5000 * t.val + (y 0).val; omega)
    (by show win5_5.index t (1 : Fin 2) * 128 + 1 * (y 1).val = (y 1).val; omega)
    (fun u z h0 h1 => blk5_0 V c t u z h0 h1)
    (fun u => blk5_1 V c t u)
    (fun u z h0 h1 => blk5_2 V c t u z h0 h1)
    (fun u => blk5_3 V c t u)
    (fun u => blk5_4 V c t u)

/-- Every row of the result array lies in some point's block. -/
theorem cover (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : grid5.N = 20 := N_5
  let t : Fin cfg5.N := ⟨(i 0).val / 5000, by show (i 0).val / 5000 < grid5.N; omega⟩
  have ht : t.val = (i 0).val / 5000 := rfl
  have eo0 := (idx5 t).2.2.2.2.2.2.2.2.2.1
  have eo1 := (idx5 t).2.2.2.2.2.2.2.2.2.2
  refine ⟨t, flush5_5 t, ?_⟩
  show i ∈ ((View.whole main_v153).slice (win5_5.rect t)).set
  rw [View.set_slice_whole, Rect.mem_set_unit]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

/-- The result array when the launch ends. -/
theorem final (c : Dev nD) : (dat5 (F := Ideal) V c).arrAt 5 cfg5.N = G V c :=
  (dat5 (F := Ideal) V c).arrAt_eq_of_cover 5 (G V c) (fun t _ => flushed V c t) (cover)

end Cert.KernelIdeal.Reg5

end
-- ==== Proof.KKeep.lean ====
/-
  What a stretch of host operations leaves alone.

  Each of the four stretches between the launches writes only its own result buffers (listed here in program order); the
  contents of any other buffer after the stretch are its contents before it.
-/
import proofs.«164584_j12077448036842_1_alg».proof.Proof.Gen.KernelIdeal.Launch
import Idealize.ShloMosaic.Lib.StableHlo.Run

set_option maxRecDepth 16384

noncomputable section

namespace Cert.KernelIdeal.Keep

open Cert.KernelIdeal Cert.KernelIdeal.Gen Idealize.ShloMosaic Idealize.ShloMosaic.TcCoe Idealize.SL.Sem

variable {F : FTy → Type} [FloatOps F]

/-- The buffers stretch 2 writes. -/
def written2 : List (Ref sig .tc) :=
  [main_c, main_v2, main_v3, main_c_0, main_v4, main_v5, main_v6, main_v7, main_v8, main_cst, main_v9, main_v10, main_v11, main_cst_1, main_v12, main_cst_2, main_v13, main_v14, main_v15, main_cst_3, main_v16, main_v17, main_v18, main_v19, main_c_4, main_v20, main_v21, main_c_5, main_v22, main_v23, main_v24, main_v25, main_v26, main_cst_6, main_v27, main_v28, main_v29, main_cst_7, main_v30, main_cst_8, main_v31, main_v32, main_v33, main_cst_9, main_v34, main_v35, main_v36, main_v37, main_c_10, main_v38, main_v39, main_c_11, main_v40, main_v41, main_v42, main_v43, main_v44, main_cst_12, main_v45, main_v46, main_v47, main_cst_13, main_v48, main_cst_14, main_v49, main_v50, main_v51, main_cst_15, main_v52, main_v53, main_v54, main_v55, main_v56, main_v57, main_v58, main_v59, main_v60, main_v61, main_v62, main_v63, main_v64, main_v65, main_v66, main_v67, main_v68, main_v69]

/-- A buffer stretch 2 does not write holds after it what it held before. -/
theorem keep2 (V : Valuation τ sig (Elt F)) (b : Ref sig .tc) (hb : b ∉ written2) :
    StableHlo.after (hostOps2 (F := F)) V (Proc.devRef .tc b) = V (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => hb (by subst e; decide))))

/-- The buffers stretch 3 writes. -/
def written3 : List (Ref sig .tc) :=
  [main_v71, main_v72, main_v73, main_v74, main_v75, main_v76]

/-- A buffer stretch 3 does not write holds after it what it held before. -/
theorem keep3 (V : Valuation τ sig (Elt F)) (b : Ref sig .tc) (hb : b ∉ written3) :
    StableHlo.after (hostOps3 (F := F)) V (Proc.devRef .tc b) = V (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => hb (by subst e; decide))))

/-- The buffers stretch 4 writes. -/
def written4 : List (Ref sig .tc) :=
  [main_c_16, main_v78, main_v79, main_c_17, main_v80, main_v81, main_v82, main_v83, main_v84, main_cst_18, main_v85, main_v86, main_v87, main_cst_19, main_v88, main_cst_20, main_v89, main_v90, main_v91, main_cst_21, main_v92, main_v93, main_v94, main_v95, main_c_22, main_v96, main_v97, main_c_23, main_v98, main_v99, main_v100, main_v101, main_v102, main_cst_24, main_v103, main_v104, main_v105, main_cst_25, main_v106, main_cst_26, main_v107, main_v108, main_v109, main_cst_27, main_v110, main_v111, main_v112, main_v113, main_c_28, main_v114, main_v115, main_c_29, main_v116, main_v117, main_v118, main_v119, main_v120, main_cst_30, main_v121, main_v122, main_v123, main_cst_31, main_v124, main_cst_32, main_v125, main_v126, main_v127, main_cst_33, main_v128, main_v129, main_v130, main_v131, main_v132, main_v133, main_v134, main_v135, main_v136, main_v137, main_v138, main_v139, main_v140, main_v141, main_v142, main_v143, main_v144, main_v145]

/-- A buffer stretch 4 does not write holds after it what it held before. -/
theorem keep4 (V : Valuation τ sig (Elt F)) (b : Ref sig .tc) (hb : b ∉ written4) :
    StableHlo.after (hostOps4 (F := F)) V (Proc.devRef .tc b) = V (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => hb (by subst e; decide))))

/-- The buffers stretch 5 writes. -/
def written5 : List (Ref sig .tc) :=
  [main_v147, main_v148, main_v149, main_v150, main_v151, main_v152]

/-- A buffer stretch 5 does not write holds after it what it held before. -/
theorem keep5 (V : Valuation τ sig (Elt F)) (b : Ref sig .tc) (hb : b ∉ written5) :
    StableHlo.after (hostOps5 (F := F)) V (Proc.devRef .tc b) = V (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => hb (by subst e; decide))))

end Cert.KernelIdeal.Keep

end
-- ==== Proof.KTerms.lean ====
/-
  Names for the host operations the two programs share, over the kernel program's printed shapes: the mean
  aggregation along an edge list as one function of the feature rows and the two index lists, and the eighteen slices of
  the stacked weight and bias arrays.  Nothing here is computed; the definitions only name the printed terms.
-/
import proofs.«164584_j12077448036842_1_alg».proof.KernelIdeal

noncomputable section

namespace Cert.KernelIdeal.Terms

open Cert.KernelIdeal Idealize.ShloMosaic

variable {F : FTy → Type} [FloatOps F] [Facts₀]
open Facts₀

/-- The mean of the rows of `h` gathered along an edge list, per destination row: source indices below zero are wrapped by
    the row count, the gathered rows are summed into their destination rows from zero, and each sum is divided by the larger
    of the destination's edge count and one. -/
def meanAgg (h : (⟨S100000x128, .f32⟩ : BufTy).Contents (Elt F)) (src dst : (⟨S600000, .i32⟩ : BufTy).Contents (Elt F)) :
    (⟨S100000x128, .f32⟩ : BufTy).Contents (Elt F) :=
  Host.divf
    (Host.scatterAdd scatter_S100000x128_S600000x1_S600000x128_1_0_0_1
      (broadcastInDim S100000x128 ![] bcast_S_S100000x128 (constant S_ .f32 0x00000000#32))
      (broadcastInDim S600000x1 ![0] bcast_S600000_S600000x1_0 dst)
      (Host.gather gather_S100000x128_S600000x1_S600000x128_1_0_n_n_0_1_1128 h
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 100000#32))) src))))
    (broadcastInDim S100000x128 ![0, 1] bcast_S100000x1_S100000x128_0_1
      (maximumf
        (Host.scatterAdd scatter_S100000x1_S600000x1_S600000x1_1_0_0_1
          (broadcastInDim S100000x1 ![] bcast_S_S100000x1 (constant S_ .f32 0x00000000#32))
          (broadcastInDim S600000x1 ![0] bcast_S600000_S600000x1_0 dst)
          (broadcastInDim S600000x1 ![] bcast_S_S600000x1 (constant S_ .f32 0x3F800000#32)))
        (broadcastInDim S100000x1 ![] bcast_S_S100000x1 (constant S_ .f32 0x3F800000#32))))

/-- The `128 × 128` matrix at layer 0, relation 0 of a `[2, 3, 128, 128]` weight array. -/
def mat00 (x : (⟨S2x3x128x128, .f32⟩ : BufTy).Contents (Elt F)) : (⟨S128x128, .f32⟩ : BufTy).Contents (Elt F) :=
  shapeCast _ (extractStridedSlice S1x1x128x128 ![0, 0, 0, 0] x slices_S2x3x128x128_S1x1x128x128_0_0_0_0) shapeCasts_S1x1x128x128_S128x128
/-- The bias row at layer 0, relation 0 of a `[2, 3, 128]` bias array. -/
def row00 (x : (⟨S2x3x128, .f32⟩ : BufTy).Contents (Elt F)) : (⟨S128, .f32⟩ : BufTy).Contents (Elt F) :=
  shapeCast _ (extractStridedSlice S1x1x128 ![0, 0, 0] x slices_S2x3x128_S1x1x128_0_0_0) shapeCasts_S1x1x128_S128

/-- The `128 × 128` matrix at layer 0, relation 1 of a `[2, 3, 128, 128]` weight array. -/
def mat01 (x : (⟨S2x3x128x128, .f32⟩ : BufTy).Contents (Elt F)) : (⟨S128x128, .f32⟩ : BufTy).Contents (Elt F) :=
  shapeCast _ (extractStridedSlice S1x1x128x128 ![0, 1, 0, 0] x slices_S2x3x128x128_S1x1x128x128_0_1_0_0) shapeCasts_S1x1x128x128_S128x128
/-- The bias row at layer 0, relation 1 of a `[2, 3, 128]` bias array. -/
def row01 (x : (⟨S2x3x128, .f32⟩ : BufTy).Contents (Elt F)) : (⟨S128, .f32⟩ : BufTy).Contents (Elt F) :=
  shapeCast _ (extractStridedSlice S1x1x128 ![0, 1, 0] x slices_S2x3x128_S1x1x128_0_1_0) shapeCasts_S1x1x128_S128

/-- The `128 × 128` matrix at layer 0, relation 2 of a `[2, 3, 128, 128]` weight array. -/
def mat02 (x : (⟨S2x3x128x128, .f32⟩ : BufTy).Contents (Elt F)) : (⟨S128x128, .f32⟩ : BufTy).Contents (Elt F) :=
  shapeCast _ (extractStridedSlice S1x1x128x128 ![0, 2, 0, 0] x slices_S2x3x128x128_S1x1x128x128_0_2_0_0) shapeCasts_S1x1x128x128_S128x128
/-- The bias row at layer 0, relation 2 of a `[2, 3, 128]` bias array. -/
def row02 (x : (⟨S2x3x128, .f32⟩ : BufTy).Contents (Elt F)) : (⟨S128, .f32⟩ : BufTy).Contents (Elt F) :=
  shapeCast _ (extractStridedSlice S1x1x128 ![0, 2, 0] x slices_S2x3x128_S1x1x128_0_2_0) shapeCasts_S1x1x128_S128

/-- The `128 × 128` matrix at layer 1, relation 0 of a `[2, 3, 128, 128]` weight array. -/
def mat10 (x : (⟨S2x3x128x128, .f32⟩ : BufTy).Contents (Elt F)) : (⟨S128x128, .f32⟩ : BufTy).Contents (Elt F) :=
  shapeCast _ (extractStridedSlice S1x1x128x128 ![1, 0, 0, 0] x slices_S2x3x128x128_S1x1x128x128_1_0_0_0) shapeCasts_S1x1x128x128_S128x128
/-- The bias row at layer 1, relation 0 of a `[2, 3, 128]` bias array. -/
def row10 (x : (⟨S2x3x128, .f32⟩ : BufTy).Contents (Elt F)) : (⟨S128, .f32⟩ : BufTy).Contents (Elt F) :=
  shapeCast _ (extractStridedSlice S1x1x128 ![1, 0, 0] x slices_S2x3x128_S1x1x128_1_0_0) shapeCasts_S1x1x128_S128

/-- The `128 × 128` matrix at layer 1, relation 1 of a `[2, 3, 128, 128]` weight array. -/
def mat11 (x : (⟨S2x3x128x128, .f32⟩ : BufTy).Contents (Elt F)) : (⟨S128x128, .f32⟩ : BufTy).Contents (Elt F) :=
  shapeCast _ (extractStridedSlice S1x1x128x128 ![1, 1, 0, 0] x slices_S2x3x128x128_S1x1x128x128_1_1_0_0) shapeCasts_S1x1x128x128_S128x128
/-- The bias row at layer 1, relation 1 of a `[2, 3, 128]` bias array. -/
def row11 (x : (⟨S2x3x128, .f32⟩ : BufTy).Contents (Elt F)) : (⟨S128, .f32⟩ : BufTy).Contents (Elt F) :=
  shapeCast _ (extractStridedSlice S1x1x128 ![1, 1, 0] x slices_S2x3x128_S1x1x128_1_1_0) shapeCasts_S1x1x128_S128

/-- The `128 × 128` matrix at layer 1, relation 2 of a `[2, 3, 128, 128]` weight array. -/
def mat12 (x : (⟨S2x3x128x128, .f32⟩ : BufTy).Contents (Elt F)) : (⟨S128x128, .f32⟩ : BufTy).Contents (Elt F) :=
  shapeCast _ (extractStridedSlice S1x1x128x128 ![1, 2, 0, 0] x slices_S2x3x128x128_S1x1x128x128_1_2_0_0) shapeCasts_S1x1x128x128_S128x128
/-- The bias row at layer 1, relation 2 of a `[2, 3, 128]` bias array. -/
def row12 (x : (⟨S2x3x128, .f32⟩ : BufTy).Contents (Elt F)) : (⟨S128, .f32⟩ : BufTy).Contents (Elt F) :=
  shapeCast _ (extractStridedSlice S1x1x128 ![1, 2, 0] x slices_S2x3x128_S1x1x128_1_2_0) shapeCasts_S1x1x128_S128

end Cert.KernelIdeal.Terms

end
-- ==== Proof.KHost2.lean ====
/-
  Stretch 2 of the idealized kernel's host operations, read at the buffers the next launch takes: the three mean aggregations of the projected features, the summed self-weight and bias of the first node type, and two neighbour weights.
  Each result is the named chain of operations applied to the contents before the stretch.
-/
import proofs.«164584_j12077448036842_1_alg».proof.Proof.Gen.KernelIdeal.Launch
import Idealize.ShloMosaic.Lib.StableHlo.Run
import proofs.«164584_j12077448036842_1_alg».proof.Proof.KTerms

set_option maxRecDepth 16384

noncomputable section

namespace Cert.KernelIdeal.Host2

open Cert.KernelIdeal Cert.KernelIdeal.Gen Cert.KernelIdeal.Terms Idealize.ShloMosaic Idealize.ShloMosaic.TcCoe Idealize.SL.Sem
open Idealize.ShloMosaic.StableHlo

variable {F : FTy → Type} [FloatOps F] (V : Valuation τ sig (Elt F))

theorem v19 : StableHlo.after (hostOps2 (F := F)) V (Proc.devRef .tc main_v19) = meanAgg (V (Proc.devRef .tc main_v0)) (V (Proc.devRef .tc main_arg9)) (V (Proc.devRef .tc main_arg10)) := by
  unfold meanAgg
  after_results_simp <;> rfl

theorem v37 : StableHlo.after (hostOps2 (F := F)) V (Proc.devRef .tc main_v37) = meanAgg (V (Proc.devRef .tc main_v0)) (V (Proc.devRef .tc main_arg11)) (V (Proc.devRef .tc main_arg12)) := by
  unfold meanAgg
  after_results_simp <;> rfl

theorem v55 : StableHlo.after (hostOps2 (F := F)) V (Proc.devRef .tc main_v55) = meanAgg (V (Proc.devRef .tc main_v1)) (V (Proc.devRef .tc main_arg13)) (V (Proc.devRef .tc main_arg14)) := by
  unfold meanAgg
  after_results_simp <;> rfl

theorem v60 : StableHlo.after (hostOps2 (F := F)) V (Proc.devRef .tc main_v60) = addf (mat00 (V (Proc.devRef .tc main_arg6))) (mat02 (V (Proc.devRef .tc main_arg6))) := by
  unfold mat00 mat02
  after_results_simp <;> rfl

theorem v65 : StableHlo.after (hostOps2 (F := F)) V (Proc.devRef .tc main_v65) = addf (row00 (V (Proc.devRef .tc main_arg8))) (row02 (V (Proc.devRef .tc main_arg8))) := by
  unfold row00 row02
  after_results_simp <;> rfl

theorem v67 : StableHlo.after (hostOps2 (F := F)) V (Proc.devRef .tc main_v67) = mat00 (V (Proc.devRef .tc main_arg7)) := by
  unfold mat00
  after_results_simp <;> rfl

theorem v69 : StableHlo.after (hostOps2 (F := F)) V (Proc.devRef .tc main_v69) = mat02 (V (Proc.devRef .tc main_arg7)) := by
  unfold mat02
  after_results_simp <;> rfl

end Cert.KernelIdeal.Host2

end
-- ==== Proof.KHost3.lean ====
/-
  Stretch 3 of the idealized kernel's host operations, read at the buffers the next launch takes: the second node type's two weights and its bias row.
  Each result is the named chain of operations applied to the contents before the stretch.
-/
import proofs.«164584_j12077448036842_1_alg».proof.Proof.Gen.KernelIdeal.Launch
import Idealize.ShloMosaic.Lib.StableHlo.Run
import proofs.«164584_j12077448036842_1_alg».proof.Proof.KTerms

set_option maxRecDepth 16384

noncomputable section

namespace Cert.KernelIdeal.Host3

open Cert.KernelIdeal Cert.KernelIdeal.Gen Cert.KernelIdeal.Terms Idealize.ShloMosaic Idealize.ShloMosaic.TcCoe Idealize.SL.Sem
open Idealize.ShloMosaic.StableHlo

variable {F : FTy → Type} [FloatOps F] (V : Valuation τ sig (Elt F))

theorem v72 : StableHlo.after (hostOps3 (F := F)) V (Proc.devRef .tc main_v72) = mat01 (V (Proc.devRef .tc main_arg6)) := by
  unfold mat01
  after_results_simp <;> rfl

theorem v74 : StableHlo.after (hostOps3 (F := F)) V (Proc.devRef .tc main_v74) = mat01 (V (Proc.devRef .tc main_arg7)) := by
  unfold mat01
  after_results_simp <;> rfl

theorem v76 : StableHlo.after (hostOps3 (F := F)) V (Proc.devRef .tc main_v76) = row01 (V (Proc.devRef .tc main_arg8)) := by
  unfold row01
  after_results_simp <;> rfl

end Cert.KernelIdeal.Host3

end
-- ==== Proof.KHost4.lean ====
/-
  Stretch 4 of the idealized kernel's host operations, read at the buffers the next launch takes: the three mean aggregations of the first layer's features, and the second layer's weights and bias of the first node type.
  Each result is the named chain of operations applied to the contents before the stretch.
-/
import proofs.«164584_j12077448036842_1_alg».proof.Proof.Gen.KernelIdeal.Launch
import Idealize.ShloMosaic.Lib.StableHlo.Run
import proofs.«164584_j12077448036842_1_alg».proof.Proof.KTerms

set_option maxRecDepth 16384

noncomputable section

namespace Cert.KernelIdeal.Host4

open Cert.KernelIdeal Cert.KernelIdeal.Gen Cert.KernelIdeal.Terms Idealize.ShloMosaic Idealize.ShloMosaic.TcCoe Idealize.SL.Sem
open Idealize.ShloMosaic.StableHlo

variable {F : FTy → Type} [FloatOps F] (V : Valuation τ sig (Elt F))

theorem v95 : StableHlo.after (hostOps4 (F := F)) V (Proc.devRef .tc main_v95) = meanAgg (V (Proc.devRef .tc main_v70)) (V (Proc.devRef .tc main_arg9)) (V (Proc.devRef .tc main_arg10)) := by
  unfold meanAgg
  after_results_simp <;> rfl

theorem v113 : StableHlo.after (hostOps4 (F := F)) V (Proc.devRef .tc main_v113) = meanAgg (V (Proc.devRef .tc main_v70)) (V (Proc.devRef .tc main_arg11)) (V (Proc.devRef .tc main_arg12)) := by
  unfold meanAgg
  after_results_simp <;> rfl

theorem v131 : StableHlo.after (hostOps4 (F := F)) V (Proc.devRef .tc main_v131) = meanAgg (V (Proc.devRef .tc main_v77)) (V (Proc.devRef .tc main_arg13)) (V (Proc.devRef .tc main_arg14)) := by
  unfold meanAgg
  after_results_simp <;> rfl

theorem v136 : StableHlo.after (hostOps4 (F := F)) V (Proc.devRef .tc main_v136) = addf (mat10 (V (Proc.devRef .tc main_arg6))) (mat12 (V (Proc.devRef .tc main_arg6))) := by
  unfold mat10 mat12
  after_results_simp <;> rfl

theorem v141 : StableHlo.after (hostOps4 (F := F)) V (Proc.devRef .tc main_v141) = addf (row10 (V (Proc.devRef .tc main_arg8))) (row12 (V (Proc.devRef .tc main_arg8))) := by
  unfold row10 row12
  after_results_simp <;> rfl

theorem v143 : StableHlo.after (hostOps4 (F := F)) V (Proc.devRef .tc main_v143) = mat10 (V (Proc.devRef .tc main_arg7)) := by
  unfold mat10
  after_results_simp <;> rfl

theorem v145 : StableHlo.after (hostOps4 (F := F)) V (Proc.devRef .tc main_v145) = mat12 (V (Proc.devRef .tc main_arg7)) := by
  unfold mat12
  after_results_simp <;> rfl

end Cert.KernelIdeal.Host4

end
-- ==== Proof.KHost5.lean ====
/-
  Stretch 5 of the idealized kernel's host operations, read at the buffers the next launch takes: the second node type's second-layer weights and bias row.
  Each result is the named chain of operations applied to the contents before the stretch.
-/
import proofs.«164584_j12077448036842_1_alg».proof.Proof.Gen.KernelIdeal.Launch
import Idealize.ShloMosaic.Lib.StableHlo.Run
import proofs.«164584_j12077448036842_1_alg».proof.Proof.KTerms

set_option maxRecDepth 16384

noncomputable section

namespace Cert.KernelIdeal.Host5

open Cert.KernelIdeal Cert.KernelIdeal.Gen Cert.KernelIdeal.Terms Idealize.ShloMosaic Idealize.ShloMosaic.TcCoe Idealize.SL.Sem
open Idealize.ShloMosaic.StableHlo

variable {F : FTy → Type} [FloatOps F] (V : Valuation τ sig (Elt F))

theorem v148 : StableHlo.after (hostOps5 (F := F)) V (Proc.devRef .tc main_v148) = mat11 (V (Proc.devRef .tc main_arg6)) := by
  unfold mat11
  after_results_simp <;> rfl

theorem v150 : StableHlo.after (hostOps5 (F := F)) V (Proc.devRef .tc main_v150) = mat11 (V (Proc.devRef .tc main_arg7)) := by
  unfold mat11
  after_results_simp <;> rfl

theorem v152 : StableHlo.after (hostOps5 (F := F)) V (Proc.devRef .tc main_v152) = row11 (V (Proc.devRef .tc main_arg8)) := by
  unfold row11
  after_results_simp <;> rfl

end Cert.KernelIdeal.Host5

end
-- ==== Proof.KForm.lean ====
/-
  The idealized kernel's results as formulas of fifteen argument arrays (no program state): the projections, the two layers in
  the summed-self-weights form, and the division by the row norms, over the named host chains of the kernel program.
-/
import proofs.«164584_j12077448036842_1_alg».proof.Proof.KTerms
import proofs.«164584_j12077448036842_1_alg».proof.Proof.Spec

noncomputable section

namespace Cert.KernelIdeal.Form

open Cert.KernelIdeal Cert.KernelIdeal.Terms Cert.Sage Idealize.ShloMosaic

variable [Facts₀]
variable (a0 : (⟨S100000x256, .f32⟩ : BufTy).Contents (Elt Ideal)) (a1 : (⟨S100000x64, .f32⟩ : BufTy).Contents (Elt Ideal)) (a2 : (⟨S256x128, .f32⟩ : BufTy).Contents (Elt Ideal)) (a3 : (⟨S128, .f32⟩ : BufTy).Contents (Elt Ideal))
  (a4 : (⟨S64x128, .f32⟩ : BufTy).Contents (Elt Ideal)) (a5 : (⟨S128, .f32⟩ : BufTy).Contents (Elt Ideal)) (a6 a7 : (⟨S2x3x128x128, .f32⟩ : BufTy).Contents (Elt Ideal)) (a8 : (⟨S2x3x128, .f32⟩ : BufTy).Contents (Elt Ideal))
  (a9 a10 a11 a12 a13 a14 : (⟨S600000, .i32⟩ : BufTy).Contents (Elt Ideal))

/-- The first node type's projected features. -/
def HU : Mat 100000 128 := relu (lin1 (a0 : Mat 100000 256) (a2 : Mat 256 128) (a3 : Row 128))
/-- The second node type's projected features. -/
def HI : Mat 100000 128 := relu (lin1 (a1 : Mat 100000 64) (a4 : Mat 64 128) (a5 : Row 128))
/-- The first node type after the first layer. -/
def U1 : Mat 100000 128 :=
  relu (kform3 (HU a0 a2 a3) (addf (mat00 a6) (mat02 a6) : Mat 128 128)
    (meanAgg (HU a0 a2 a3) a9 a10 : Mat 100000 128) (mat00 a7 : Mat 128 128)
    (meanAgg (HI a1 a4 a5) a13 a14 : Mat 100000 128) (mat02 a7 : Mat 128 128)
    (addf (row00 a8) (row02 a8) : Row 128))
/-- The second node type after the first layer. -/
def I1 : Mat 100000 128 :=
  relu (kform2 (HI a1 a4 a5) (mat01 a6 : Mat 128 128)
    (meanAgg (HU a0 a2 a3) a11 a12 : Mat 100000 128) (mat01 a7 : Mat 128 128) (row01 a8 : Row 128))
/-- The first node type's result. -/
def U2 : Mat 100000 128 :=
  l2n (relu (kform3 (U1 a0 a1 a2 a3 a4 a5 a6 a7 a8 a9 a10 a13 a14) (addf (mat10 a6) (mat12 a6) : Mat 128 128)
    (meanAgg (U1 a0 a1 a2 a3 a4 a5 a6 a7 a8 a9 a10 a13 a14) a9 a10 : Mat 100000 128) (mat10 a7 : Mat 128 128)
    (meanAgg (I1 a0 a1 a2 a3 a4 a5 a6 a7 a8 a11 a12) a13 a14 : Mat 100000 128) (mat12 a7 : Mat 128 128)
    (addf (row10 a8) (row12 a8) : Row 128)))
/-- The second node type's result. -/
def I2 : Mat 100000 128 :=
  l2n (relu (kform2 (I1 a0 a1 a2 a3 a4 a5 a6 a7 a8 a11 a12) (mat11 a6 : Mat 128 128)
    (meanAgg (U1 a0 a1 a2 a3 a4 a5 a6 a7 a8 a9 a10 a13 a14) a11 a12 : Mat 100000 128) (mat11 a7 : Mat 128 128) (row11 a8 : Row 128)))

end Cert.KernelIdeal.Form

end
-- ==== Proof.KChain.lean ====
/-
  The idealized kernel's two results as formulas of its arguments.

  Between the launch of @main and its return the buffer contents pass ten boundaries.  A launch leaves its result array at
  the layer's formula of the arrays it found and every other buffer alone; a stretch of host operations leaves its results
  at the named chains (the mean aggregation along an edge list, a slice of the stacked weights, a sum of two slices) of the
  contents before it and every other buffer alone.  Reading each buffer the next step takes, boundary by boundary:

    HU = relu(x_u·Wp_u + bp_u),  HI = relu(x_i·Wp_i + bp_i)
    U1 = relu( HU·(Ws00 + Ws02) + agg_uu(HU)·Wn00 + agg_iu(HI)·Wn02 + (b00 + b02) ),   I1 = relu( HI·Ws01 + agg_ui(HU)·Wn01 + b01 )
    U2 = normalise(relu( U1·(Ws10 + Ws12) + agg_uu(U1)·Wn10 + agg_iu(I1)·Wn12 + (b10 + b12) )),
    I2 = normalise(relu( I1·Ws11 + agg_ui(U1)·Wn11 + b11 )).
-/
import proofs.«164584_j12077448036842_1_alg».proof.Proof.Gen.KernelIdeal.Frame
import proofs.«164584_j12077448036842_1_alg».proof.Proof.KReg0
import proofs.«164584_j12077448036842_1_alg».proof.Proof.KReg1
import proofs.«164584_j12077448036842_1_alg».proof.Proof.KReg2
import proofs.«164584_j12077448036842_1_alg».proof.Proof.KReg3
import proofs.«164584_j12077448036842_1_alg».proof.Proof.KReg4
import proofs.«164584_j12077448036842_1_alg».proof.Proof.KReg5
import proofs.«164584_j12077448036842_1_alg».proof.Proof.KKeep
import proofs.«164584_j12077448036842_1_alg».proof.Proof.KHost2
import proofs.«164584_j12077448036842_1_alg».proof.Proof.KHost3
import proofs.«164584_j12077448036842_1_alg».proof.Proof.KHost4
import proofs.«164584_j12077448036842_1_alg».proof.Proof.KHost5
import proofs.«164584_j12077448036842_1_alg».proof.Proof.KTerms
import proofs.«164584_j12077448036842_1_alg».proof.Proof.KForm

set_option maxRecDepth 16384

noncomputable section

namespace Cert.KernelIdeal.Chain

open Cert.KernelIdeal Cert.KernelIdeal.Gen Cert.KernelIdeal.Terms Cert.Sage
open Idealize.ShloMosaic Idealize.ShloMosaic.TcCoe Idealize.SL.Sem

variable (m : (ℓ : Loc nD τ sig) → Buf (Elt Ideal) ℓ) (ρ : Dev nD → PrngReg) (c : Dev nD)

/-- The first node type's projected features, of the launch memory's arguments. -/
abbrev HU : Mat 100000 128 := Form.HU (m ((c : Thread nD τ).loc main_arg0)) (m ((c : Thread nD τ).loc main_arg2)) (m ((c : Thread nD τ).loc main_arg3))
/-- The second node type's projected features. -/
abbrev HI : Mat 100000 128 := Form.HI (m ((c : Thread nD τ).loc main_arg1)) (m ((c : Thread nD τ).loc main_arg4)) (m ((c : Thread nD τ).loc main_arg5))
/-- The first node type after the first layer. -/
abbrev U1 : Mat 100000 128 :=
  Form.U1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14))
/-- The second node type after the first layer. -/
abbrev I1 : Mat 100000 128 :=
  Form.I1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12))
/-- The first node type's result. -/
abbrev U2 : Mat 100000 128 :=
  Form.U2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
/-- The second node type's result. -/
abbrev I2 : Mat 100000 128 :=
  Form.I2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

theorem W1_arg1 : W1 m ρ c (Proc.devRef .tc main_arg1) = (m ((c : Thread nD τ).loc main_arg1)) :=
  W1_of_ne m ρ c main_arg1 (by decide)

theorem W1_arg4 : W1 m ρ c (Proc.devRef .tc main_arg4) = (m ((c : Thread nD τ).loc main_arg4)) :=
  W1_of_ne m ρ c main_arg4 (by decide)

theorem W1_arg5 : W1 m ρ c (Proc.devRef .tc main_arg5) = (m ((c : Thread nD τ).loc main_arg5)) :=
  W1_of_ne m ρ c main_arg5 (by decide)

theorem W1_arg6 : W1 m ρ c (Proc.devRef .tc main_arg6) = (m ((c : Thread nD τ).loc main_arg6)) :=
  W1_of_ne m ρ c main_arg6 (by decide)

theorem W1_arg7 : W1 m ρ c (Proc.devRef .tc main_arg7) = (m ((c : Thread nD τ).loc main_arg7)) :=
  W1_of_ne m ρ c main_arg7 (by decide)

theorem W1_arg8 : W1 m ρ c (Proc.devRef .tc main_arg8) = (m ((c : Thread nD τ).loc main_arg8)) :=
  W1_of_ne m ρ c main_arg8 (by decide)

theorem W1_arg9 : W1 m ρ c (Proc.devRef .tc main_arg9) = (m ((c : Thread nD τ).loc main_arg9)) :=
  W1_of_ne m ρ c main_arg9 (by decide)

theorem W1_arg10 : W1 m ρ c (Proc.devRef .tc main_arg10) = (m ((c : Thread nD τ).loc main_arg10)) :=
  W1_of_ne m ρ c main_arg10 (by decide)

theorem W1_arg11 : W1 m ρ c (Proc.devRef .tc main_arg11) = (m ((c : Thread nD τ).loc main_arg11)) :=
  W1_of_ne m ρ c main_arg11 (by decide)

theorem W1_arg12 : W1 m ρ c (Proc.devRef .tc main_arg12) = (m ((c : Thread nD τ).loc main_arg12)) :=
  W1_of_ne m ρ c main_arg12 (by decide)

theorem W1_arg13 : W1 m ρ c (Proc.devRef .tc main_arg13) = (m ((c : Thread nD τ).loc main_arg13)) :=
  W1_of_ne m ρ c main_arg13 (by decide)

theorem W1_arg14 : W1 m ρ c (Proc.devRef .tc main_arg14) = (m ((c : Thread nD τ).loc main_arg14)) :=
  W1_of_ne m ρ c main_arg14 (by decide)

theorem W1_v0 : W1 m ρ c (Proc.devRef .tc main_v0) = HU m c := by
  refine (W1_arr m ρ c 3).trans ((Reg0.final (V0 m ρ) c).trans ?_)
  unfold Reg0.G HU Form.HU
  rfl

theorem W2_arg6 : W2 m ρ c (Proc.devRef .tc main_arg6) = (m ((c : Thread nD τ).loc main_arg6)) :=
  (W2_of_ne m ρ c main_arg6 (by decide)).trans (W1_arg6 m ρ c)

theorem W2_arg7 : W2 m ρ c (Proc.devRef .tc main_arg7) = (m ((c : Thread nD τ).loc main_arg7)) :=
  (W2_of_ne m ρ c main_arg7 (by decide)).trans (W1_arg7 m ρ c)

theorem W2_arg8 : W2 m ρ c (Proc.devRef .tc main_arg8) = (m ((c : Thread nD τ).loc main_arg8)) :=
  (W2_of_ne m ρ c main_arg8 (by decide)).trans (W1_arg8 m ρ c)

theorem W2_arg9 : W2 m ρ c (Proc.devRef .tc main_arg9) = (m ((c : Thread nD τ).loc main_arg9)) :=
  (W2_of_ne m ρ c main_arg9 (by decide)).trans (W1_arg9 m ρ c)

theorem W2_arg10 : W2 m ρ c (Proc.devRef .tc main_arg10) = (m ((c : Thread nD τ).loc main_arg10)) :=
  (W2_of_ne m ρ c main_arg10 (by decide)).trans (W1_arg10 m ρ c)

theorem W2_arg11 : W2 m ρ c (Proc.devRef .tc main_arg11) = (m ((c : Thread nD τ).loc main_arg11)) :=
  (W2_of_ne m ρ c main_arg11 (by decide)).trans (W1_arg11 m ρ c)

theorem W2_arg12 : W2 m ρ c (Proc.devRef .tc main_arg12) = (m ((c : Thread nD τ).loc main_arg12)) :=
  (W2_of_ne m ρ c main_arg12 (by decide)).trans (W1_arg12 m ρ c)

theorem W2_arg13 : W2 m ρ c (Proc.devRef .tc main_arg13) = (m ((c : Thread nD τ).loc main_arg13)) :=
  (W2_of_ne m ρ c main_arg13 (by decide)).trans (W1_arg13 m ρ c)

theorem W2_arg14 : W2 m ρ c (Proc.devRef .tc main_arg14) = (m ((c : Thread nD τ).loc main_arg14)) :=
  (W2_of_ne m ρ c main_arg14 (by decide)).trans (W1_arg14 m ρ c)

theorem W2_v0 : W2 m ρ c (Proc.devRef .tc main_v0) = HU m c :=
  (W2_of_ne m ρ c main_v0 (by decide)).trans (W1_v0 m ρ c)

theorem W2_v1 : W2 m ρ c (Proc.devRef .tc main_v1) = HI m c := by
  refine (W2_arr m ρ c 3).trans ((Reg1.final (V1 m ρ) c).trans ?_)
  unfold Reg1.G HI Form.HI
  dsimp only [V1]
  rw [W1_arg1, W1_arg4, W1_arg5]

theorem W3_v19 : W3 m ρ c (Proc.devRef .tc main_v19) = meanAgg (HU m c) (m ((c : Thread nD τ).loc main_arg9)) (m ((c : Thread nD τ).loc main_arg10)) := by
  refine (Host2.v19 (W2 m ρ c)).trans ?_
  rw [W2_v0, W2_arg9, W2_arg10]

theorem W3_v37 : W3 m ρ c (Proc.devRef .tc main_v37) = meanAgg (HU m c) (m ((c : Thread nD τ).loc main_arg11)) (m ((c : Thread nD τ).loc main_arg12)) := by
  refine (Host2.v37 (W2 m ρ c)).trans ?_
  rw [W2_v0, W2_arg11, W2_arg12]

theorem W3_v55 : W3 m ρ c (Proc.devRef .tc main_v55) = meanAgg (HI m c) (m ((c : Thread nD τ).loc main_arg13)) (m ((c : Thread nD τ).loc main_arg14)) := by
  refine (Host2.v55 (W2 m ρ c)).trans ?_
  rw [W2_v1, W2_arg13, W2_arg14]

theorem W3_v60 : W3 m ρ c (Proc.devRef .tc main_v60) = addf (mat00 (m ((c : Thread nD τ).loc main_arg6))) (mat02 (m ((c : Thread nD τ).loc main_arg6))) := by
  refine (Host2.v60 (W2 m ρ c)).trans ?_
  rw [W2_arg6]

theorem W3_v65 : W3 m ρ c (Proc.devRef .tc main_v65) = addf (row00 (m ((c : Thread nD τ).loc main_arg8))) (row02 (m ((c : Thread nD τ).loc main_arg8))) := by
  refine (Host2.v65 (W2 m ρ c)).trans ?_
  rw [W2_arg8]

theorem W3_v67 : W3 m ρ c (Proc.devRef .tc main_v67) = mat00 (m ((c : Thread nD τ).loc main_arg7)) := by
  refine (Host2.v67 (W2 m ρ c)).trans ?_
  rw [W2_arg7]

theorem W3_v69 : W3 m ρ c (Proc.devRef .tc main_v69) = mat02 (m ((c : Thread nD τ).loc main_arg7)) := by
  refine (Host2.v69 (W2 m ρ c)).trans ?_
  rw [W2_arg7]

theorem W3_v0 : W3 m ρ c (Proc.devRef .tc main_v0) = HU m c :=
  (Keep.keep2 (W2 m ρ c) main_v0 (by decide)).trans (W2_v0 m ρ c)

theorem W3_v1 : W3 m ρ c (Proc.devRef .tc main_v1) = HI m c :=
  (Keep.keep2 (W2 m ρ c) main_v1 (by decide)).trans (W2_v1 m ρ c)

theorem W3_arg6 : W3 m ρ c (Proc.devRef .tc main_arg6) = (m ((c : Thread nD τ).loc main_arg6)) :=
  (Keep.keep2 (W2 m ρ c) main_arg6 (by decide)).trans (W2_arg6 m ρ c)

theorem W3_arg7 : W3 m ρ c (Proc.devRef .tc main_arg7) = (m ((c : Thread nD τ).loc main_arg7)) :=
  (Keep.keep2 (W2 m ρ c) main_arg7 (by decide)).trans (W2_arg7 m ρ c)

theorem W3_arg8 : W3 m ρ c (Proc.devRef .tc main_arg8) = (m ((c : Thread nD τ).loc main_arg8)) :=
  (Keep.keep2 (W2 m ρ c) main_arg8 (by decide)).trans (W2_arg8 m ρ c)

theorem W3_arg9 : W3 m ρ c (Proc.devRef .tc main_arg9) = (m ((c : Thread nD τ).loc main_arg9)) :=
  (Keep.keep2 (W2 m ρ c) main_arg9 (by decide)).trans (W2_arg9 m ρ c)

theorem W3_arg10 : W3 m ρ c (Proc.devRef .tc main_arg10) = (m ((c : Thread nD τ).loc main_arg10)) :=
  (Keep.keep2 (W2 m ρ c) main_arg10 (by decide)).trans (W2_arg10 m ρ c)

theorem W3_arg11 : W3 m ρ c (Proc.devRef .tc main_arg11) = (m ((c : Thread nD τ).loc main_arg11)) :=
  (Keep.keep2 (W2 m ρ c) main_arg11 (by decide)).trans (W2_arg11 m ρ c)

theorem W3_arg12 : W3 m ρ c (Proc.devRef .tc main_arg12) = (m ((c : Thread nD τ).loc main_arg12)) :=
  (Keep.keep2 (W2 m ρ c) main_arg12 (by decide)).trans (W2_arg12 m ρ c)

theorem W3_arg13 : W3 m ρ c (Proc.devRef .tc main_arg13) = (m ((c : Thread nD τ).loc main_arg13)) :=
  (Keep.keep2 (W2 m ρ c) main_arg13 (by decide)).trans (W2_arg13 m ρ c)

theorem W3_arg14 : W3 m ρ c (Proc.devRef .tc main_arg14) = (m ((c : Thread nD τ).loc main_arg14)) :=
  (Keep.keep2 (W2 m ρ c) main_arg14 (by decide)).trans (W2_arg14 m ρ c)

theorem W4_v70 : W4 m ρ c (Proc.devRef .tc main_v70) = U1 m c := by
  refine (W4_arr m ρ c 7).trans ((Reg2.final (V3 m ρ) c).trans ?_)
  unfold Reg2.G U1 Form.U1
  dsimp only [V3]
  rw [W3_v0, W3_v60, W3_v19, W3_v67, W3_v55, W3_v69, W3_v65]

theorem W4_v1 : W4 m ρ c (Proc.devRef .tc main_v1) = HI m c :=
  (W4_of_ne m ρ c main_v1 (by decide)).trans (W3_v1 m ρ c)

theorem W4_v37 : W4 m ρ c (Proc.devRef .tc main_v37) = meanAgg (HU m c) (m ((c : Thread nD τ).loc main_arg11)) (m ((c : Thread nD τ).loc main_arg12)) :=
  (W4_of_ne m ρ c main_v37 (by decide)).trans (W3_v37 m ρ c)

theorem W4_arg6 : W4 m ρ c (Proc.devRef .tc main_arg6) = (m ((c : Thread nD τ).loc main_arg6)) :=
  (W4_of_ne m ρ c main_arg6 (by decide)).trans (W3_arg6 m ρ c)

theorem W4_arg7 : W4 m ρ c (Proc.devRef .tc main_arg7) = (m ((c : Thread nD τ).loc main_arg7)) :=
  (W4_of_ne m ρ c main_arg7 (by decide)).trans (W3_arg7 m ρ c)

theorem W4_arg8 : W4 m ρ c (Proc.devRef .tc main_arg8) = (m ((c : Thread nD τ).loc main_arg8)) :=
  (W4_of_ne m ρ c main_arg8 (by decide)).trans (W3_arg8 m ρ c)

theorem W4_arg9 : W4 m ρ c (Proc.devRef .tc main_arg9) = (m ((c : Thread nD τ).loc main_arg9)) :=
  (W4_of_ne m ρ c main_arg9 (by decide)).trans (W3_arg9 m ρ c)

theorem W4_arg10 : W4 m ρ c (Proc.devRef .tc main_arg10) = (m ((c : Thread nD τ).loc main_arg10)) :=
  (W4_of_ne m ρ c main_arg10 (by decide)).trans (W3_arg10 m ρ c)

theorem W4_arg11 : W4 m ρ c (Proc.devRef .tc main_arg11) = (m ((c : Thread nD τ).loc main_arg11)) :=
  (W4_of_ne m ρ c main_arg11 (by decide)).trans (W3_arg11 m ρ c)

theorem W4_arg12 : W4 m ρ c (Proc.devRef .tc main_arg12) = (m ((c : Thread nD τ).loc main_arg12)) :=
  (W4_of_ne m ρ c main_arg12 (by decide)).trans (W3_arg12 m ρ c)

theorem W4_arg13 : W4 m ρ c (Proc.devRef .tc main_arg13) = (m ((c : Thread nD τ).loc main_arg13)) :=
  (W4_of_ne m ρ c main_arg13 (by decide)).trans (W3_arg13 m ρ c)

theorem W4_arg14 : W4 m ρ c (Proc.devRef .tc main_arg14) = (m ((c : Thread nD τ).loc main_arg14)) :=
  (W4_of_ne m ρ c main_arg14 (by decide)).trans (W3_arg14 m ρ c)

theorem W5_v72 : W5 m ρ c (Proc.devRef .tc main_v72) = mat01 (m ((c : Thread nD τ).loc main_arg6)) := by
  refine (Host3.v72 (W4 m ρ c)).trans ?_
  rw [W4_arg6]

theorem W5_v74 : W5 m ρ c (Proc.devRef .tc main_v74) = mat01 (m ((c : Thread nD τ).loc main_arg7)) := by
  refine (Host3.v74 (W4 m ρ c)).trans ?_
  rw [W4_arg7]

theorem W5_v76 : W5 m ρ c (Proc.devRef .tc main_v76) = row01 (m ((c : Thread nD τ).loc main_arg8)) := by
  refine (Host3.v76 (W4 m ρ c)).trans ?_
  rw [W4_arg8]

theorem W5_v1 : W5 m ρ c (Proc.devRef .tc main_v1) = HI m c :=
  (Keep.keep3 (W4 m ρ c) main_v1 (by decide)).trans (W4_v1 m ρ c)

theorem W5_v37 : W5 m ρ c (Proc.devRef .tc main_v37) = meanAgg (HU m c) (m ((c : Thread nD τ).loc main_arg11)) (m ((c : Thread nD τ).loc main_arg12)) :=
  (Keep.keep3 (W4 m ρ c) main_v37 (by decide)).trans (W4_v37 m ρ c)

theorem W5_v70 : W5 m ρ c (Proc.devRef .tc main_v70) = U1 m c :=
  (Keep.keep3 (W4 m ρ c) main_v70 (by decide)).trans (W4_v70 m ρ c)

theorem W5_arg6 : W5 m ρ c (Proc.devRef .tc main_arg6) = (m ((c : Thread nD τ).loc main_arg6)) :=
  (Keep.keep3 (W4 m ρ c) main_arg6 (by decide)).trans (W4_arg6 m ρ c)

theorem W5_arg7 : W5 m ρ c (Proc.devRef .tc main_arg7) = (m ((c : Thread nD τ).loc main_arg7)) :=
  (Keep.keep3 (W4 m ρ c) main_arg7 (by decide)).trans (W4_arg7 m ρ c)

theorem W5_arg8 : W5 m ρ c (Proc.devRef .tc main_arg8) = (m ((c : Thread nD τ).loc main_arg8)) :=
  (Keep.keep3 (W4 m ρ c) main_arg8 (by decide)).trans (W4_arg8 m ρ c)

theorem W5_arg9 : W5 m ρ c (Proc.devRef .tc main_arg9) = (m ((c : Thread nD τ).loc main_arg9)) :=
  (Keep.keep3 (W4 m ρ c) main_arg9 (by decide)).trans (W4_arg9 m ρ c)

theorem W5_arg10 : W5 m ρ c (Proc.devRef .tc main_arg10) = (m ((c : Thread nD τ).loc main_arg10)) :=
  (Keep.keep3 (W4 m ρ c) main_arg10 (by decide)).trans (W4_arg10 m ρ c)

theorem W5_arg11 : W5 m ρ c (Proc.devRef .tc main_arg11) = (m ((c : Thread nD τ).loc main_arg11)) :=
  (Keep.keep3 (W4 m ρ c) main_arg11 (by decide)).trans (W4_arg11 m ρ c)

theorem W5_arg12 : W5 m ρ c (Proc.devRef .tc main_arg12) = (m ((c : Thread nD τ).loc main_arg12)) :=
  (Keep.keep3 (W4 m ρ c) main_arg12 (by decide)).trans (W4_arg12 m ρ c)

theorem W5_arg13 : W5 m ρ c (Proc.devRef .tc main_arg13) = (m ((c : Thread nD τ).loc main_arg13)) :=
  (Keep.keep3 (W4 m ρ c) main_arg13 (by decide)).trans (W4_arg13 m ρ c)

theorem W5_arg14 : W5 m ρ c (Proc.devRef .tc main_arg14) = (m ((c : Thread nD τ).loc main_arg14)) :=
  (Keep.keep3 (W4 m ρ c) main_arg14 (by decide)).trans (W4_arg14 m ρ c)

theorem W6_v77 : W6 m ρ c (Proc.devRef .tc main_v77) = I1 m c := by
  refine (W6_arr m ρ c 5).trans ((Reg3.final (V5 m ρ) c).trans ?_)
  unfold Reg3.G I1 Form.I1
  dsimp only [V5]
  rw [W5_v1, W5_v72, W5_v37, W5_v74, W5_v76]

theorem W6_v70 : W6 m ρ c (Proc.devRef .tc main_v70) = U1 m c :=
  (W6_of_ne m ρ c main_v70 (by decide)).trans (W5_v70 m ρ c)

theorem W6_arg6 : W6 m ρ c (Proc.devRef .tc main_arg6) = (m ((c : Thread nD τ).loc main_arg6)) :=
  (W6_of_ne m ρ c main_arg6 (by decide)).trans (W5_arg6 m ρ c)

theorem W6_arg7 : W6 m ρ c (Proc.devRef .tc main_arg7) = (m ((c : Thread nD τ).loc main_arg7)) :=
  (W6_of_ne m ρ c main_arg7 (by decide)).trans (W5_arg7 m ρ c)

theorem W6_arg8 : W6 m ρ c (Proc.devRef .tc main_arg8) = (m ((c : Thread nD τ).loc main_arg8)) :=
  (W6_of_ne m ρ c main_arg8 (by decide)).trans (W5_arg8 m ρ c)

theorem W6_arg9 : W6 m ρ c (Proc.devRef .tc main_arg9) = (m ((c : Thread nD τ).loc main_arg9)) :=
  (W6_of_ne m ρ c main_arg9 (by decide)).trans (W5_arg9 m ρ c)

theorem W6_arg10 : W6 m ρ c (Proc.devRef .tc main_arg10) = (m ((c : Thread nD τ).loc main_arg10)) :=
  (W6_of_ne m ρ c main_arg10 (by decide)).trans (W5_arg10 m ρ c)

theorem W6_arg11 : W6 m ρ c (Proc.devRef .tc main_arg11) = (m ((c : Thread nD τ).loc main_arg11)) :=
  (W6_of_ne m ρ c main_arg11 (by decide)).trans (W5_arg11 m ρ c)

theorem W6_arg12 : W6 m ρ c (Proc.devRef .tc main_arg12) = (m ((c : Thread nD τ).loc main_arg12)) :=
  (W6_of_ne m ρ c main_arg12 (by decide)).trans (W5_arg12 m ρ c)

theorem W6_arg13 : W6 m ρ c (Proc.devRef .tc main_arg13) = (m ((c : Thread nD τ).loc main_arg13)) :=
  (W6_of_ne m ρ c main_arg13 (by decide)).trans (W5_arg13 m ρ c)

theorem W6_arg14 : W6 m ρ c (Proc.devRef .tc main_arg14) = (m ((c : Thread nD τ).loc main_arg14)) :=
  (W6_of_ne m ρ c main_arg14 (by decide)).trans (W5_arg14 m ρ c)

theorem W7_v95 : W7 m ρ c (Proc.devRef .tc main_v95) = meanAgg (U1 m c) (m ((c : Thread nD τ).loc main_arg9)) (m ((c : Thread nD τ).loc main_arg10)) := by
  refine (Host4.v95 (W6 m ρ c)).trans ?_
  rw [W6_v70, W6_arg9, W6_arg10]

theorem W7_v113 : W7 m ρ c (Proc.devRef .tc main_v113) = meanAgg (U1 m c) (m ((c : Thread nD τ).loc main_arg11)) (m ((c : Thread nD τ).loc main_arg12)) := by
  refine (Host4.v113 (W6 m ρ c)).trans ?_
  rw [W6_v70, W6_arg11, W6_arg12]

theorem W7_v131 : W7 m ρ c (Proc.devRef .tc main_v131) = meanAgg (I1 m c) (m ((c : Thread nD τ).loc main_arg13)) (m ((c : Thread nD τ).loc main_arg14)) := by
  refine (Host4.v131 (W6 m ρ c)).trans ?_
  rw [W6_v77, W6_arg13, W6_arg14]

theorem W7_v136 : W7 m ρ c (Proc.devRef .tc main_v136) = addf (mat10 (m ((c : Thread nD τ).loc main_arg6))) (mat12 (m ((c : Thread nD τ).loc main_arg6))) := by
  refine (Host4.v136 (W6 m ρ c)).trans ?_
  rw [W6_arg6]

theorem W7_v141 : W7 m ρ c (Proc.devRef .tc main_v141) = addf (row10 (m ((c : Thread nD τ).loc main_arg8))) (row12 (m ((c : Thread nD τ).loc main_arg8))) := by
  refine (Host4.v141 (W6 m ρ c)).trans ?_
  rw [W6_arg8]

theorem W7_v143 : W7 m ρ c (Proc.devRef .tc main_v143) = mat10 (m ((c : Thread nD τ).loc main_arg7)) := by
  refine (Host4.v143 (W6 m ρ c)).trans ?_
  rw [W6_arg7]

theorem W7_v145 : W7 m ρ c (Proc.devRef .tc main_v145) = mat12 (m ((c : Thread nD τ).loc main_arg7)) := by
  refine (Host4.v145 (W6 m ρ c)).trans ?_
  rw [W6_arg7]

theorem W7_v70 : W7 m ρ c (Proc.devRef .tc main_v70) = U1 m c :=
  (Keep.keep4 (W6 m ρ c) main_v70 (by decide)).trans (W6_v70 m ρ c)

theorem W7_v77 : W7 m ρ c (Proc.devRef .tc main_v77) = I1 m c :=
  (Keep.keep4 (W6 m ρ c) main_v77 (by decide)).trans (W6_v77 m ρ c)

theorem W7_arg6 : W7 m ρ c (Proc.devRef .tc main_arg6) = (m ((c : Thread nD τ).loc main_arg6)) :=
  (Keep.keep4 (W6 m ρ c) main_arg6 (by decide)).trans (W6_arg6 m ρ c)

theorem W7_arg7 : W7 m ρ c (Proc.devRef .tc main_arg7) = (m ((c : Thread nD τ).loc main_arg7)) :=
  (Keep.keep4 (W6 m ρ c) main_arg7 (by decide)).trans (W6_arg7 m ρ c)

theorem W7_arg8 : W7 m ρ c (Proc.devRef .tc main_arg8) = (m ((c : Thread nD τ).loc main_arg8)) :=
  (Keep.keep4 (W6 m ρ c) main_arg8 (by decide)).trans (W6_arg8 m ρ c)

theorem W8_v146 : W8 m ρ c (Proc.devRef .tc main_v146) = U2 m c := by
  refine (W8_arr m ρ c 7).trans ((Reg4.final (V7 m ρ) c).trans ?_)
  unfold Reg4.G U2 Form.U2
  dsimp only [V7]
  rw [W7_v70, W7_v136, W7_v95, W7_v143, W7_v131, W7_v145, W7_v141]

theorem W8_v77 : W8 m ρ c (Proc.devRef .tc main_v77) = I1 m c :=
  (W8_of_ne m ρ c main_v77 (by decide)).trans (W7_v77 m ρ c)

theorem W8_v113 : W8 m ρ c (Proc.devRef .tc main_v113) = meanAgg (U1 m c) (m ((c : Thread nD τ).loc main_arg11)) (m ((c : Thread nD τ).loc main_arg12)) :=
  (W8_of_ne m ρ c main_v113 (by decide)).trans (W7_v113 m ρ c)

theorem W8_arg6 : W8 m ρ c (Proc.devRef .tc main_arg6) = (m ((c : Thread nD τ).loc main_arg6)) :=
  (W8_of_ne m ρ c main_arg6 (by decide)).trans (W7_arg6 m ρ c)

theorem W8_arg7 : W8 m ρ c (Proc.devRef .tc main_arg7) = (m ((c : Thread nD τ).loc main_arg7)) :=
  (W8_of_ne m ρ c main_arg7 (by decide)).trans (W7_arg7 m ρ c)

theorem W8_arg8 : W8 m ρ c (Proc.devRef .tc main_arg8) = (m ((c : Thread nD τ).loc main_arg8)) :=
  (W8_of_ne m ρ c main_arg8 (by decide)).trans (W7_arg8 m ρ c)

theorem W9_v148 : W9 m ρ c (Proc.devRef .tc main_v148) = mat11 (m ((c : Thread nD τ).loc main_arg6)) := by
  refine (Host5.v148 (W8 m ρ c)).trans ?_
  rw [W8_arg6]

theorem W9_v150 : W9 m ρ c (Proc.devRef .tc main_v150) = mat11 (m ((c : Thread nD τ).loc main_arg7)) := by
  refine (Host5.v150 (W8 m ρ c)).trans ?_
  rw [W8_arg7]

theorem W9_v152 : W9 m ρ c (Proc.devRef .tc main_v152) = row11 (m ((c : Thread nD τ).loc main_arg8)) := by
  refine (Host5.v152 (W8 m ρ c)).trans ?_
  rw [W8_arg8]

theorem W9_v77 : W9 m ρ c (Proc.devRef .tc main_v77) = I1 m c :=
  (Keep.keep5 (W8 m ρ c) main_v77 (by decide)).trans (W8_v77 m ρ c)

theorem W9_v113 : W9 m ρ c (Proc.devRef .tc main_v113) = meanAgg (U1 m c) (m ((c : Thread nD τ).loc main_arg11)) (m ((c : Thread nD τ).loc main_arg12)) :=
  (Keep.keep5 (W8 m ρ c) main_v113 (by decide)).trans (W8_v113 m ρ c)

theorem W9_v146 : W9 m ρ c (Proc.devRef .tc main_v146) = U2 m c :=
  (Keep.keep5 (W8 m ρ c) main_v146 (by decide)).trans (W8_v146 m ρ c)

/-- The second result: the second node type's normalised features. -/
theorem W10_v153 : W10 m ρ c (Proc.devRef .tc main_v153) = I2 m c := by
  refine (W10_arr m ρ c 5).trans ((Reg5.final (V9 m ρ) c).trans ?_)
  unfold Reg5.G I2 Form.I2
  dsimp only [V9]
  rw [W9_v77, W9_v148, W9_v113, W9_v150, W9_v152]

/-- The first result: the first node type's normalised features. -/
theorem W10_v146 : W10 m ρ c (Proc.devRef .tc main_v146) = U2 m c :=
  (W10_of_ne m ρ c main_v146 (by decide)).trans (W9_v146 m ρ c)

end Cert.KernelIdeal.Chain

end
-- ==== Proof.RTerms.lean ====
/-
  Names for the host operations the two programs share, over the reference program's printed shapes: the mean
  aggregation along an edge list as one function of the feature rows and the two index lists, and the eighteen slices of
  the stacked weight and bias arrays.  Nothing here is computed; the definitions only name the printed terms.
-/
import proofs.«164584_j12077448036842_1_alg».proof.ReferenceIdeal

noncomputable section

namespace Cert.ReferenceIdeal.Terms

open Cert.ReferenceIdeal Idealize.ShloMosaic

variable {F : FTy → Type} [FloatOps F] [Facts₀]
open Facts₀

/-- The mean of the rows of `h` gathered along an edge list, per destination row: source indices below zero are wrapped by
    the row count, the gathered rows are summed into their destination rows from zero, and each sum is divided by the larger
    of the destination's edge count and one. -/
def meanAgg (h : (⟨S100000x128, .f32⟩ : BufTy).Contents (Elt F)) (src dst : (⟨S600000, .i32⟩ : BufTy).Contents (Elt F)) :
    (⟨S100000x128, .f32⟩ : BufTy).Contents (Elt F) :=
  Host.divf
    (Host.scatterAdd scatter_S100000x128_S600000x1_S600000x128_1_0_0_1
      (broadcastInDim S100000x128 ![] bcast_S_S100000x128 (constant S_ .f32 0x00000000#32))
      (broadcastInDim S600000x1 ![0] bcast_S600000_S600000x1_0 dst)
      (Host.gather gather_S100000x128_S600000x1_S600000x128_1_0_n_n_0_1_1128 h
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 100000#32))) src))))
    (broadcastInDim S100000x128 ![0, 1] bcast_S100000x1_S100000x128_0_1
      (maximumf
        (Host.scatterAdd scatter_S100000x1_S600000x1_S600000x1_1_0_0_1
          (broadcastInDim S100000x1 ![] bcast_S_S100000x1 (constant S_ .f32 0x00000000#32))
          (broadcastInDim S600000x1 ![0] bcast_S600000_S600000x1_0 dst)
          (broadcastInDim S600000x1 ![] bcast_S_S600000x1 (constant S_ .f32 0x3F800000#32)))
        (broadcastInDim S100000x1 ![] bcast_S_S100000x1 (constant S_ .f32 0x3F800000#32))))

/-- The `128 × 128` matrix at layer 0, relation 0 of a `[2, 3, 128, 128]` weight array. -/
def mat00 (x : (⟨S2x3x128x128, .f32⟩ : BufTy).Contents (Elt F)) : (⟨S128x128, .f32⟩ : BufTy).Contents (Elt F) :=
  shapeCast _ (extractStridedSlice S1x1x128x128 ![0, 0, 0, 0] x slices_S2x3x128x128_S1x1x128x128_0_0_0_0) shapeCasts_S1x1x128x128_S128x128
/-- The bias row at layer 0, relation 0 of a `[2, 3, 128]` bias array. -/
def row00 (x : (⟨S2x3x128, .f32⟩ : BufTy).Contents (Elt F)) : (⟨S128, .f32⟩ : BufTy).Contents (Elt F) :=
  shapeCast _ (extractStridedSlice S1x1x128 ![0, 0, 0] x slices_S2x3x128_S1x1x128_0_0_0) shapeCasts_S1x1x128_S128

/-- The `128 × 128` matrix at layer 0, relation 1 of a `[2, 3, 128, 128]` weight array. -/
def mat01 (x : (⟨S2x3x128x128, .f32⟩ : BufTy).Contents (Elt F)) : (⟨S128x128, .f32⟩ : BufTy).Contents (Elt F) :=
  shapeCast _ (extractStridedSlice S1x1x128x128 ![0, 1, 0, 0] x slices_S2x3x128x128_S1x1x128x128_0_1_0_0) shapeCasts_S1x1x128x128_S128x128
/-- The bias row at layer 0, relation 1 of a `[2, 3, 128]` bias array. -/
def row01 (x : (⟨S2x3x128, .f32⟩ : BufTy).Contents (Elt F)) : (⟨S128, .f32⟩ : BufTy).Contents (Elt F) :=
  shapeCast _ (extractStridedSlice S1x1x128 ![0, 1, 0] x slices_S2x3x128_S1x1x128_0_1_0) shapeCasts_S1x1x128_S128

/-- The `128 × 128` matrix at layer 0, relation 2 of a `[2, 3, 128, 128]` weight array. -/
def mat02 (x : (⟨S2x3x128x128, .f32⟩ : BufTy).Contents (Elt F)) : (⟨S128x128, .f32⟩ : BufTy).Contents (Elt F) :=
  shapeCast _ (extractStridedSlice S1x1x128x128 ![0, 2, 0, 0] x slices_S2x3x128x128_S1x1x128x128_0_2_0_0) shapeCasts_S1x1x128x128_S128x128
/-- The bias row at layer 0, relation 2 of a `[2, 3, 128]` bias array. -/
def row02 (x : (⟨S2x3x128, .f32⟩ : BufTy).Contents (Elt F)) : (⟨S128, .f32⟩ : BufTy).Contents (Elt F) :=
  shapeCast _ (extractStridedSlice S1x1x128 ![0, 2, 0] x slices_S2x3x128_S1x1x128_0_2_0) shapeCasts_S1x1x128_S128

/-- The `128 × 128` matrix at layer 1, relation 0 of a `[2, 3, 128, 128]` weight array. -/
def mat10 (x : (⟨S2x3x128x128, .f32⟩ : BufTy).Contents (Elt F)) : (⟨S128x128, .f32⟩ : BufTy).Contents (Elt F) :=
  shapeCast _ (extractStridedSlice S1x1x128x128 ![1, 0, 0, 0] x slices_S2x3x128x128_S1x1x128x128_1_0_0_0) shapeCasts_S1x1x128x128_S128x128
/-- The bias row at layer 1, relation 0 of a `[2, 3, 128]` bias array. -/
def row10 (x : (⟨S2x3x128, .f32⟩ : BufTy).Contents (Elt F)) : (⟨S128, .f32⟩ : BufTy).Contents (Elt F) :=
  shapeCast _ (extractStridedSlice S1x1x128 ![1, 0, 0] x slices_S2x3x128_S1x1x128_1_0_0) shapeCasts_S1x1x128_S128

/-- The `128 × 128` matrix at layer 1, relation 1 of a `[2, 3, 128, 128]` weight array. -/
def mat11 (x : (⟨S2x3x128x128, .f32⟩ : BufTy).Contents (Elt F)) : (⟨S128x128, .f32⟩ : BufTy).Contents (Elt F) :=
  shapeCast _ (extractStridedSlice S1x1x128x128 ![1, 1, 0, 0] x slices_S2x3x128x128_S1x1x128x128_1_1_0_0) shapeCasts_S1x1x128x128_S128x128
/-- The bias row at layer 1, relation 1 of a `[2, 3, 128]` bias array. -/
def row11 (x : (⟨S2x3x128, .f32⟩ : BufTy).Contents (Elt F)) : (⟨S128, .f32⟩ : BufTy).Contents (Elt F) :=
  shapeCast _ (extractStridedSlice S1x1x128 ![1, 1, 0] x slices_S2x3x128_S1x1x128_1_1_0) shapeCasts_S1x1x128_S128

/-- The `128 × 128` matrix at layer 1, relation 2 of a `[2, 3, 128, 128]` weight array. -/
def mat12 (x : (⟨S2x3x128x128, .f32⟩ : BufTy).Contents (Elt F)) : (⟨S128x128, .f32⟩ : BufTy).Contents (Elt F) :=
  shapeCast _ (extractStridedSlice S1x1x128x128 ![1, 2, 0, 0] x slices_S2x3x128x128_S1x1x128x128_1_2_0_0) shapeCasts_S1x1x128x128_S128x128
/-- The bias row at layer 1, relation 2 of a `[2, 3, 128]` bias array. -/
def row12 (x : (⟨S2x3x128, .f32⟩ : BufTy).Contents (Elt F)) : (⟨S128, .f32⟩ : BufTy).Contents (Elt F) :=
  shapeCast _ (extractStridedSlice S1x1x128 ![1, 2, 0] x slices_S2x3x128_S1x1x128_1_2_0) shapeCasts_S1x1x128_S128

end Cert.ReferenceIdeal.Terms

end
-- ==== Proof.RefValue.lean ====
/-
  The reference program's two results as the two-layer graph convolution of the specification, array by array.

  Each host stage is read at an index; the stages that recur (the array of zeros, a bias row spread over the rows, the
  product with a 128 x 128 matrix, the rectifier, the division of every row by its floored norm) are read once, for
  any operand, and the accumulation chains of a layer are then instances of two general statements.
-/
import proofs.«164584_j12077448036842_1_alg».proof.Proof.Gen.ReferenceIdeal.Read
import proofs.«164584_j12077448036842_1_alg».proof.Proof.Spec
import proofs.«164584_j12077448036842_1_alg».proof.Proof.RTerms

noncomputable section

open scoped BigOperators

namespace Cert.ReferenceIdeal.RefValue

open Cert.ReferenceIdeal Cert.ReferenceIdeal.Gen Cert.ReferenceIdeal.Read Cert.ReferenceIdeal.Terms
open Idealize.ShloMosaic Idealize.ShloMosaic.ValueIdx Cert.KernelIdeal.RegionValue Cert.Sage

/-- A `[100000, 128]` array of the program. -/
abbrev A : Type := (⟨S100000x128, .f32⟩ : BufTy).Contents (Elt Ideal)
/-- A `[128, 128]` array of the program. -/
abbrev W : Type := (⟨S128x128, .f32⟩ : BufTy).Contents (Elt Ideal)
/-- A `[128]` array of the program. -/
abbrev B : Type := (⟨S128, .f32⟩ : BufTy).Contents (Elt Ideal)

/-- The entrywise sum of two `[100000, 128]` arrays. -/
abbrev addA (a b : A) : A := addf (F := Ideal) (φ := .f32) a b
/-- The entrywise larger of two `[100000, 128]` arrays. -/
abbrev maxA (a b : A) : A := maximumf (F := Ideal) (φ := .f32) a b

/-! ## The recurring stages, for any operand -/

/-- The `[100000, 128]` array of zeros every accumulation and every rectifier starts from. -/
abbrev zeroArr : A := broadcastInDim S100000x128 ![] bcast_S_S100000x128 (constant (F := Ideal) S_ .f32 0x00000000#32)

theorem zeroArr_apply (i : S100000x128.Idx) : zeroArr i = 0 := by
  show val_main_v10 (F := Ideal) i = 0
  rw [val_main_v10_apply, val_main_cst_apply]
  exact Ideal.ofBits_zero_f32

/-- A bias row spread over the rows. -/
abbrev biasArr (b : B) : A :=
  broadcastInDim S100000x128 ![0, 1] bcast_S1x128_S100000x128_0_1 (broadcastInDim S1x128 ![1] bcast_S128_S1x128_1 b)

theorem biasArr_apply (b : B) (p : Fin 100000) (c : Fin 128) : biasArr b (ix2 p c) = b (ix1 c) := by
  show val_main_v2 (F := Ideal) b (ix2 p c) = _
  rw [val_main_v2_apply, val_main_v1_apply]
  exact congrArg b (funext fun a => Fin.ext (by match a with | ⟨0, _⟩ => rfl))

/-- The product with a `128 x 128` matrix. -/
abbrev dot128 (a : A) (w : W) : A := Host.dotGeneral (F := Ideal) (φ₁ := .f32) (φ₂ := .f32) dot_S100000x128_S128x128_S100000x128_1_0_0_1_n_n none a w

theorem dot128_eq (a : A) (w : W) : dot128 a w = prodArr (a : Mat 100000 128) (w : Mat 128 128) := by
  funext i
  obtain ⟨p, c, rfl⟩ : ∃ (p : Fin 100000) (c : Fin 128), i = ix2 p c := ⟨i 0, i 1, eq_ix2 i⟩
  rw [prodArr_apply]
  simp only [dot128, Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 p c) ((ValueIdx.contrEquiv1 dot_S100000x128_S128x128_S100000x128_1_0_0_1_n_n 128 rfl rfl).symm k) = ix2 p k := funext fun a => Fin.ext (by
    match a with
    | ⟨0, _⟩ => exact lhs_main_v32_0 _ _
    | ⟨1, _⟩ => exact (lhs_main_v32_1 _ _).trans hk)
  have er : dot_S100000x128_S128x128_S100000x128_1_0_0_1_n_n.rhsIdx (ix2 p c) ((ValueIdx.contrEquiv1 dot_S100000x128_S128x128_S100000x128_1_0_0_1_n_n 128 rfl rfl).symm k) = ix2 k c := funext fun a => Fin.ext (by
    match a with
    | ⟨0, _⟩ => exact (rhs_main_v32_0 _ _).trans hk
    | ⟨1, _⟩ => exact rhs_main_v32_1 _ _)
  rw [el, er]

/-- The rectifier: the larger of an entry and the zero array's. -/
theorem relu_eq (y : A) : maxA y zeroArr = relu (y : Mat 100000 128) := by
  funext i
  show max (y i) (zeroArr i) = max (y i) 0
  rw [zeroArr_apply]

/-- The sum over a row from the zero word, as the host's reduction writes it. -/
theorem rowSum_apply (z : A) (j : S100000.Idx) :
    Host.reduceAdd (F := Ideal) (φ := .f32) z (constant (F := Ideal) S_ .f32 0x00000000#32) reducesTo_S100000x128_S100000_d1 h_S_ j
      = ∑ k : Fin 128, z (ix2 (j 0) k) := by
  have h0 : (constant (F := Ideal) S_ .f32 0x00000000#32 : (⟨S_, .f32⟩ : BufTy).Contents (Elt Ideal)) (Shape.Idx.first h_S_) = (0 : EReal) :=
    Ideal.ofBits_zero_f32
  rw [← zero_add (∑ k : Fin 128, z (ix2 (j 0) k)), ← h0]
  simp only [Host.reduceAdd, Ideal.hostReduceAdd_def]
  rw [Ideal.hostReduceAdd_single reducesTo_S100000x128_S100000_d1 (by decide)]
  refine congrArg (_ + ·) (Finset.sum_congr rfl fun k _ => ?_)
  exact congrArg z (funext fun a => Fin.ext (by match a with | ⟨0, _⟩ => rfl | ⟨1, _⟩ => rfl))

/-- Every row divided by the larger of the root of its sum of squares and the floor constant, as the program writes it. -/
abbrev normalize (y : A) : A :=
  Host.divf (F := Ideal) (φ := .f32) y (broadcastInDim S100000x128 ![0, 1] bcast_S100000x1_S100000x128_0_1
    (maximumf (F := Ideal) (φ := .f32) (Host.sqrt (F := Ideal) (φ := .f32) (broadcastInDim S100000x1 ![0] bcast_S100000_S100000x1_0
        (Host.reduceAdd (F := Ideal) (φ := .f32) (mulf (F := Ideal) (φ := .f32) y y) (constant (F := Ideal) S_ .f32 0x00000000#32) reducesTo_S100000x128_S100000_d1 h_S_)))
      (broadcastInDim S100000x1 ![] bcast_S_S100000x1 (constant (F := Ideal) S_ .f32 0x2B8CBCCC#32))))

theorem normalize_eq (y : A) : normalize y = l2n (y : Mat 100000 128) := by
  funext i
  obtain ⟨p, c, rfl⟩ : ∃ (p : Fin 100000) (c : Fin 128), i = ix2 p c := ⟨i 0, i 1, eq_ix2 i⟩
  have hcol : ∀ d : (⟨S100000x1, .f32⟩ : BufTy).Contents (Elt Ideal),
      broadcastInDim S100000x128 ![0, 1] bcast_S100000x1_S100000x128_0_1 d (ix2 p c) = d (ix2 p (0 : Fin 1)) := fun d =>
    broadcastInDim_apply _ bcast_S100000x1_S100000x128_0_1 d (ix2 p c) (ix2 p (0 : Fin 1)) (fun a => match a with
    | ⟨0, _⟩ => by show p.val = if (100000 : Nat) = 1 then 0 else p.val; rw [if_neg (by decide)]
    | ⟨1, _⟩ => by show 0 = if (1 : Nat) = 1 then 0 else c.val; rw [if_pos rfl])
  have hrow : ∀ r : (⟨S100000, .f32⟩ : BufTy).Contents (Elt Ideal),
      broadcastInDim S100000x1 ![0] bcast_S100000_S100000x1_0 r (ix2 p (0 : Fin 1)) = r (ix1 p) := fun r =>
    broadcastInDim_apply _ bcast_S100000_S100000x1_0 r (ix2 p (0 : Fin 1)) (ix1 p) (fun a => match a with
      | ⟨0, _⟩ => by show p.val = if (100000 : Nat) = 1 then 0 else p.val; rw [if_neg (by decide)])
  have heps : broadcastInDim S100000x1 ![] bcast_S_S100000x1 (constant (F := Ideal) S_ .f32 0x2B8CBCCC#32) (ix2 p (0 : Fin 1)) = eps :=
    broadcastInDim_apply _ bcast_S_S100000x1 _ (ix2 p (0 : Fin 1)) (fun a => a.elim0) (fun a => a.elim0)
  simp only [normalize, Host.divf, l2n]
  rw [Ideal.hostDivf_def, hcol]
  simp only [maximumf, Host.sqrt]
  rw [Ideal.maximumf_def, Ideal.hostUnary_sqrt_def, hrow, heps, rowSum_apply]
  simp only [mulf, rowSq, Ideal.mulf_def]

/-! ## The accumulation chains of a layer -/

/-- The rows of the first node type: from zero, the self product, the neighbour product and the bias of one relation, then
    of the other; then the rectifier. -/
theorem chain3 (h m1 m2 : A) (wa w1 wb w2 : W) (ba bb : B) :
    maxA (addA (addA (addA (addA (addA (addA zeroArr (dot128 h wa)) (dot128 m1 w1)) (biasArr ba)) (dot128 h wb))
        (dot128 m2 w2)) (biasArr bb)) zeroArr
      = relu (rform3 (h : Mat 100000 128) (wa : Mat 128 128) (m1 : Mat 100000 128) (w1 : Mat 128 128) (ba : Row 128)
          (wb : Mat 128 128) (m2 : Mat 100000 128) (w2 : Mat 128 128) (bb : Row 128)) := by
  rw [relu_eq]
  refine congrArg (relu (R := 100000) (N := 128)) (funext fun i => ?_)
  obtain ⟨p, c, rfl⟩ : ∃ (p : Fin 100000) (c : Fin 128), i = ix2 p c := ⟨i 0, i 1, eq_ix2 i⟩
  show (((((zeroArr (ix2 p c) + dot128 h wa (ix2 p c)) + dot128 m1 w1 (ix2 p c)) + biasArr ba (ix2 p c))
      + dot128 h wb (ix2 p c)) + dot128 m2 w2 (ix2 p c)) + biasArr bb (ix2 p c) = _
  rw [zeroArr_apply, biasArr_apply, biasArr_apply, dot128_eq h wa, dot128_eq m1 w1, dot128_eq h wb, dot128_eq m2 w2]
  rfl

/-- The rows of the second node type: from zero, the self product, the neighbour product and the bias of its one relation;
    then the rectifier. -/
theorem chain2 (h m1 : A) (w0 w1 : W) (b : B) :
    maxA (addA (addA (addA zeroArr (dot128 h w0)) (dot128 m1 w1)) (biasArr b)) zeroArr
      = relu (rform2 (h : Mat 100000 128) (w0 : Mat 128 128) (m1 : Mat 100000 128) (w1 : Mat 128 128) (b : Row 128)) := by
  rw [relu_eq]
  refine congrArg (relu (R := 100000) (N := 128)) (funext fun i => ?_)
  obtain ⟨p, c, rfl⟩ : ∃ (p : Fin 100000) (c : Fin 128), i = ix2 p c := ⟨i 0, i 1, eq_ix2 i⟩
  show ((zeroArr (ix2 p c) + dot128 h w0 (ix2 p c)) + dot128 m1 w1 (ix2 p c)) + biasArr b (ix2 p c) = _
  rw [zeroArr_apply, biasArr_apply, dot128_eq h w0, dot128_eq m1 w1]
  rfl

/-! ## The program's stages -/

variable (x0 : (⟨S100000x256, .f32⟩ : BufTy).Contents (Elt Ideal)) (x1 : (⟨S100000x64, .f32⟩ : BufTy).Contents (Elt Ideal))
  (x2 : (⟨S256x128, .f32⟩ : BufTy).Contents (Elt Ideal)) (x3 : B) (x4 : (⟨S64x128, .f32⟩ : BufTy).Contents (Elt Ideal)) (x5 : B)
  (x6 x7 : (⟨S2x3x128x128, .f32⟩ : BufTy).Contents (Elt Ideal)) (x8 : (⟨S2x3x128, .f32⟩ : BufTy).Contents (Elt Ideal))
  (x9 x10 x11 x12 x13 x14 : (⟨S600000, .i32⟩ : BufTy).Contents (Elt Ideal))

/-- The projected features of the first node type. -/
def hu : Mat 100000 128 := relu (lin1 (x0 : Mat 100000 256) (x2 : Mat 256 128) (x3 : Row 128))
/-- The projected features of the second node type. -/
def hi : Mat 100000 128 := relu (lin1 (x1 : Mat 100000 64) (x4 : Mat 64 128) (x5 : Row 128))

/-- The first layer's rows of the first node type. -/
def u1 : Mat 100000 128 :=
  relu (rform3 (hu x0 x2 x3) (mat00 x6 : Mat 128 128) (meanAgg (F := Ideal) (hu x0 x2 x3) x9 x10 : Mat 100000 128)
    (mat00 x7 : Mat 128 128) (row00 x8 : Row 128) (mat02 x6 : Mat 128 128)
    (meanAgg (F := Ideal) (hi x1 x4 x5) x13 x14 : Mat 100000 128) (mat02 x7 : Mat 128 128) (row02 x8 : Row 128))
/-- The first layer's rows of the second node type. -/
def i1 : Mat 100000 128 :=
  relu (rform2 (hi x1 x4 x5) (mat01 x6 : Mat 128 128) (meanAgg (F := Ideal) (hu x0 x2 x3) x11 x12 : Mat 100000 128)
    (mat01 x7 : Mat 128 128) (row01 x8 : Row 128))

theorem v4_eq : val_main_v4 (F := Ideal) x0 x2 x3 = hu x0 x2 x3 := by
  have e : val_main_v4 (F := Ideal) x0 x2 x3 = maxA (addA (val_main_v0 (F := Ideal) x0 x2) (biasArr x3)) zeroArr := rfl
  rw [e, relu_eq]
  refine congrArg (relu (R := 100000) (N := 128)) (funext fun i => ?_)
  obtain ⟨p, c, rfl⟩ : ∃ (p : Fin 100000) (c : Fin 128), i = ix2 p c := ⟨i 0, i 1, eq_ix2 i⟩
  show val_main_v0 (F := Ideal) x0 x2 (ix2 p c) + biasArr x3 (ix2 p c)
    = prodArr (x0 : Mat 100000 256) (x2 : Mat 256 128) (ix2 p c) + x3 (ix1 c)
  rw [biasArr_apply, val_main_v0_apply, prodArr_apply]
  refine congrArg (· + _) (Finset.sum_congr rfl fun k _ => ?_)
  exact congrArg₂ (· * ·)
    (congrArg x0 (funext fun a => Fin.ext (by match a with | ⟨0, _⟩ => rfl | ⟨1, _⟩ => rfl)))
    (congrArg x2 (funext fun a => Fin.ext (by match a with | ⟨0, _⟩ => rfl | ⟨1, _⟩ => rfl)))

theorem v9_eq : val_main_v9 (F := Ideal) x1 x4 x5 = hi x1 x4 x5 := by
  have e : val_main_v9 (F := Ideal) x1 x4 x5 = maxA (addA (val_main_v5 (F := Ideal) x1 x4) (biasArr x5)) zeroArr := rfl
  rw [e, relu_eq]
  refine congrArg (relu (R := 100000) (N := 128)) (funext fun i => ?_)
  obtain ⟨p, c, rfl⟩ : ∃ (p : Fin 100000) (c : Fin 128), i = ix2 p c := ⟨i 0, i 1, eq_ix2 i⟩
  show val_main_v5 (F := Ideal) x1 x4 (ix2 p c) + biasArr x5 (ix2 p c)
    = prodArr (x1 : Mat 100000 64) (x4 : Mat 64 128) (ix2 p c) + x5 (ix1 c)
  rw [biasArr_apply, val_main_v5_apply, prodArr_apply]
  refine congrArg (· + _) (Finset.sum_congr rfl fun k _ => ?_)
  exact congrArg₂ (· * ·)
    (congrArg x1 (funext fun a => Fin.ext (by match a with | ⟨0, _⟩ => rfl | ⟨1, _⟩ => rfl)))
    (congrArg x4 (funext fun a => Fin.ext (by match a with | ⟨0, _⟩ => rfl | ⟨1, _⟩ => rfl)))

/-- The first layer's stage of the first node type, as the chain of its operations over the projected features. -/
theorem v105_shape : val_main_v105 (F := Ideal) x0 x1 x2 x3 x4 x5 x6 x7 x8 x9 x10 x13 x14 =
    maxA (addA (addA (addA (addA (addA (addA zeroArr
        (dot128 (val_main_v4 (F := Ideal) x0 x2 x3) (mat00 x6)))
        (dot128 (meanAgg (val_main_v4 (F := Ideal) x0 x2 x3) x9 x10) (mat00 x7))) (biasArr (row00 x8)))
        (dot128 (val_main_v4 (F := Ideal) x0 x2 x3) (mat02 x6)))
        (dot128 (meanAgg (val_main_v9 (F := Ideal) x1 x4 x5) x13 x14) (mat02 x7))) (biasArr (row02 x8))) zeroArr := rfl

theorem v105_eq : val_main_v105 (F := Ideal) x0 x1 x2 x3 x4 x5 x6 x7 x8 x9 x10 x13 x14 = u1 x0 x1 x2 x3 x4 x5 x6 x7 x8 x9 x10 x13 x14 := by
  rw [v105_shape, v4_eq, v9_eq]
  exact chain3 _ _ _ _ _ _ _ _ _

/-- The first layer's stage of the second node type. -/
theorem v106_shape : val_main_v106 (F := Ideal) x0 x1 x2 x3 x4 x5 x6 x7 x8 x11 x12 =
    maxA (addA (addA (addA zeroArr
        (dot128 (val_main_v9 (F := Ideal) x1 x4 x5) (mat01 x6)))
        (dot128 (meanAgg (val_main_v4 (F := Ideal) x0 x2 x3) x11 x12) (mat01 x7))) (biasArr (row01 x8))) zeroArr := rfl

theorem v106_eq : val_main_v106 (F := Ideal) x0 x1 x2 x3 x4 x5 x6 x7 x8 x11 x12 = i1 x0 x1 x2 x3 x4 x5 x6 x7 x8 x11 x12 := by
  rw [v106_shape, v4_eq, v9_eq]
  exact chain2 _ _ _ _ _

/-- The second layer's stage of the first node type, over the first layer's stages. -/
theorem v202_shape : val_main_v202 (F := Ideal) x0 x1 x2 x3 x4 x5 x6 x7 x8 x9 x10 x11 x12 x13 x14 =
    maxA (addA (addA (addA (addA (addA (addA zeroArr
        (dot128 (val_main_v105 (F := Ideal) x0 x1 x2 x3 x4 x5 x6 x7 x8 x9 x10 x13 x14) (mat10 x6)))
        (dot128 (meanAgg (val_main_v105 (F := Ideal) x0 x1 x2 x3 x4 x5 x6 x7 x8 x9 x10 x13 x14) x9 x10) (mat10 x7))) (biasArr (row10 x8)))
        (dot128 (val_main_v105 (F := Ideal) x0 x1 x2 x3 x4 x5 x6 x7 x8 x9 x10 x13 x14) (mat12 x6)))
        (dot128 (meanAgg (val_main_v106 (F := Ideal) x0 x1 x2 x3 x4 x5 x6 x7 x8 x11 x12) x13 x14) (mat12 x7))) (biasArr (row12 x8))) zeroArr := rfl

/-- The second layer's stage of the second node type. -/
theorem v203_shape : val_main_v203 (F := Ideal) x0 x1 x2 x3 x4 x5 x6 x7 x8 x9 x10 x11 x12 x13 x14 =
    maxA (addA (addA (addA zeroArr
        (dot128 (val_main_v106 (F := Ideal) x0 x1 x2 x3 x4 x5 x6 x7 x8 x11 x12) (mat11 x6)))
        (dot128 (meanAgg (val_main_v105 (F := Ideal) x0 x1 x2 x3 x4 x5 x6 x7 x8 x9 x10 x13 x14) x11 x12) (mat11 x7))) (biasArr (row11 x8))) zeroArr := rfl

/-! ## The two results -/

/-- The first result: the second layer's rows of the first node type, each divided by its floored norm. -/
theorem out0 : val_main_v211 (F := Ideal) x0 x1 x2 x3 x4 x5 x6 x7 x8 x9 x10 x11 x12 x13 x14 =
    l2n (relu (rform3 (u1 x0 x1 x2 x3 x4 x5 x6 x7 x8 x9 x10 x13 x14) (mat10 x6 : Mat 128 128) (meanAgg (F := Ideal) (u1 x0 x1 x2 x3 x4 x5 x6 x7 x8 x9 x10 x13 x14) x9 x10 : Mat 100000 128)
      (mat10 x7 : Mat 128 128) (row10 x8 : Row 128) (mat12 x6 : Mat 128 128)
      (meanAgg (F := Ideal) (i1 x0 x1 x2 x3 x4 x5 x6 x7 x8 x11 x12) x13 x14 : Mat 100000 128) (mat12 x7 : Mat 128 128) (row12 x8 : Row 128))) := by
  have e : val_main_v211 (F := Ideal) x0 x1 x2 x3 x4 x5 x6 x7 x8 x9 x10 x11 x12 x13 x14 = normalize (val_main_v202 (F := Ideal) x0 x1 x2 x3 x4 x5 x6 x7 x8 x9 x10 x11 x12 x13 x14) := rfl
  rw [e, normalize_eq, v202_shape, v105_eq, v106_eq]
  exact congrArg (l2n (R := 100000) (N := 128)) (chain3 _ _ _ _ _ _ _ _ _)

/-- The second result: the second layer's rows of the second node type, each divided by its floored norm. -/
theorem out1 : val_main_v219 (F := Ideal) x0 x1 x2 x3 x4 x5 x6 x7 x8 x9 x10 x11 x12 x13 x14 =
    l2n (relu (rform2 (i1 x0 x1 x2 x3 x4 x5 x6 x7 x8 x11 x12) (mat11 x6 : Mat 128 128) (meanAgg (F := Ideal) (u1 x0 x1 x2 x3 x4 x5 x6 x7 x8 x9 x10 x13 x14) x11 x12 : Mat 100000 128)
      (mat11 x7 : Mat 128 128) (row11 x8 : Row 128))) := by
  have e : val_main_v219 (F := Ideal) x0 x1 x2 x3 x4 x5 x6 x7 x8 x9 x10 x11 x12 x13 x14 = normalize (val_main_v203 (F := Ideal) x0 x1 x2 x3 x4 x5 x6 x7 x8 x9 x10 x11 x12 x13 x14) := rfl
  rw [e, normalize_eq, v203_shape, v105_eq, v106_eq]
  exact congrArg (l2n (R := 100000) (N := 128)) (chain2 _ _ _ _ _)

end Cert.ReferenceIdeal.RefValue

end
-- ==== Proof.Net.lean ====
/-
  The two forms of the whole two-layer network, over abstract aggregations.

  `aUU`, `aUI`, `aIU` are the three mean aggregations (one per relation), applied to a node type's feature array; the
  weights are the twelve `128 × 128` matrices and six bias rows of the two layers.  The summed-weights form (`kU2`, `kI2`)
  and the accumulate-from-zero form (`rU2`, `rI2`) give the same arrays, provided the projected features, the first layer's
  weights of the first node type and the two self-weights of its second layer are real and the aggregations keep real
  arrays real: then the first layer's output of the first node type is real, which is what lets its product with a sum of two
  real matrices split at the second layer.  The second node type has one relation only, and its two forms differ by the
  `0 +` alone.
-/
import proofs.«164584_j12077448036842_1_alg».proof.Proof.Spec

noncomputable section

namespace Cert.Sage

open Idealize.ShloMosaic Cert.RealEntries

section Net

variable (aUU aUI aIU : Mat 100000 128 → Mat 100000 128)
variable (hu hi : Mat 100000 128)
variable (S00 S01 S02 N00 N01 N02 S10 S11 S12 N10 N11 N12 : Mat 128 128) (b00 b01 b02 b10 b11 b12 : Row 128)

/-- First layer, first node type, summed self-weights. -/
def kU1 : Mat 100000 128 := relu (kform3 hu (wsum S00 S02) (aUU hu) N00 (aIU hi) N02 (bsum b00 b02))
/-- First layer, second node type. -/
def kI1 : Mat 100000 128 := relu (kform2 hi S01 (aUI hu) N01 b01)
/-- First layer, first node type, accumulated from zero. -/
def rU1 : Mat 100000 128 := relu (rform3 hu S00 (aUU hu) N00 b00 S02 (aIU hi) N02 b02)
/-- First layer, second node type, accumulated from zero. -/
def rI1 : Mat 100000 128 := relu (rform2 hi S01 (aUI hu) N01 b01)

/-- The first node type's result, summed self-weights. -/
def kU2 : Mat 100000 128 :=
  l2n (relu (kform3 (kU1 aUU aIU hu hi S00 S02 N00 N02 b00 b02) (wsum S10 S12)
    (aUU (kU1 aUU aIU hu hi S00 S02 N00 N02 b00 b02)) N10 (aIU (kI1 aUI hu hi S01 N01 b01)) N12 (bsum b10 b12)))
/-- The second node type's result. -/
def kI2 : Mat 100000 128 :=
  l2n (relu (kform2 (kI1 aUI hu hi S01 N01 b01) S11 (aUI (kU1 aUU aIU hu hi S00 S02 N00 N02 b00 b02)) N11 b11))
/-- The first node type's result, accumulated from zero. -/
def rU2 : Mat 100000 128 :=
  l2n (relu (rform3 (rU1 aUU aIU hu hi S00 S02 N00 N02 b00 b02) S10
    (aUU (rU1 aUU aIU hu hi S00 S02 N00 N02 b00 b02)) N10 b10 S12 (aIU (rI1 aUI hu hi S01 N01 b01)) N12 b12))
/-- The second node type's result, accumulated from zero. -/
def rI2 : Mat 100000 128 :=
  l2n (relu (rform2 (rI1 aUI hu hi S01 N01 b01) S11 (aUI (rU1 aUU aIU hu hi S00 S02 N00 N02 b00 b02)) N11 b11))

theorem I1_eq : kI1 aUI hu hi S01 N01 b01 = rI1 aUI hu hi S01 N01 b01 := by
  unfold kI1 rI1; rw [kform2_eq_rform2]

theorem U1_eq (hhu : ∀ i, IsR (hu i)) (h00 : ∀ i, IsR (S00 i)) (h02 : ∀ i, IsR (S02 i)) :
    kU1 aUU aIU hu hi S00 S02 N00 N02 b00 b02 = rU1 aUU aIU hu hi S00 S02 N00 N02 b00 b02 := by
  unfold kU1 rU1; rw [kform3_eq_rform3 hu S00 S02 (aUU hu) N00 (aIU hi) N02 b00 b02 hhu h00 h02]

/-- The first layer's output of the first node type is real. -/
theorem kU1_real (hUU : ∀ h : Mat 100000 128, (∀ i, IsR (h i)) → ∀ i, IsR (aUU h i))
    (hIU : ∀ h : Mat 100000 128, (∀ i, IsR (h i)) → ∀ i, IsR (aIU h i))
    (hhu : ∀ i, IsR (hu i)) (hhi : ∀ i, IsR (hi i)) (h00 : ∀ i, IsR (S00 i)) (h02 : ∀ i, IsR (S02 i))
    (n00 : ∀ i, IsR (N00 i)) (n02 : ∀ i, IsR (N02 i)) (hb0 : ∀ i, IsR (b00 i)) (hb2 : ∀ i, IsR (b02 i)) :
    ∀ i, IsR (kU1 aUU aIU hu hi S00 S02 N00 N02 b00 b02 i) := by
  unfold kU1
  exact relu_real _ (kform3_real hu (wsum S00 S02) (aUU hu) N00 (aIU hi) N02 (bsum b00 b02) hhu (wsum_real S00 S02 h00 h02)
    (hUU hu hhu) n00 (hIU hi hhi) n02 (bsum_real b00 b02 hb0 hb2))

theorem U2_eq (hUU : ∀ h : Mat 100000 128, (∀ i, IsR (h i)) → ∀ i, IsR (aUU h i))
    (hIU : ∀ h : Mat 100000 128, (∀ i, IsR (h i)) → ∀ i, IsR (aIU h i))
    (hhu : ∀ i, IsR (hu i)) (hhi : ∀ i, IsR (hi i)) (h00 : ∀ i, IsR (S00 i)) (h02 : ∀ i, IsR (S02 i))
    (n00 : ∀ i, IsR (N00 i)) (n02 : ∀ i, IsR (N02 i)) (hb0 : ∀ i, IsR (b00 i)) (hb2 : ∀ i, IsR (b02 i))
    (h10 : ∀ i, IsR (S10 i)) (h12 : ∀ i, IsR (S12 i)) :
    kU2 aUU aUI aIU hu hi S00 S01 S02 N00 N01 N02 S10 S12 N10 N12 b00 b01 b02 b10 b12
      = rU2 aUU aUI aIU hu hi S00 S01 S02 N00 N01 N02 S10 S12 N10 N12 b00 b01 b02 b10 b12 := by
  have hr := kU1_real aUU aIU hu hi S00 S02 N00 N02 b00 b02 hUU hIU hhu hhi h00 h02 n00 n02 hb0 hb2
  unfold kU2 rU2
  rw [kform3_eq_rform3 _ S10 S12 _ N10 _ N12 b10 b12 hr h10 h12, I1_eq, U1_eq aUU aIU hu hi S00 S02 N00 N02 b00 b02 hhu h00 h02]

theorem I2_eq (hhu : ∀ i, IsR (hu i)) (h00 : ∀ i, IsR (S00 i)) (h02 : ∀ i, IsR (S02 i)) :
    kI2 aUU aUI aIU hu hi S00 S01 S02 N00 N01 N02 S11 N11 b00 b01 b02 b11
      = rI2 aUU aUI aIU hu hi S00 S01 S02 N00 N01 N02 S11 N11 b00 b01 b02 b11 := by
  unfold kI2 rI2
  rw [kform2_eq_rform2, I1_eq, U1_eq aUU aIU hu hi S00 S02 N00 N02 b00 b02 hhu h00 h02]

end Net

end Cert.Sage

end
-- ==== Proof.Bridge.lean ====
/-
  FROM THE KERNEL'S FORMULA TO THE REFERENCE'S, ACROSS THE TWO PROGRAMS' VOCABULARIES.

  The two programs print the same host chains (the mean aggregation along an edge list, the eighteen slices of the stacked
  weight and bias arrays) over shapes that are names for the same literals and records with the same fields, so a chain
  named over one program's vocabulary IS the chain named over the other's (`terms_agg`, `terms_mat00` … `terms_row12`).
  The kernel's two results, written with the host's entrywise sums of the self-weights and of the biases, are the
  summed-self-weights form of the network (`U2_eq_kU2`, `I2_eq_kI2`: the host's sum of two arrays of extended reals is the
  entrywise sum).  The network law then carries that form to the accumulate-from-zero form, given that the projected
  features, the first layer's weights and biases into the first node type and the second layer's two self-weights are real
  and that the aggregations into the first node type keep real arrays real (`u2_bridge`); the second node type has a
  single relation and needs the first node type's first layer only (`i2_bridge`).
-/
import proofs.«164584_j12077448036842_1_alg».proof.Proof.KForm
import proofs.«164584_j12077448036842_1_alg».proof.Proof.RTerms
import proofs.«164584_j12077448036842_1_alg».proof.Proof.Net
import proofs.«164584_j12077448036842_1_alg».proof.Proof.Gen.KernelIdeal
import proofs.«164584_j12077448036842_1_alg».proof.Proof.Gen.ReferenceIdeal

noncomputable section

namespace Cert.Bridge

open Idealize.ShloMosaic Cert.Sage
open Cert.RealEntries (IsR)

variable [Cert.KernelIdeal.Facts₀] [Cert.ReferenceIdeal.Facts₀]

/-- The mean aggregation named over the reference program's shapes is the one named over the kernel program's. -/
theorem terms_agg (h : (⟨Cert.KernelIdeal.S100000x128, .f32⟩ : BufTy).Contents (Elt Ideal))
    (s d : (⟨Cert.KernelIdeal.S600000, .i32⟩ : BufTy).Contents (Elt Ideal)) :
    Cert.ReferenceIdeal.Terms.meanAgg (F := Ideal) h s d = Cert.KernelIdeal.Terms.meanAgg (F := Ideal) h s d := rfl

theorem terms_mat00 (x : (⟨Cert.KernelIdeal.S2x3x128x128, .f32⟩ : BufTy).Contents (Elt Ideal)) :
    Cert.ReferenceIdeal.Terms.mat00 (F := Ideal) x = Cert.KernelIdeal.Terms.mat00 (F := Ideal) x := rfl
theorem terms_mat01 (x : (⟨Cert.KernelIdeal.S2x3x128x128, .f32⟩ : BufTy).Contents (Elt Ideal)) :
    Cert.ReferenceIdeal.Terms.mat01 (F := Ideal) x = Cert.KernelIdeal.Terms.mat01 (F := Ideal) x := rfl
theorem terms_mat02 (x : (⟨Cert.KernelIdeal.S2x3x128x128, .f32⟩ : BufTy).Contents (Elt Ideal)) :
    Cert.ReferenceIdeal.Terms.mat02 (F := Ideal) x = Cert.KernelIdeal.Terms.mat02 (F := Ideal) x := rfl
theorem terms_mat10 (x : (⟨Cert.KernelIdeal.S2x3x128x128, .f32⟩ : BufTy).Contents (Elt Ideal)) :
    Cert.ReferenceIdeal.Terms.mat10 (F := Ideal) x = Cert.KernelIdeal.Terms.mat10 (F := Ideal) x := rfl
theorem terms_mat11 (x : (⟨Cert.KernelIdeal.S2x3x128x128, .f32⟩ : BufTy).Contents (Elt Ideal)) :
    Cert.ReferenceIdeal.Terms.mat11 (F := Ideal) x = Cert.KernelIdeal.Terms.mat11 (F := Ideal) x := rfl
theorem terms_mat12 (x : (⟨Cert.KernelIdeal.S2x3x128x128, .f32⟩ : BufTy).Contents (Elt Ideal)) :
    Cert.ReferenceIdeal.Terms.mat12 (F := Ideal) x = Cert.KernelIdeal.Terms.mat12 (F := Ideal) x := rfl
theorem terms_row00 (x : (⟨Cert.KernelIdeal.S2x3x128, .f32⟩ : BufTy).Contents (Elt Ideal)) :
    Cert.ReferenceIdeal.Terms.row00 (F := Ideal) x = Cert.KernelIdeal.Terms.row00 (F := Ideal) x := rfl
theorem terms_row01 (x : (⟨Cert.KernelIdeal.S2x3x128, .f32⟩ : BufTy).Contents (Elt Ideal)) :
    Cert.ReferenceIdeal.Terms.row01 (F := Ideal) x = Cert.KernelIdeal.Terms.row01 (F := Ideal) x := rfl
theorem terms_row02 (x : (⟨Cert.KernelIdeal.S2x3x128, .f32⟩ : BufTy).Contents (Elt Ideal)) :
    Cert.ReferenceIdeal.Terms.row02 (F := Ideal) x = Cert.KernelIdeal.Terms.row02 (F := Ideal) x := rfl
theorem terms_row10 (x : (⟨Cert.KernelIdeal.S2x3x128, .f32⟩ : BufTy).Contents (Elt Ideal)) :
    Cert.ReferenceIdeal.Terms.row10 (F := Ideal) x = Cert.KernelIdeal.Terms.row10 (F := Ideal) x := rfl
theorem terms_row11 (x : (⟨Cert.KernelIdeal.S2x3x128, .f32⟩ : BufTy).Contents (Elt Ideal)) :
    Cert.ReferenceIdeal.Terms.row11 (F := Ideal) x = Cert.KernelIdeal.Terms.row11 (F := Ideal) x := rfl
theorem terms_row12 (x : (⟨Cert.KernelIdeal.S2x3x128, .f32⟩ : BufTy).Contents (Elt Ideal)) :
    Cert.ReferenceIdeal.Terms.row12 (F := Ideal) x = Cert.KernelIdeal.Terms.row12 (F := Ideal) x := rfl

open Cert.KernelIdeal.Form (HU HI)

/-- The kernel's first result is the summed-self-weights form of the network over the kernel program's named terms: the
    host's entrywise sum of two arrays is `wsum` / `bsum`. -/
theorem U2_eq_kU2 (a0 : (⟨Cert.KernelIdeal.S100000x256, .f32⟩ : BufTy).Contents (Elt Ideal))
    (a1 : (⟨Cert.KernelIdeal.S100000x64, .f32⟩ : BufTy).Contents (Elt Ideal))
    (a2 : (⟨Cert.KernelIdeal.S256x128, .f32⟩ : BufTy).Contents (Elt Ideal))
    (a3 : (⟨Cert.KernelIdeal.S128, .f32⟩ : BufTy).Contents (Elt Ideal))
    (a4 : (⟨Cert.KernelIdeal.S64x128, .f32⟩ : BufTy).Contents (Elt Ideal))
    (a5 : (⟨Cert.KernelIdeal.S128, .f32⟩ : BufTy).Contents (Elt Ideal))
    (a6 a7 : (⟨Cert.KernelIdeal.S2x3x128x128, .f32⟩ : BufTy).Contents (Elt Ideal))
    (a8 : (⟨Cert.KernelIdeal.S2x3x128, .f32⟩ : BufTy).Contents (Elt Ideal))
    (a9 a10 a11 a12 a13 a14 : (⟨Cert.KernelIdeal.S600000, .i32⟩ : BufTy).Contents (Elt Ideal)) :
    Cert.KernelIdeal.Form.U2 a0 a1 a2 a3 a4 a5 a6 a7 a8 a9 a10 a11 a12 a13 a14
      = kU2 (fun h => Cert.KernelIdeal.Terms.meanAgg (F := Ideal) h a9 a10) (fun h => Cert.KernelIdeal.Terms.meanAgg (F := Ideal) h a11 a12)
        (fun h => Cert.KernelIdeal.Terms.meanAgg (F := Ideal) h a13 a14) (HU a0 a2 a3) (HI a1 a4 a5)
        (Cert.KernelIdeal.Terms.mat00 (F := Ideal) a6) (Cert.KernelIdeal.Terms.mat01 (F := Ideal) a6) (Cert.KernelIdeal.Terms.mat02 (F := Ideal) a6) (Cert.KernelIdeal.Terms.mat00 (F := Ideal) a7) (Cert.KernelIdeal.Terms.mat01 (F := Ideal) a7) (Cert.KernelIdeal.Terms.mat02 (F := Ideal) a7)
        (Cert.KernelIdeal.Terms.mat10 (F := Ideal) a6) (Cert.KernelIdeal.Terms.mat12 (F := Ideal) a6) (Cert.KernelIdeal.Terms.mat10 (F := Ideal) a7) (Cert.KernelIdeal.Terms.mat12 (F := Ideal) a7)
        (Cert.KernelIdeal.Terms.row00 (F := Ideal) a8) (Cert.KernelIdeal.Terms.row01 (F := Ideal) a8) (Cert.KernelIdeal.Terms.row02 (F := Ideal) a8) (Cert.KernelIdeal.Terms.row10 (F := Ideal) a8) (Cert.KernelIdeal.Terms.row12 (F := Ideal) a8) := rfl

/-- The kernel's second result, likewise. -/
theorem I2_eq_kI2 (a0 : (⟨Cert.KernelIdeal.S100000x256, .f32⟩ : BufTy).Contents (Elt Ideal))
    (a1 : (⟨Cert.KernelIdeal.S100000x64, .f32⟩ : BufTy).Contents (Elt Ideal))
    (a2 : (⟨Cert.KernelIdeal.S256x128, .f32⟩ : BufTy).Contents (Elt Ideal))
    (a3 : (⟨Cert.KernelIdeal.S128, .f32⟩ : BufTy).Contents (Elt Ideal))
    (a4 : (⟨Cert.KernelIdeal.S64x128, .f32⟩ : BufTy).Contents (Elt Ideal))
    (a5 : (⟨Cert.KernelIdeal.S128, .f32⟩ : BufTy).Contents (Elt Ideal))
    (a6 a7 : (⟨Cert.KernelIdeal.S2x3x128x128, .f32⟩ : BufTy).Contents (Elt Ideal))
    (a8 : (⟨Cert.KernelIdeal.S2x3x128, .f32⟩ : BufTy).Contents (Elt Ideal))
    (a9 a10 a11 a12 a13 a14 : (⟨Cert.KernelIdeal.S600000, .i32⟩ : BufTy).Contents (Elt Ideal)) :
    Cert.KernelIdeal.Form.I2 a0 a1 a2 a3 a4 a5 a6 a7 a8 a9 a10 a11 a12 a13 a14
      = kI2 (fun h => Cert.KernelIdeal.Terms.meanAgg (F := Ideal) h a9 a10) (fun h => Cert.KernelIdeal.Terms.meanAgg (F := Ideal) h a11 a12)
        (fun h => Cert.KernelIdeal.Terms.meanAgg (F := Ideal) h a13 a14) (HU a0 a2 a3) (HI a1 a4 a5)
        (Cert.KernelIdeal.Terms.mat00 (F := Ideal) a6) (Cert.KernelIdeal.Terms.mat01 (F := Ideal) a6) (Cert.KernelIdeal.Terms.mat02 (F := Ideal) a6) (Cert.KernelIdeal.Terms.mat00 (F := Ideal) a7) (Cert.KernelIdeal.Terms.mat01 (F := Ideal) a7) (Cert.KernelIdeal.Terms.mat02 (F := Ideal) a7)
        (Cert.KernelIdeal.Terms.mat11 (F := Ideal) a6) (Cert.KernelIdeal.Terms.mat11 (F := Ideal) a7)
        (Cert.KernelIdeal.Terms.row00 (F := Ideal) a8) (Cert.KernelIdeal.Terms.row01 (F := Ideal) a8) (Cert.KernelIdeal.Terms.row02 (F := Ideal) a8) (Cert.KernelIdeal.Terms.row11 (F := Ideal) a8) := rfl

/-- The kernel's first result is the accumulate-from-zero form over the reference program's named terms, where the
    projected features, the first layer's weights and biases of the first node type and the second layer's two
    self-weights are real and the two aggregations into the first node type keep real arrays real. -/
theorem u2_bridge (a0 : (⟨Cert.KernelIdeal.S100000x256, .f32⟩ : BufTy).Contents (Elt Ideal))
    (a1 : (⟨Cert.KernelIdeal.S100000x64, .f32⟩ : BufTy).Contents (Elt Ideal))
    (a2 : (⟨Cert.KernelIdeal.S256x128, .f32⟩ : BufTy).Contents (Elt Ideal))
    (a3 : (⟨Cert.KernelIdeal.S128, .f32⟩ : BufTy).Contents (Elt Ideal))
    (a4 : (⟨Cert.KernelIdeal.S64x128, .f32⟩ : BufTy).Contents (Elt Ideal))
    (a5 : (⟨Cert.KernelIdeal.S128, .f32⟩ : BufTy).Contents (Elt Ideal))
    (a6 a7 : (⟨Cert.KernelIdeal.S2x3x128x128, .f32⟩ : BufTy).Contents (Elt Ideal))
    (a8 : (⟨Cert.KernelIdeal.S2x3x128, .f32⟩ : BufTy).Contents (Elt Ideal))
    (a9 a10 a11 a12 a13 a14 : (⟨Cert.KernelIdeal.S600000, .i32⟩ : BufTy).Contents (Elt Ideal))
    (hHU : ∀ i, IsR (HU a0 a2 a3 i)) (hHI : ∀ i, IsR (HI a1 a4 a5 i))
    (hUU : ∀ h : Mat 100000 128, (∀ i, IsR (h i)) → ∀ i, IsR (Cert.KernelIdeal.Terms.meanAgg (F := Ideal) h a9 a10 i))
    (hIU : ∀ h : Mat 100000 128, (∀ i, IsR (h i)) → ∀ i, IsR (Cert.KernelIdeal.Terms.meanAgg (F := Ideal) h a13 a14 i))
    (h00 : ∀ i, IsR (Cert.KernelIdeal.Terms.mat00 (F := Ideal) a6 i)) (h02 : ∀ i, IsR (Cert.KernelIdeal.Terms.mat02 (F := Ideal) a6 i))
    (n00 : ∀ i, IsR (Cert.KernelIdeal.Terms.mat00 (F := Ideal) a7 i)) (n02 : ∀ i, IsR (Cert.KernelIdeal.Terms.mat02 (F := Ideal) a7 i))
    (hb0 : ∀ i, IsR (Cert.KernelIdeal.Terms.row00 (F := Ideal) a8 i)) (hb2 : ∀ i, IsR (Cert.KernelIdeal.Terms.row02 (F := Ideal) a8 i))
    (h10 : ∀ i, IsR (Cert.KernelIdeal.Terms.mat10 (F := Ideal) a6 i)) (h12 : ∀ i, IsR (Cert.KernelIdeal.Terms.mat12 (F := Ideal) a6 i)) :
    Cert.KernelIdeal.Form.U2 a0 a1 a2 a3 a4 a5 a6 a7 a8 a9 a10 a11 a12 a13 a14
      = rU2 (fun h => Cert.ReferenceIdeal.Terms.meanAgg (F := Ideal) h a9 a10) (fun h => Cert.ReferenceIdeal.Terms.meanAgg (F := Ideal) h a11 a12)
        (fun h => Cert.ReferenceIdeal.Terms.meanAgg (F := Ideal) h a13 a14) (HU a0 a2 a3) (HI a1 a4 a5)
        (Cert.ReferenceIdeal.Terms.mat00 (F := Ideal) a6) (Cert.ReferenceIdeal.Terms.mat01 (F := Ideal) a6) (Cert.ReferenceIdeal.Terms.mat02 (F := Ideal) a6) (Cert.ReferenceIdeal.Terms.mat00 (F := Ideal) a7) (Cert.ReferenceIdeal.Terms.mat01 (F := Ideal) a7) (Cert.ReferenceIdeal.Terms.mat02 (F := Ideal) a7)
        (Cert.ReferenceIdeal.Terms.mat10 (F := Ideal) a6) (Cert.ReferenceIdeal.Terms.mat12 (F := Ideal) a6) (Cert.ReferenceIdeal.Terms.mat10 (F := Ideal) a7) (Cert.ReferenceIdeal.Terms.mat12 (F := Ideal) a7)
        (Cert.ReferenceIdeal.Terms.row00 (F := Ideal) a8) (Cert.ReferenceIdeal.Terms.row01 (F := Ideal) a8) (Cert.ReferenceIdeal.Terms.row02 (F := Ideal) a8) (Cert.ReferenceIdeal.Terms.row10 (F := Ideal) a8) (Cert.ReferenceIdeal.Terms.row12 (F := Ideal) a8) := by
  rw [U2_eq_kU2, U2_eq _ _ _ _ _ _ _ _ _ _ _ _ _ _ _ _ _ _ _ _ hUU hIU hHU hHI h00 h02 n00 n02 hb0 hb2 h10 h12]
  rfl

/-- The kernel's second result is the accumulate-from-zero form over the reference program's named terms, where the
    first node type's projected features and its first layer's two self-weights are real. -/
theorem i2_bridge (a0 : (⟨Cert.KernelIdeal.S100000x256, .f32⟩ : BufTy).Contents (Elt Ideal))
    (a1 : (⟨Cert.KernelIdeal.S100000x64, .f32⟩ : BufTy).Contents (Elt Ideal))
    (a2 : (⟨Cert.KernelIdeal.S256x128, .f32⟩ : BufTy).Contents (Elt Ideal))
    (a3 : (⟨Cert.KernelIdeal.S128, .f32⟩ : BufTy).Contents (Elt Ideal))
    (a4 : (⟨Cert.KernelIdeal.S64x128, .f32⟩ : BufTy).Contents (Elt Ideal))
    (a5 : (⟨Cert.KernelIdeal.S128, .f32⟩ : BufTy).Contents (Elt Ideal))
    (a6 a7 : (⟨Cert.KernelIdeal.S2x3x128x128, .f32⟩ : BufTy).Contents (Elt Ideal))
    (a8 : (⟨Cert.KernelIdeal.S2x3x128, .f32⟩ : BufTy).Contents (Elt Ideal))
    (a9 a10 a11 a12 a13 a14 : (⟨Cert.KernelIdeal.S600000, .i32⟩ : BufTy).Contents (Elt Ideal))
    (hHU : ∀ i, IsR (HU a0 a2 a3 i))
    (h00 : ∀ i, IsR (Cert.KernelIdeal.Terms.mat00 (F := Ideal) a6 i)) (h02 : ∀ i, IsR (Cert.KernelIdeal.Terms.mat02 (F := Ideal) a6 i)) :
    Cert.KernelIdeal.Form.I2 a0 a1 a2 a3 a4 a5 a6 a7 a8 a9 a10 a11 a12 a13 a14
      = rI2 (fun h => Cert.ReferenceIdeal.Terms.meanAgg (F := Ideal) h a9 a10) (fun h => Cert.ReferenceIdeal.Terms.meanAgg (F := Ideal) h a11 a12)
        (fun h => Cert.ReferenceIdeal.Terms.meanAgg (F := Ideal) h a13 a14) (HU a0 a2 a3) (HI a1 a4 a5)
        (Cert.ReferenceIdeal.Terms.mat00 (F := Ideal) a6) (Cert.ReferenceIdeal.Terms.mat01 (F := Ideal) a6) (Cert.ReferenceIdeal.Terms.mat02 (F := Ideal) a6) (Cert.ReferenceIdeal.Terms.mat00 (F := Ideal) a7) (Cert.ReferenceIdeal.Terms.mat01 (F := Ideal) a7) (Cert.ReferenceIdeal.Terms.mat02 (F := Ideal) a7)
        (Cert.ReferenceIdeal.Terms.mat11 (F := Ideal) a6) (Cert.ReferenceIdeal.Terms.mat11 (F := Ideal) a7)
        (Cert.ReferenceIdeal.Terms.row00 (F := Ideal) a8) (Cert.ReferenceIdeal.Terms.row01 (F := Ideal) a8) (Cert.ReferenceIdeal.Terms.row02 (F := Ideal) a8) (Cert.ReferenceIdeal.Terms.row11 (F := Ideal) a8) := by
  rw [I2_eq_kI2, I2_eq _ _ _ _ _ _ _ _ _ _ _ _ _ _ _ _ _ hHU h00 h02]
  rfl

end Cert.Bridge

end
-- ==== Proof.AggReal.lean ====
/-
  Real entries through the host operations the two programs share.

  The mean aggregation along an edge list gathers rows of the feature array, adds them into their destination rows
  from zero, and divides each sum by the larger of the destination's edge count and one.  Where every feature is a real
  number so is every mean: a gathered entry is an entry of the feature array whatever its start index; a scatter's
  entry is the operand's entry plus a finite sum of update entries; the count is such a sum of ones; the larger of a
  real count and one is a real number that is not zero; and a real number divided by a nonzero real number is the
  product with its reciprocal.  The slices of the stacked weight and bias arrays are re-indexings, so their entries are
  entries of the stacked array.
-/
import proofs.«164584_j12077448036842_1_alg».proof.Proof.KTerms
import proofs.«164584_j12077448036842_1_alg».proof.Proof.LibRealEntries
import Idealize.ShloMosaic.PureOps.Ideal
import Idealize.ShloMosaic.PureOps.Ideal.Laws
import Idealize.ShloMosaic.Lib.ValueIdx

noncomputable section

open scoped BigOperators

namespace Cert.KernelIdeal.AggReal

open Cert.KernelIdeal Idealize.ShloMosaic Idealize.ShloMosaic.ValueIdx Cert.RealEntries Cert.KernelIdeal.Terms

variable [Facts₀]
open Facts₀

/-! ## Re-indexings read entries of their operand -/

/-- A gather's entry is an entry of its operand, whatever the start indices are. -/
theorem gather_real {s si t : Shape} {w : ℕ} (d : GatherDims s si t) (x : s.Idx → EReal) (idx : IVec si w)
    (hx : ∀ i, IsR (x i)) (j : t.Idx) : IsR (Host.gather d x idx j) := hx _

/-- A broadcast's entry is an entry of its operand. -/
theorem bcast_real {s : Shape} (t : Shape) (dims : Fin s.rank → Fin t.rank) (hb : s.BroadcastsInDim t dims)
    (x : s.Idx → EReal) (hx : ∀ i, IsR (x i)) (j : t.Idx) : IsR (broadcastInDim t dims hb x j) := hx _

/-- A reshape's entry is an entry of its operand. -/
theorem shapeCast_real {s : Shape} (t : Shape) (x : s.Idx → EReal) (hc : s.ShapeCasts t)
    (hx : ∀ i, IsR (x i)) (j : t.Idx) : IsR (shapeCast t x hc j) := hx _

/-- A slice's entry is an entry of its operand. -/
theorem slice_real {s : Shape} (t : Shape) (off : Fin s.rank → ℕ) (x : s.Idx → EReal) (hs : s.Slices off t)
    (hx : ∀ i, IsR (x i)) (j : t.Idx) : IsR (extractStridedSlice t off x hs j) := hx _

/-! ## The two constants -/

/-- The all-zero word is the real number zero, at every index of any shape. -/
theorem zero_const_real (s : Shape) (i : s.Idx) : IsR (constant (F := Ideal) s .f32 0x00000000#32 i) := by
  show IsR (Ideal.ofBits .f32 0x00000000#32)
  rw [Ideal.ofBits_zero_f32]; exact IsR.zero

/-- The word of one is the real number one, at every index of any shape. -/
theorem one_const_real (s : Shape) (i : s.Idx) : IsR (constant (F := Ideal) s .f32 0x3F800000#32 i) := by
  show IsR (Ideal.ofBits .f32 0x3F800000#32)
  rw [Cert.NormSum.one_word]; exact IsR.one

/-! ## The accumulating scatter keeps real entries -/

/-- Each entry of an accumulating scatter is the operand's entry plus a finite sum of update entries. -/
theorem scatterAdd_real {s si u : Shape} {w : ℕ} (d : ScatterDims s si u) (x : FVec Ideal s .f32) (idx : IVec si w)
    (upd : FVec Ideal u .f32) (hx : ∀ i, IsR (x i)) (hu : ∀ j, IsR (upd j)) (i : s.Idx) :
    IsR (Host.scatterAdd d x idx upd i) := by
  show IsR (Ideal.hostScatterAdd d x idx upd i)
  unfold Ideal.hostScatterAdd
  exact (hx i).add (IsR.sum _ _ fun j _ => hu j)

/-! ## The quotient by a count floored at one -/

/-- The larger of a real number and one is a nonzero real number. -/
theorem max_one_real {x : EReal} (hx : IsR x) : ∃ r : ℝ, r ≠ 0 ∧ max x 1 = (r : EReal) := by
  obtain ⟨r, rfl⟩ := hx
  refine ⟨max r 1, ?_, ?_⟩
  · have h1 : (1 : ℝ) ≤ max r 1 := le_max_right _ _
    intro h0; rw [h0] at h1; exact absurd h1 (by norm_num)
  · rw [← EReal.coe_one]; exact (EReal.coe_strictMono.monotone.map_max).symm

/-- The larger of a real array and the array of ones, read through a broadcast, is a nonzero real number. -/
theorem bcast_max_one {s t : Shape} (dims : Fin s.rank → Fin t.rank) (hb : s.BroadcastsInDim t dims)
    (dims0 : Fin S_.rank → Fin s.rank) (hb0 : S_.BroadcastsInDim s dims0) (x : FVec Ideal s .f32)
    (hx : ∀ i, IsR (x i)) (j : t.Idx) :
    ∃ r : ℝ, r ≠ 0 ∧
      broadcastInDim t dims hb (maximumf x (broadcastInDim s dims0 hb0 (constant S_ .f32 0x3F800000#32))) j = (r : EReal) := by
  show ∃ r : ℝ, r ≠ 0 ∧ max (x _) (Ideal.ofBits .f32 0x3F800000#32) = (r : EReal)
  rw [Cert.NormSum.one_word]; exact max_one_real (hx _)

/-- A real number divided by a nonzero real number is a real number. -/
theorem div_real {x y : EReal} (hx : IsR x) (hy : ∃ r : ℝ, r ≠ 0 ∧ y = (r : EReal)) : IsR (Ideal.div x y) := by
  obtain ⟨r, hr, rfl⟩ := hy
  rw [Ideal.div_coe hr]; exact hx.mul (IsR.coe _)

/-! ## The mean aggregation -/

/-- Every mean of real feature rows is a real number. -/
theorem meanAgg_real (h : (⟨S100000x128, .f32⟩ : BufTy).Contents (Elt Ideal))
    (src dst : (⟨S600000, .i32⟩ : BufTy).Contents (Elt Ideal)) (hh : ∀ i, IsR (h i)) (i : S100000x128.Idx) :
    IsR (meanAgg (F := Ideal) h src dst i) := by
  unfold meanAgg Host.divf
  rw [Ideal.hostDivf_def]
  exact div_real
    (scatterAdd_real _ _ _ _ (fun j => bcast_real _ _ _ _ (fun k => zero_const_real _ k) j)
      (fun j => gather_real _ _ _ hh j) i)
    (bcast_max_one _ _ _ _ _
      (fun j => scatterAdd_real _ _ _ _ (fun k => bcast_real _ _ _ _ (fun l => zero_const_real _ l) k)
        (fun k => bcast_real _ _ _ _ (fun l => one_const_real _ l) k) j) i)

/-! ## The slices of the stacked weights and biases -/

theorem mat00_real (x : (⟨S2x3x128x128, .f32⟩ : BufTy).Contents (Elt Ideal)) (hx : ∀ i, IsR (x i)) (i : S128x128.Idx) :
    IsR (mat00 (F := Ideal) x i) := hx _

theorem row00_real (x : (⟨S2x3x128, .f32⟩ : BufTy).Contents (Elt Ideal)) (hx : ∀ i, IsR (x i)) (i : S128.Idx) :
    IsR (row00 (F := Ideal) x i) := hx _

theorem mat01_real (x : (⟨S2x3x128x128, .f32⟩ : BufTy).Contents (Elt Ideal)) (hx : ∀ i, IsR (x i)) (i : S128x128.Idx) :
    IsR (mat01 (F := Ideal) x i) := hx _

theorem row01_real (x : (⟨S2x3x128, .f32⟩ : BufTy).Contents (Elt Ideal)) (hx : ∀ i, IsR (x i)) (i : S128.Idx) :
    IsR (row01 (F := Ideal) x i) := hx _

theorem mat02_real (x : (⟨S2x3x128x128, .f32⟩ : BufTy).Contents (Elt Ideal)) (hx : ∀ i, IsR (x i)) (i : S128x128.Idx) :
    IsR (mat02 (F := Ideal) x i) := hx _

theorem row02_real (x : (⟨S2x3x128, .f32⟩ : BufTy).Contents (Elt Ideal)) (hx : ∀ i, IsR (x i)) (i : S128.Idx) :
    IsR (row02 (F := Ideal) x i) := hx _

theorem mat10_real (x : (⟨S2x3x128x128, .f32⟩ : BufTy).Contents (Elt Ideal)) (hx : ∀ i, IsR (x i)) (i : S128x128.Idx) :
    IsR (mat10 (F := Ideal) x i) := hx _

theorem row10_real (x : (⟨S2x3x128, .f32⟩ : BufTy).Contents (Elt Ideal)) (hx : ∀ i, IsR (x i)) (i : S128.Idx) :
    IsR (row10 (F := Ideal) x i) := hx _

theorem mat11_real (x : (⟨S2x3x128x128, .f32⟩ : BufTy).Contents (Elt Ideal)) (hx : ∀ i, IsR (x i)) (i : S128x128.Idx) :
    IsR (mat11 (F := Ideal) x i) := hx _

theorem row11_real (x : (⟨S2x3x128, .f32⟩ : BufTy).Contents (Elt Ideal)) (hx : ∀ i, IsR (x i)) (i : S128.Idx) :
    IsR (row11 (F := Ideal) x i) := hx _

theorem mat12_real (x : (⟨S2x3x128x128, .f32⟩ : BufTy).Contents (Elt Ideal)) (hx : ∀ i, IsR (x i)) (i : S128x128.Idx) :
    IsR (mat12 (F := Ideal) x i) := hx _

theorem row12_real (x : (⟨S2x3x128, .f32⟩ : BufTy).Contents (Elt Ideal)) (hx : ∀ i, IsR (x i)) (i : S128.Idx) :
    IsR (row12 (F := Ideal) x i) := hx _

end Cert.KernelIdeal.AggReal

end
-- ==== Proof.Final.lean ====
/-
  The reference's two results are the kernel's two formulas, for finite inputs.

  The reference's last stages are the accumulate-from-zero forms of the network over its own named host chains; the kernel's
  formulas are carried to the same forms by the network law, whose hypotheses hold here: the projected features are
  rectified sums of products of real inputs, a slice of a real array is real, and the mean aggregation keeps real rows real.
-/
import proofs.«164584_j12077448036842_1_alg».proof.Proof.RefValue
import proofs.«164584_j12077448036842_1_alg».proof.Proof.Bridge
import proofs.«164584_j12077448036842_1_alg».proof.Proof.AggReal
import proofs.«164584_j12077448036842_1_alg».proof.Proof.KForm
import proofs.«164584_j12077448036842_1_alg».proof.Proof.Spec

noncomputable section

namespace Cert.Final

open Idealize.ShloMosaic Cert.Sage Cert.RealEntries
open Cert.KernelIdeal.Form (HU HI)

/-- The first node type's projected features are real where the inputs are. -/
theorem HU_real (a0 : (⟨Cert.KernelIdeal.S100000x256, .f32⟩ : BufTy).Contents (Elt Ideal)) (a2 : (⟨Cert.KernelIdeal.S256x128, .f32⟩ : BufTy).Contents (Elt Ideal)) (a3 : (⟨Cert.KernelIdeal.S128, .f32⟩ : BufTy).Contents (Elt Ideal))
    (r0 : ∀ i, IsR (a0 i)) (r2 : ∀ i, IsR (a2 i)) (r3 : ∀ i, IsR (a3 i)) : ∀ i, IsR (HU a0 a2 a3 i) := by
  unfold Cert.KernelIdeal.Form.HU
  exact relu_real _ (lin1_real _ _ _ r0 r2 r3)

/-- The second node type's projected features are real where the inputs are. -/
theorem HI_real (a1 : (⟨Cert.KernelIdeal.S100000x64, .f32⟩ : BufTy).Contents (Elt Ideal)) (a4 : (⟨Cert.KernelIdeal.S64x128, .f32⟩ : BufTy).Contents (Elt Ideal)) (a5 : (⟨Cert.KernelIdeal.S128, .f32⟩ : BufTy).Contents (Elt Ideal))
    (r1 : ∀ i, IsR (a1 i)) (r4 : ∀ i, IsR (a4 i)) (r5 : ∀ i, IsR (a5 i)) : ∀ i, IsR (HI a1 a4 a5 i) := by
  unfold Cert.KernelIdeal.Form.HI
  exact relu_real _ (lin1_real _ _ _ r1 r4 r5)

/-- The reference's first result is the kernel's first formula. -/
theorem ref_u (a0 : (⟨Cert.KernelIdeal.S100000x256, .f32⟩ : BufTy).Contents (Elt Ideal)) (a1 : (⟨Cert.KernelIdeal.S100000x64, .f32⟩ : BufTy).Contents (Elt Ideal))
    (a2 : (⟨Cert.KernelIdeal.S256x128, .f32⟩ : BufTy).Contents (Elt Ideal)) (a3 : (⟨Cert.KernelIdeal.S128, .f32⟩ : BufTy).Contents (Elt Ideal))
    (a4 : (⟨Cert.KernelIdeal.S64x128, .f32⟩ : BufTy).Contents (Elt Ideal)) (a5 : (⟨Cert.KernelIdeal.S128, .f32⟩ : BufTy).Contents (Elt Ideal))
    (a6 a7 : (⟨Cert.KernelIdeal.S2x3x128x128, .f32⟩ : BufTy).Contents (Elt Ideal)) (a8 : (⟨Cert.KernelIdeal.S2x3x128, .f32⟩ : BufTy).Contents (Elt Ideal))
    (a9 a10 a11 a12 a13 a14 : (⟨Cert.KernelIdeal.S600000, .i32⟩ : BufTy).Contents (Elt Ideal))
    (r0 : ∀ i, IsR (a0 i)) (r1 : ∀ i, IsR (a1 i)) (r2 : ∀ i, IsR (a2 i)) (r3 : ∀ i, IsR (a3 i)) (r4 : ∀ i, IsR (a4 i))
    (r5 : ∀ i, IsR (a5 i)) (r6 : ∀ i, IsR (a6 i)) (r7 : ∀ i, IsR (a7 i)) (r8 : ∀ i, IsR (a8 i)) :
    Cert.ReferenceIdeal.Read.val_main_v211 (F := Ideal) a0 a1 a2 a3 a4 a5 a6 a7 a8 a9 a10 a11 a12 a13 a14 = Cert.KernelIdeal.Form.U2 a0 a1 a2 a3 a4 a5 a6 a7 a8 a9 a10 a11 a12 a13 a14 := by
  rw [Cert.ReferenceIdeal.RefValue.out0,
    Cert.Bridge.u2_bridge a0 a1 a2 a3 a4 a5 a6 a7 a8 a9 a10 a11 a12 a13 a14 (HU_real a0 a2 a3 r0 r2 r3) (HI_real a1 a4 a5 r1 r4 r5)
      (fun h hh i => Cert.KernelIdeal.AggReal.meanAgg_real h a9 a10 hh i)
      (fun h hh i => Cert.KernelIdeal.AggReal.meanAgg_real h a13 a14 hh i)
      (Cert.KernelIdeal.AggReal.mat00_real a6 r6) (Cert.KernelIdeal.AggReal.mat02_real a6 r6)
      (Cert.KernelIdeal.AggReal.mat00_real a7 r7) (Cert.KernelIdeal.AggReal.mat02_real a7 r7)
      (Cert.KernelIdeal.AggReal.row00_real a8 r8) (Cert.KernelIdeal.AggReal.row02_real a8 r8)
      (Cert.KernelIdeal.AggReal.mat10_real a6 r6) (Cert.KernelIdeal.AggReal.mat12_real a6 r6)]
  rfl

/-- The reference's second result is the kernel's second formula. -/
theorem ref_i (a0 : (⟨Cert.KernelIdeal.S100000x256, .f32⟩ : BufTy).Contents (Elt Ideal)) (a1 : (⟨Cert.KernelIdeal.S100000x64, .f32⟩ : BufTy).Contents (Elt Ideal))
    (a2 : (⟨Cert.KernelIdeal.S256x128, .f32⟩ : BufTy).Contents (Elt Ideal)) (a3 : (⟨Cert.KernelIdeal.S128, .f32⟩ : BufTy).Contents (Elt Ideal))
    (a4 : (⟨Cert.KernelIdeal.S64x128, .f32⟩ : BufTy).Contents (Elt Ideal)) (a5 : (⟨Cert.KernelIdeal.S128, .f32⟩ : BufTy).Contents (Elt Ideal))
    (a6 a7 : (⟨Cert.KernelIdeal.S2x3x128x128, .f32⟩ : BufTy).Contents (Elt Ideal)) (a8 : (⟨Cert.KernelIdeal.S2x3x128, .f32⟩ : BufTy).Contents (Elt Ideal))
    (a9 a10 a11 a12 a13 a14 : (⟨Cert.KernelIdeal.S600000, .i32⟩ : BufTy).Contents (Elt Ideal))
    (r0 : ∀ i, IsR (a0 i)) (r1 : ∀ i, IsR (a1 i)) (r2 : ∀ i, IsR (a2 i)) (r3 : ∀ i, IsR (a3 i)) (r4 : ∀ i, IsR (a4 i))
    (r5 : ∀ i, IsR (a5 i)) (r6 : ∀ i, IsR (a6 i)) (r7 : ∀ i, IsR (a7 i)) (r8 : ∀ i, IsR (a8 i)) :
    Cert.ReferenceIdeal.Read.val_main_v219 (F := Ideal) a0 a1 a2 a3 a4 a5 a6 a7 a8 a9 a10 a11 a12 a13 a14 = Cert.KernelIdeal.Form.I2 a0 a1 a2 a3 a4 a5 a6 a7 a8 a9 a10 a11 a12 a13 a14 := by
  rw [Cert.ReferenceIdeal.RefValue.out1,
    Cert.Bridge.i2_bridge a0 a1 a2 a3 a4 a5 a6 a7 a8 a9 a10 a11 a12 a13 a14 (HU_real a0 a2 a3 r0 r2 r3)
      (Cert.KernelIdeal.AggReal.mat00_real a6 r6) (Cert.KernelIdeal.AggReal.mat02_real a6 r6)]
  rfl

end Cert.Final

end
-- ==== Proof.Finite.lean ====
/-
  FROM THE PRECONDITION TO "EVERY FLOAT INPUT IS A REAL NUMBER".

  The precondition is a printed predicate: for each of the nine float arguments `x` it forms the array of comparison
  words `|x| < +∞` (the absolute value `max x (-x)`, the bound the single-precision pattern `0x7F800000`), reduces
  that array by `and` over every axis from the word 1, and joins the nine results by `and`; the claim assumes the
  outcome is the word 1.  Read backwards:
  • a conjunction of words that is 1 has both operands 1 (`IntOp.andi_eq_one`), nine times;
  • a reduction by `and` over all axes that is 1 met the word 1 at every index (`Host.reduce_andi_all`);
  • over the extended reals the pattern `0x7F800000` denotes `⊤` (`inf_word`), and `max x (-x) < ⊤` excludes
    `x = ⊤` and `x = ⊥`, so `x` is the coercion of a real number (`isR_of_abs_lt_top`, `elem_real`).
  `all_real` is the array step for an arbitrary shape, `fn_real` the predicate over nine variable arrays, and
  `args_real` its instance at the argument buffers of a memory satisfying the precondition, on every device.
-/
import proofs.«164584_j12077448036842_1_alg».proof.Defs
import proofs.«164584_j12077448036842_1_alg».proof.Proof.Gen.Pre_finite_inputs
import proofs.«164584_j12077448036842_1_alg».proof.Proof.LibRealEntries
import Idealize.ShloMosaic.Lib.ReduceAll
import Idealize.ShloMosaic.Lib.ValueIdx
import Idealize.ShloMosaic.PureOps.Ideal.Laws

noncomputable section

namespace Cert.KernelIdeal.Finite

open Idealize.ShloMosaic Idealize.SL.Sem
open Cert.RealEntries (IsR)

/-- The single-precision pattern `0x7F800000` denotes `+∞`. -/
theorem inf_word : Ideal.ofBits .f32 0x7F800000#32 = (⊤ : EReal) := by
  simp [Ideal.ofBits, Ideal.ieee]

/-- An extended real whose absolute value `max x (-x)` lies below `+∞` is a real number. -/
theorem isR_of_abs_lt_top (x : EReal) (h : max x (-x) < ⊤) : IsR x := by
  induction x using EReal.rec with
  | bot => simp at h
  | coe r => exact IsR.coe r
  | top => simp at h

/-- The element step: the comparison word `|x| < +∞` being one says `x` is a real number. -/
theorem elem_real (x : Ideal .f32)
    (h : FloatOps.cmpf .olt (FloatOps.hostAbsf x) (FloatOps.ofBits (F := Ideal) .f32 0x7F800000#32) = 1#1) : IsR x := by
  rw [Ideal.hostAbsf_def, Ideal.absf_def, Ideal.ofBits_def, inf_word, Ideal.cmpf_def] at h
  refine isR_of_abs_lt_top x ?_
  by_contra hn
  simp [Ideal.cmp, hn] at h

instance : Subsingleton Cert.Pre_finite_inputs.S_.Idx := ⟨fun a b => funext fun d => d.elim0⟩

/-- The array step, for any shape: `jnp.all(|a| < +∞)` being one says every entry of `a` is a real number. -/
theorem all_real {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (a : FVec Ideal s .f32) (j : Cert.Pre_finite_inputs.S_.Idx)
    (h : Host.reduce IntOp.andi
          (cmpf .olt (Host.absf a) (broadcastInDim s ![] hb (constant Cert.Pre_finite_inputs.S_ .f32 0x7F800000#32)))
          (constantI Cert.Pre_finite_inputs.S_ 1 1#1) hr hu j = 1#1) :
    ∀ i, IsR (a i) := fun i =>
  elem_real (a i) (Host.reduce_andi_all _ _ hr hu j h i)

/-- The printed predicate being all ones says every float argument is an array of real numbers. -/
theorem fn_real [hP : Cert.Pre_finite_inputs.Facts]
    (a0 : FVec Ideal Cert.Pre_finite_inputs.S100000x256 .f32) (a1 : FVec Ideal Cert.Pre_finite_inputs.S100000x64 .f32)
    (a2 : FVec Ideal Cert.Pre_finite_inputs.S256x128 .f32) (a3 : FVec Ideal Cert.Pre_finite_inputs.S128 .f32)
    (a4 : FVec Ideal Cert.Pre_finite_inputs.S64x128 .f32) (a5 : FVec Ideal Cert.Pre_finite_inputs.S128 .f32)
    (a6 a7 : FVec Ideal Cert.Pre_finite_inputs.S2x3x128x128 .f32) (a8 : FVec Ideal Cert.Pre_finite_inputs.S2x3x128 .f32)
    (a9 a10 a11 a12 a13 a14 : IVec Cert.Pre_finite_inputs.S600000 32)
    (h : Cert.Pre_finite_inputs.fn (F := Ideal) a0 a1 a2 a3 a4 a5 a6 a7 a8 a9 a10 a11 a12 a13 a14 = fun _ => 1#1) :
    (∀ i, IsR (a0 i)) ∧ (∀ i, IsR (a1 i)) ∧ (∀ i, IsR (a2 i)) ∧ (∀ i, IsR (a3 i)) ∧ (∀ i, IsR (a4 i)) ∧
      (∀ i, IsR (a5 i)) ∧ (∀ i, IsR (a6 i)) ∧ (∀ i, IsR (a7 i)) ∧ (∀ i, IsR (a8 i)) := by
  have h := congrFun h ValueIdx.ix0
  dsimp only [Cert.Pre_finite_inputs.fn, Cert.Pre_finite_inputs.fn_part1, Cert.Pre_finite_inputs.fn_part2,
    Idealize.ShloMosaic.andi] at h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨all_real _ _ _ a0 _ h0, all_real _ _ _ a1 _ h1, all_real _ _ _ a2 _ h2, all_real _ _ _ a3 _ h3,
    all_real _ _ _ a4 _ h4, all_real _ _ _ a5 _ h5, all_real _ _ _ a6 _ h6, all_real _ _ _ a7 _ h7,
    all_real _ _ _ a8 _ h8⟩

/-- Under the precondition every float argument of the kernel holds real numbers only, on every device. -/
theorem args_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, IsR (m ((c.tc : Thread Cert.KernelIdeal.nD Cert.KernelIdeal.τ).loc Cert.KernelIdeal.main_arg0) i)) ∧
    (∀ i, IsR (m ((c.tc : Thread Cert.KernelIdeal.nD Cert.KernelIdeal.τ).loc Cert.KernelIdeal.main_arg1) i)) ∧
    (∀ i, IsR (m ((c.tc : Thread Cert.KernelIdeal.nD Cert.KernelIdeal.τ).loc Cert.KernelIdeal.main_arg2) i)) ∧
    (∀ i, IsR (m ((c.tc : Thread Cert.KernelIdeal.nD Cert.KernelIdeal.τ).loc Cert.KernelIdeal.main_arg3) i)) ∧
    (∀ i, IsR (m ((c.tc : Thread Cert.KernelIdeal.nD Cert.KernelIdeal.τ).loc Cert.KernelIdeal.main_arg4) i)) ∧
    (∀ i, IsR (m ((c.tc : Thread Cert.KernelIdeal.nD Cert.KernelIdeal.τ).loc Cert.KernelIdeal.main_arg5) i)) ∧
    (∀ i, IsR (m ((c.tc : Thread Cert.KernelIdeal.nD Cert.KernelIdeal.τ).loc Cert.KernelIdeal.main_arg6) i)) ∧
    (∀ i, IsR (m ((c.tc : Thread Cert.KernelIdeal.nD Cert.KernelIdeal.τ).loc Cert.KernelIdeal.main_arg7) i)) ∧
    (∀ i, IsR (m ((c.tc : Thread Cert.KernelIdeal.nD Cert.KernelIdeal.τ).loc Cert.KernelIdeal.main_arg8) i)) :=
  fn_real _ _ _ _ _ _ _ _ _ _ _ _ _ _ _ (hpre c)

end Cert.KernelIdeal.Finite

end
-- ==== Proof.lean ====
/-
  The certificate of the two-layer mean-aggregating graph convolution: the kernel program (six launches of tiled dense layers
  with the gathers, scatter-adds and divisions between them on the host) against its plain array reference.

  Frames: each program terminates from any memory, nothing faulting, with its fifteen arguments unchanged - the two kernel
  programs by the launch theorem over their six launches and four host stretches, the reference by its run.
  The idealization rewrote nothing, so there is nothing to preserve.
  Equal results, on extended reals: the kernel's two result arrays end as the formulas U2, I2 of its arguments (the chain
  through the ten boundaries of @main), the reference's as the accumulate-from-zero formulas (its operations read one at a
  time); the two differ only in that the kernel adds the two self-weight matrices of the first node type before multiplying.
  A product distributes over a sum of reals, so the forms agree once the multiplied features are real: the inputs are finite
  by the precondition, a projection of reals is real, and a mean aggregation of real rows - gathered rows summed per
  destination and divided by a count that is at least one - is real.
-/
import proofs.«164584_j12077448036842_1_alg».proof.Defs
import proofs.«164584_j12077448036842_1_alg».proof.Proof.Gen.Kernel
import proofs.«164584_j12077448036842_1_alg».proof.Proof.Gen.Kernel.Frame
import proofs.«164584_j12077448036842_1_alg».proof.Proof.Gen.KernelIdeal
import proofs.«164584_j12077448036842_1_alg».proof.Proof.Gen.KernelIdeal.Frame
import proofs.«164584_j12077448036842_1_alg».proof.Proof.Gen.ReferenceIdeal
import proofs.«164584_j12077448036842_1_alg».proof.Proof.Gen.Pre_finite_inputs
import proofs.«164584_j12077448036842_1_alg».proof.Proof.Gen.ReferenceIdeal.Run
import proofs.«164584_j12077448036842_1_alg».proof.Proof.Gen.ReferenceIdeal.Read
import proofs.«164584_j12077448036842_1_alg».proof.Proof.KRun
import proofs.«164584_j12077448036842_1_alg».proof.Proof.KChain
import proofs.«164584_j12077448036842_1_alg».proof.Proof.Final
import proofs.«164584_j12077448036842_1_alg».proof.Proof.Finite
import Idealize.ShloMosaic.Adequacy
import Idealize.ShloMosaic.Init

noncomputable section

namespace Cert.Proof

open Idealize.ShloMosaic Idealize.ShloMosaic.TcCoe Idealize.SL.Sem Cert.RealEntries Cert.Sage

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both idealized programs run, and end with the same two result arrays: the kernel's at the formulas `U2`, `I2` of its
    arguments (the chain through @main's ten boundaries), the reference's at its last stages, which for finite inputs are
    those formulas of the same arguments. -/
theorem algebraic : Cert.algebraic_KernelIdeal_ReferenceIdeal := by
  intro m ρ m' ρ' hpre hagree
  refine ⟨fun c => Cert.KernelIdeal.Chain.U2 m c, fun c => Cert.KernelIdeal.Chain.I2 m c, ?_, ?_⟩
  · exact (θ_run Cert.KernelIdeal.defs _ _).mono
      (fun r h c => ⟨(h c).1.trans (Cert.KernelIdeal.Chain.W10_v146 m ρ c),
        (h c).2.1.trans (Cert.KernelIdeal.Chain.W10_v153 m ρ c), (h c).2.2⟩)
      (Cert.KernelIdeal.Named.run m ρ)
  · refine (θ_run Cert.ReferenceIdeal.defs _ _).mono (fun r h c => ?_) (Cert.ReferenceIdeal.Value.run (F := Ideal) m' ρ')
    obtain ⟨e0, e1, e2, e3, e4, e5, e6, e7, e8, e9, e10, e11, e12, e13, e14⟩ := hagree c
    obtain ⟨r0, r1, r2, r3, r4, r5, r6, r7, r8⟩ := Cert.KernelIdeal.Finite.args_real m hpre c
    refine ⟨(h c).1.trans ?_, (h c).2.1.trans ?_, (h c).2.2⟩
    · rw [Cert.ReferenceIdeal.Read.val_main_v211_eq, e0, e1, e2, e3, e4, e5, e6, e7, e8, e9, e10, e11, e12, e13, e14]
      exact Cert.Final.ref_u _ _ _ _ _ _ _ _ _ _ _ _ _ _ _ r0 r1 r2 r3 r4 r5 r6 r7 r8
    · rw [Cert.ReferenceIdeal.Read.val_main_v219_eq, e0, e1, e2, e3, e4, e5, e6, e7, e8, e9, e10, e11, e12, e13, e14]
      exact Cert.Final.ref_i _ _ _ _ _ _ _ _ _ _ _ _ _ _ _ r0 r1 r2 r3 r4 r5 r6 r7 r8

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
